-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S128 .f32) (main_arg16 : FVec F S128x2 .f32) (main_arg17 : FVec F S2 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x2 .f32 := Host.absf main_arg16
  let main_cst_28 : FVec F S_ .f32 := constant S_ .f32 0x7F800000#32
  let main_v75 : FVec F S128x2 .f32 := broadcastInDim S128x2 ![] bcast_S_S128x2 main_cst_28
  let main_v76 : IVec S128x2 1 := cmpf .olt main_v74 main_v75
  let main_c_29 : IVec S_ 1 := constantI S_ 1 1#1
  let main_v77 : IVec S_ 1 := (fun x v => Host.reduce IntOp.andi x v reducesTo_S128x2_S_d0_1 h_S_) main_v76 main_c_29
  let main_v78 : IVec S_ 1 := andi main_v73 main_v77
  let main_v79 : FVec F S2 .f32 := Host.absf main_arg17
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg12 : FVec F S128 .f32) (main_arg13 : FVec F S128 .f32) (main_arg14 : FVec F S128x128 .f32) (main_arg15 : FVec F S128 .f32) (main_arg16 : FVec F S128x2 .f32) (main_arg17 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128x2 .f32) (main_arg17 : FVec F S2 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128x2 .f32) (main_arg17 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128x2 .f32) (main_arg17 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S1x2 : Shape := ⟨2, ![1, 2]⟩
abbrev S50000x2 : Shape := ⟨2, ![50000, 2]⟩
abbrev S10000x2 : Shape := ⟨2, ![10000, 2]⟩

abbrev nBuf : Space → Nat
  | .hbm => 126
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x2, .f32⟩
  | .hbm, ⟨17, _⟩ => ⟨S2, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S50000, .i32⟩
  | .hbm, ⟨23, _⟩ => ⟨S850000, .i32⟩
  | .hbm, ⟨24, _⟩ => ⟨S850000, .i32⟩
  | .hbm, ⟨25, _⟩ => ⟨S_, .f32⟩
  | .hbm, ⟨26, _⟩ => ⟨S850000, .f32⟩
  | .hbm, ⟨27, _⟩ => ⟨S_, .f32⟩
  | .hbm, ⟨28, _⟩ => ⟨S50000, .f32⟩
  | .hbm, ⟨29, _⟩ => ⟨S850000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .i1⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000, .f32⟩
  | .hbm, ⟨58, _⟩ => ⟨S850000, .f32⟩
  | .hbm, ⟨59, _⟩ => ⟨S50000x128, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x1, .f32⟩
  | .hbm, ⟨70, _⟩ => ⟨S850000x128, .f32⟩
  | .hbm, ⟨71, _⟩ => ⟨S850000x128, .f32⟩
  | .hbm, ⟨72, _⟩ => ⟨S_, .f32⟩
  | .hbm, ⟨73, _⟩ => ⟨S50000x128, .f32⟩
  | .hbm, ⟨74, _⟩ => ⟨S850000x1, .i32⟩
  | .hbm, ⟨75, _⟩ => ⟨S50000x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000x128, .f32⟩
  | .hbm, ⟨92, _⟩ => ⟨S850000x1, .f32⟩
  | .hbm, ⟨93, _⟩ => ⟨S850000x128, .f32⟩
  | .hbm, ⟨94, _⟩ => ⟨S850000x128, .f32⟩
  | .hbm, ⟨95, _⟩ => ⟨S_, .f32⟩
  | .hbm, ⟨96, _⟩ => ⟨S50000x128, .f32⟩
  | .hbm, ⟨97, _⟩ => ⟨S850000x1, .i32⟩
  | .hbm, ⟨98, _⟩ => ⟨S50000x128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S1x128, .f32⟩
  | .hbm, ⟨103, _⟩ => ⟨S1x128, .f32⟩
  | .hbm, ⟨104, _⟩ => ⟨S50000x128, .f32⟩
  | .hbm, ⟨105, _⟩ => ⟨S50000x128, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x128, .f32⟩
  | .hbm, ⟨115, _⟩ => ⟨S850000x1, .f32⟩
  | .hbm, ⟨116, _⟩ => ⟨S850000x128, .f32⟩
  | .hbm, ⟨117, _⟩ => ⟨S850000x128, .f32⟩
  | .hbm, ⟨118, _⟩ => ⟨S_, .f32⟩
  | .hbm, ⟨119, _⟩ => ⟨S50000x128, .f32⟩
  | .hbm, ⟨120, _⟩ => ⟨S850000x1, .i32⟩
  | .hbm, ⟨121, _⟩ => ⟨S50000x128, .f32⟩
  | .hbm, ⟨122, _⟩ => ⟨S1x128, .f32⟩
  | .hbm, ⟨123, _⟩ => ⟨S50000x128, .f32⟩
  | .hbm, ⟨124, _⟩ => ⟨S1x2, .f32⟩
  | .hbm, ⟨125, _⟩ => ⟨S50000x2, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S128x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S1x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x128, .f32⟩
  | .local _ .vmem, ⟨40, _⟩ => ⟨S128x2, .f32⟩
  | .local _ .vmem, ⟨41, _⟩ => ⟨S1x2, .f32⟩
  | .local _ .vmem, ⟨42, _⟩ => ⟨S10000x2, .f32⟩
  | .local _ .vmem, ⟨43, _⟩ => ⟨S10000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_10 : Ref sig .tc := ⟨.hbm, 83, rfl⟩
abbrev main_v53 : Ref sig .tc := ⟨.hbm, 84, rfl⟩
abbrev main_v54 : Ref sig .tc := ⟨.hbm, 85, rfl⟩
abbrev main_c_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_13 : Ref sig .tc := ⟨.hbm, 106, rfl⟩
abbrev main_v73 : Ref sig .tc := ⟨.hbm, 107, rfl⟩
abbrev main_v74 : Ref sig .tc := ⟨.hbm, 108, rfl⟩
abbrev main_c_14 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_15 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem3_0 : DmaSem sig := 42
abbrev cc6_sem3_1 : DmaSem sig := 43

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x2_S10000x2_1_0_0_1_n_n_wf : DotDims.WF S10000x128 S128x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S50000x128.size a
  hwx1_6 : ∀ i : grid1.Coords, EltTy.bits .f32 = 32 ∨ (Rect.block (s := S50000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x128.size a ≤ S50000x128.size a
  hwx3_6 : ∀ i : grid3.Coords, EltTy.bits .f32 = 32 ∨ (Rect.block (s := S50000x128) S10000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S50000x128.size a
  hwx4_2 : ∀ i : grid4.Coords, EltTy.bits .f32 = 32 ∨ (Rect.block (s := S50000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S50000x128.size a
  hwx5_2 : ∀ i : grid5.Coords, EltTy.bits .f32 = 32 ∨ (Rect.block (s := S50000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x2.size a ≤ S128x2.size a
  hwx6_1 : ∀ i : grid6.Coords, EltTy.bits .f32 = 32 ∨ (Rect.block (s := S128x2) S128x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x2.size a ≤ S50000x2.size a
  hwx6_3 : ∀ i : grid6.Coords, EltTy.bits .f32 = 32 ∨ (Rect.block (s := S50000x2) S10000x2.size (cc6_transform_3 i) (hinb6_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v70) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v71) S10000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v71) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v85) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v87) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg16) S128x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v89) S10000x2.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x2 : Shape := ⟨2, ![50000, 2]⟩
abbrev S1x2 : Shape := ⟨2, ![1, 2]⟩

abbrev nBuf : Space → Nat
  | .hbm => 238
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x128, .f32⟩
  | 15 => ⟨S128, .f32⟩
  | 16 => ⟨S128x2, .f32⟩
  | 17 => ⟨S2, .f32⟩
  | 18 => ⟨S1x800000, .i32⟩
  | 19 => ⟨S800000, .i32⟩
  | 20 => ⟨S1x800000, .i32⟩
  | 21 => ⟨S800000, .i32⟩
  | 22 => ⟨S50000x128, .f32⟩
  | 23 => ⟨S50000, .i32⟩
  | 24 => ⟨S850000, .i32⟩
  | 25 => ⟨S850000, .i32⟩
  | 26 => ⟨S_, .f32⟩
  | 27 => ⟨S850000, .f32⟩
  | 28 => ⟨S_, .f32⟩
  | 29 => ⟨S50000, .f32⟩
  | 30 => ⟨S850000x1, .i32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .f32⟩
  | 38 => ⟨S_, .f32⟩
  | 39 => ⟨S50000, .f32⟩
  | 40 => ⟨S50000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S850000, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x128, .f32⟩
  | 69 => ⟨S850000x1, .f32⟩
  | 70 => ⟨S850000x128, .f32⟩
  | 71 => ⟨S850000x128, .f32⟩
  | 72 => ⟨S_, .f32⟩
  | 73 => ⟨S50000x128, .f32⟩
  | 74 => ⟨S850000x1, .i32⟩
  | 75 => ⟨S50000x128, .f32⟩
  | 76 => ⟨S1x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S128, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x128, .f32⟩
  | 99 => ⟨S50000, .i32⟩
  | 100 => ⟨S850000, .i32⟩
  | 101 => ⟨S850000, .i32⟩
  | 102 => ⟨S_, .f32⟩
  | 103 => ⟨S850000, .f32⟩
  | 104 => ⟨S_, .f32⟩
  | 105 => ⟨S50000, .f32⟩
  | 106 => ⟨S850000x1, .i32⟩
  | 107 => ⟨S50000, .f32⟩
  | 108 => ⟨S_, .f32⟩
  | 109 => ⟨S50000, .f32⟩
  | 110 => ⟨S50000, .i1⟩
  | 111 => ⟨S_, .f32⟩
  | 112 => ⟨S50000, .f32⟩
  | 113 => ⟨S50000, .f32⟩
  | 114 => ⟨S_, .f32⟩
  | 115 => ⟨S50000, .f32⟩
  | 116 => ⟨S50000, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000, .f32⟩
  | 126 => ⟨S_, .i32⟩
  | 127 => ⟨S850000, .i32⟩
  | _ => ⟨S50000x128, .f32⟩

abbrev hbmTy0_1 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000, .f32⟩
  | 7 => ⟨S850000, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000x128, .f32⟩
  | 17 => ⟨S850000x1, .f32⟩
  | 18 => ⟨S850000x128, .f32⟩
  | 19 => ⟨S850000x128, .f32⟩
  | 20 => ⟨S_, .f32⟩
  | 21 => ⟨S50000x128, .f32⟩
  | 22 => ⟨S850000x1, .i32⟩
  | 23 => ⟨S50000x128, .f32⟩
  | 24 => ⟨S1x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S128, .f32⟩
  | 32 => ⟨S128, .f32⟩
  | 33 => ⟨S128, .f32⟩
  | 34 => ⟨S1x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S50000, .i32⟩
  | 48 => ⟨S850000, .i32⟩
  | 49 => ⟨S850000, .i32⟩
  | 50 => ⟨S_, .f32⟩
  | 51 => ⟨S850000, .f32⟩
  | 52 => ⟨S_, .f32⟩
  | 53 => ⟨S50000, .f32⟩
  | 54 => ⟨S850000x1, .i32⟩
  | 55 => ⟨S50000, .f32⟩
  | 56 => ⟨S_, .f32⟩
  | 57 => ⟨S50000, .f32⟩
  | 58 => ⟨S50000, .i1⟩
  | 59 => ⟨S_, .f32⟩
  | 60 => ⟨S50000, .f32⟩
  | 61 => ⟨S50000, .f32⟩
  | 62 => ⟨S_, .f32⟩
  | 63 => ⟨S50000, .f32⟩
  | 64 => ⟨S50000, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000, .f32⟩
  | 83 => ⟨S850000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x128, .f32⟩
  | 93 => ⟨S850000x1, .f32⟩
  | 94 => ⟨S850000x128, .f32⟩
  | 95 => ⟨S850000x128, .f32⟩
  | 96 => ⟨S_, .f32⟩
  | 97 => ⟨S50000x128, .f32⟩
  | 98 => ⟨S850000x1, .i32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x2, .f32⟩
  | 107 => ⟨S1x2, .f32⟩
  | 108 => ⟨S50000x2, .f32⟩
  | 109 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_cst_3 : Ref sig .tc := ⟨.hbm, 38, rfl⟩
abbrev main_v16 : Ref sig .tc := ⟨.hbm, 39, rfl⟩
abbrev main_v17 : Ref sig .tc := ⟨.hbm, 40, rfl⟩
abbrev main_c : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call1_cst : Ref sig .tc := ⟨.hbm, 95, rfl⟩
abbrev main_call1_v0 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_11 : Ref sig .tc := ⟨.hbm, 102, rfl⟩
abbrev main_v69 : Ref sig .tc := ⟨.hbm, 103, rfl⟩
abbrev main_cst_12 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_13 : Ref sig .tc := ⟨.hbm, 108, rfl⟩
abbrev main_v73 : Ref sig .tc := ⟨.hbm, 109, rfl⟩
abbrev main_v74 : Ref sig .tc := ⟨.hbm, 110, rfl⟩
abbrev main_cst_14 : Ref sig .tc := ⟨.hbm, 111, rfl⟩
abbrev main_v75 : Ref sig .tc := ⟨.hbm, 112, rfl⟩
abbrev main_v76 : Ref sig .tc := ⟨.hbm, 113, rfl⟩
abbrev main_cst_15 : Ref sig .tc := ⟨.hbm, 114, rfl⟩
abbrev main_v77 : Ref sig .tc := ⟨.hbm, 115, rfl⟩
abbrev main_v78 : Ref sig .tc := ⟨.hbm, 116, rfl⟩
abbrev main_c_16 : Ref sig .tc := ⟨.hbm, 117, rfl⟩
abbrev main_v79 : Ref sig .tc := ⟨.hbm, 118, rfl⟩
abbrev main_v80 : Ref sig .tc := ⟨.hbm, 119, rfl⟩
abbrev main_c_17 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_c_18 : Ref sig .tc := ⟨.hbm, 126, rfl⟩
abbrev main_v86 : Ref sig .tc := ⟨.hbm, 127, rfl⟩
abbrev main_v87 : Ref sig .tc := ⟨.hbm, 128, rfl⟩
abbrev main_c_19 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_c_20 : Ref sig .tc := ⟨.hbm, 136, rfl⟩
abbrev main_v94 : Ref sig .tc := ⟨.hbm, 137, rfl⟩
abbrev main_v95 : Ref sig .tc := ⟨.hbm, 138, rfl⟩
abbrev main_c_21 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_22 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_23 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_call3_cst : Ref sig .tc := ⟨.hbm, 171, rfl⟩
abbrev main_call3_v0 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_24 : Ref sig .tc := ⟨.hbm, 178, rfl⟩
abbrev main_v130 : Ref sig .tc := ⟨.hbm, 179, rfl⟩
abbrev main_cst_25 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_26 : Ref sig .tc := ⟨.hbm, 184, rfl⟩
abbrev main_v134 : Ref sig .tc := ⟨.hbm, 185, rfl⟩
abbrev main_v135 : Ref sig .tc := ⟨.hbm, 186, rfl⟩
abbrev main_cst_27 : Ref sig .tc := ⟨.hbm, 187, rfl⟩
abbrev main_v136 : Ref sig .tc := ⟨.hbm, 188, rfl⟩
abbrev main_v137 : Ref sig .tc := ⟨.hbm, 189, rfl⟩
abbrev main_cst_28 : Ref sig .tc := ⟨.hbm, 190, rfl⟩
abbrev main_v138 : Ref sig .tc := ⟨.hbm, 191, rfl⟩
abbrev main_v139 : Ref sig .tc := ⟨.hbm, 192, rfl⟩
abbrev main_c_29 : Ref sig .tc := ⟨.hbm, 193, rfl⟩
abbrev main_v140 : Ref sig .tc := ⟨.hbm, 194, rfl⟩
abbrev main_v141 : Ref sig .tc := ⟨.hbm, 195, rfl⟩
abbrev main_c_30 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_c_31 : Ref sig .tc := ⟨.hbm, 202, rfl⟩
abbrev main_v147 : Ref sig .tc := ⟨.hbm, 203, rfl⟩
abbrev main_v148 : Ref sig .tc := ⟨.hbm, 204, rfl⟩
abbrev main_c_32 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_c_33 : Ref sig .tc := ⟨.hbm, 212, rfl⟩
abbrev main_v155 : Ref sig .tc := ⟨.hbm, 213, rfl⟩
abbrev main_v156 : Ref sig .tc := ⟨.hbm, 214, rfl⟩
abbrev main_c_34 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_cst_35 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_call5_cst : Ref sig .tc := ⟨.hbm, 231, rfl⟩
abbrev main_call5_v0 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x2_S50000x2_1_0_0_1_n_n_wf : DotDims.WF S50000x128 S128x2 S50000x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KernelRun.lean ====
/-
  The idealized kernel's run with its result named. The program is a chain of fourteen segments — stretches of host
  operations and seven tiled regions — and the contents of every buffer at each boundary are a fold from the launch
  memory: a host stretch applies its operations, a region replaces its output array by what its grid points wrote
  back. Every weakly fair execution terminates without a fault; at the end every buffer that lives across the whole
  program holds the last boundary's contents. Read at the result buffer this names the class scores; read at an
  argument it gives the argument as launched.
-/
import proofs.«101335_j30365418783390_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the arguments end as launched. -/
theorem run_named : θ_run defs (onTc (τ := τ) (main (F := F))) ⟨m, fun _ => 0, ρ⟩ (fun r => ∀ c : Dev nD,
      r.2.mem ((c.tc : Thread nD τ).loc main_v89) = W14 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v89 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c)⟩)

end Cert.KernelIdeal.Run

end
-- ==== Proof.Glue.lean ====
/-
  The graph step of the network, as functions of whole arrays. The edge list is a 2 x 800000 integer array: row 0
  the sources, row 1 the targets. Each row is flattened and 50000 self-loops (the node numbers 0 … 49999) are
  appended, giving 850000 sources and 850000 targets. A node's degree is the number of targets equal to it (a
  scatter of ones into zeros); its factor is degree^(-1/2) where the degree is positive and 0 elsewhere; an edge's
  weight is the product of the factors of its two ends, each end looked up after a negative index is wrapped by
  adding 50000. Mixing a node array along the edges gathers the source rows, scales each by its edge's weight, and
  adds them into the target rows of a zero array. A per-feature vector enters a tiled region as a one-row matrix.
  These are the host operations of the program, named once; they are the same operations at every float instance.
-/
import proofs.«101335_j30365418783390_1_alg».proof.KernelIdeal
import proofs.«101335_j30365418783390_1_alg».proof.Proof.Gen.KernelIdeal

noncomputable section

namespace Cert.KernelIdeal.Glue

open Cert.KernelIdeal Cert.KernelIdeal.Gen Idealize.ShloMosaic

variable {F : FTy → Type} [FloatOps F]

/-- Row k of the edge array, flattened to 800000 entries. -/
def sources (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000
def targets (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- The node numbers 0 … 49999. -/
def nodeIds : (⟨S50000, .i32⟩ : BufTy).Contents (Elt F) := iotaInDim S50000 32 0

/-- An end list with the self-loops appended. -/
def withLoops (r : (⟨S800000, .i32⟩ : BufTy).Contents (Elt F)) (ids : (⟨S50000, .i32⟩ : BufTy).Contents (Elt F)) :
    (⟨S850000, .i32⟩ : BufTy).Contents (Elt F) :=
  concatenate S850000 0 [⟨S800000, r⟩, ⟨S50000, ids⟩] concatenates_S800000_S50000_S850000_d0

/-- An index list as a one-column matrix. -/
def column (x : (⟨S850000, .i32⟩ : BufTy).Contents (Elt F)) : (⟨S850000x1, .i32⟩ : BufTy).Contents (Elt F) :=
  broadcastInDim S850000x1 ![0] bcast_S850000_S850000x1_0 x

/-- A negative index wrapped by adding 50000. -/
def wrap (x : (⟨S850000, .i32⟩ : BufTy).Contents (Elt F)) : (⟨S850000, .i32⟩ : BufTy).Contents (Elt F) :=
  select (cmpi .slt x (broadcastInDim S850000 ![] bcast_S_S850000 (constantI S_ 32 0#32)))
    (addi x (broadcastInDim S850000 ![] bcast_S_S850000 (constantI S_ 32 50000#32))) x

/-- The degree of every node: ones added into zeros at the targets. -/
def degree (dst : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32)) (column dst)
    (broadcastInDim S850000 ![] bcast_S_S850000 (constant S_ .f32 0x3F800000#32))

/-- degree^(-1/2) where the degree is positive, 0 elsewhere. -/
def factor (deg : (⟨S50000, .f32⟩ : BufTy).Contents (Elt F)) : (⟨S50000, .f32⟩ : BufTy).Contents (Elt F) :=
  select (cmpf .ogt deg (broadcastInDim S50000 ![] bcast_S_S50000 (constant S_ .f32 0x00000000#32)))
    (Host.powf deg (broadcastInDim S50000 ![] bcast_S_S50000 (constant S_ .f32 0xBF000000#32)))
    (broadcastInDim S50000 ![] bcast_S_S50000 (constant S_ .f32 0x00000000#32))

/-- An edge's weight: the product of its two ends' factors. -/
def weight (src dst : (⟨S850000, .i32⟩ : BufTy).Contents (Elt F)) : (⟨S850000, .f32⟩ : BufTy).Contents (Elt F) :=
  mulf (Host.gather gather_S50000_S850000x1_S850000_n_0_n_n_0_1_1 (factor (degree dst)) (column (wrap src)))
    (Host.gather gather_S50000_S850000x1_S850000_n_0_n_n_0_1_1 (factor (degree dst)) (column (wrap dst)))

/-- Mixing along the edges: the source rows, each scaled by its edge's weight, added into the target rows. -/
def mix (src dst : (⟨S850000, .i32⟩ : BufTy).Contents (Elt F)) (w : (⟨S850000, .f32⟩ : BufTy).Contents (Elt F))
    (x : (⟨S50000x128, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32)) (column dst)
    (mulf (Host.gather gather_S50000x128_S850000x1_S850000x128_1_0_n_n_0_1_1128 x (column (wrap src)))
      (broadcastInDim S850000x128 ![0, 1] bcast_S850000x1_S850000x128_0_1
        (broadcastInDim S850000x1 ![0] bcast_S850000_S850000x1_0 w)))

/-- A per-feature vector as a one-row matrix. -/
def featRow (v : (⟨S128, .f32⟩ : BufTy).Contents (Elt F)) : (⟨S1x128, .f32⟩ : BufTy).Contents (Elt F) :=
  shapeCast S1x128 v shapeCasts_S128_S1x128
/-- The head's bias as a one-row matrix. -/
def headRow (v : (⟨S2, .f32⟩ : BufTy).Contents (Elt F)) : (⟨S1x2, .f32⟩ : BufTy).Contents (Elt F) :=
  shapeCast S1x2 v shapeCasts_S2_S1x2

end Cert.KernelIdeal.Glue

end
-- ==== Proof.Layers.lean ====
/-
  The arithmetic of one graph-convolution network, layer by layer, as functions of whole arrays of extended reals.
  Nothing here mentions a program: both sides of the certificate are shown to compute these functions.

  A node array has 50000 rows of 128 features. A layer's dense step multiplies it by a 128 x 128 weight matrix:
  entry (p, q) is the sum over k of x(p, k) * w(k, q). Between dense steps the rows are mixed along the graph's
  edges (that step is the same text on both sides and is not restated here). After mixing, a layer adds a bias,
  standardises each feature with stored statistics, (x + b - mu) * (var + eps)^(-1/2) * g + beta, and clamps at
  zero; the last hidden layer only adds the bias and clamps. The output head is one more matrix product, into two
  columns, plus a bias. The per-feature vectors arrive as one-row matrices, read at row 0.
-/
import Idealize.ShloMosaic.PureOps.Ideal
import Idealize.ShloMosaic.Lib.ValueIdx

noncomputable section

open scoped BigOperators

namespace Cert.Layers

open Idealize.ShloMosaic Idealize.ShloMosaic.ValueIdx

/-- Node features: 50000 rows of 128. -/
abbrev Nodes : Shape := ⟨2, ![50000, 128]⟩
/-- A hidden layer's weights. -/
abbrev Weights : Shape := ⟨2, ![128, 128]⟩
/-- A per-feature vector held as a one-row matrix. -/
abbrev FeatRow : Shape := ⟨2, ![1, 128]⟩
/-- The output head's weights: 128 features to 2 classes. -/
abbrev HeadWeights : Shape := ⟨2, ![128, 2]⟩
/-- The output head's bias as a one-row matrix. -/
abbrev HeadRow : Shape := ⟨2, ![1, 2]⟩
/-- The class scores: 50000 rows of 2. -/
abbrev Scores : Shape := ⟨2, ![50000, 2]⟩

/-- The stabiliser added to a variance before the inverse square root: the single-precision word nearest 1e-5,
    read as the exact real it denotes. -/
def eps : EReal := FloatOps.ofBits (F := Ideal) .f32 0x3727C5AC#32

/-- The dense step: entry (p, q) of x w is the sum over k of x(p, k) * w(k, q). -/
def project (x : Nodes.Idx → EReal) (w : Weights.Idx → EReal) : Nodes.Idx → EReal :=
  fun i => ∑ k : Fin 128, x (ix2 (n0 := 50000) (n1 := 128) (i 0) k) * w (ix2 (n0 := 128) (n1 := 128) k (i 1))

/-- Bias, standardisation with stored statistics, and the clamp at zero:
    max (((a + b) - mu) * (var + eps)^(-1/2) * g + beta) 0, feature by feature. -/
def normRelu (a : Nodes.Idx → EReal) (b g beta mu var : FeatRow.Idx → EReal) : Nodes.Idx → EReal :=
  fun i => max ((((a i + b (ix2 (n0 := 1) (n1 := 128) 0 (i 1))) - mu (ix2 (n0 := 1) (n1 := 128) 0 (i 1)))
      * Ideal.rsqrt (var (ix2 (n0 := 1) (n1 := 128) 0 (i 1)) + eps)) * g (ix2 (n0 := 1) (n1 := 128) 0 (i 1))
      + beta (ix2 (n0 := 1) (n1 := 128) 0 (i 1))) 0

/-- Bias and the clamp at zero: max (a + b) 0. -/
def biasRelu (a : Nodes.Idx → EReal) (b : FeatRow.Idx → EReal) : Nodes.Idx → EReal :=
  fun i => max (a i + b (ix2 (n0 := 1) (n1 := 128) 0 (i 1))) 0

/-- The output head: entry (p, q) is the sum over k of h(p, k) * w(k, q), plus the bias b(q). -/
def head (h : Nodes.Idx → EReal) (w : HeadWeights.Idx → EReal) (b : HeadRow.Idx → EReal) : Scores.Idx → EReal :=
  fun i => (∑ k : Fin 128, h (ix2 (n0 := 50000) (n1 := 128) (i 0) k) * w (ix2 (n0 := 128) (n1 := 2) k (i 1)))
    + b (ix2 (n0 := 1) (n1 := 2) 0 (i 1))

end Cert.Layers

end
-- ==== Proof.Network.lean ====
/-
  The whole network as one function of its eighteen argument arrays, at the exact-real reading of floats: three
  rounds of "multiply by a weight matrix, mix along the edges, add a bias" — the first two followed by
  standardisation and a clamp at zero, the third by the clamp alone — and a two-column output head. Both programs of
  the certificate are shown to end with this array.
-/
import proofs.«101335_j30365418783390_1_alg».proof.Proof.Glue
import proofs.«101335_j30365418783390_1_alg».proof.Proof.Layers
import Idealize.ShloMosaic.PureOps.Ideal

noncomputable section

namespace Cert.KernelIdeal.Network

open Cert.KernelIdeal Cert.KernelIdeal.Gen Cert.KernelIdeal.Glue Idealize.ShloMosaic

/-- The edge array's sources and targets with the self-loops appended. -/
def src (e : (⟨S2x800000, .i32⟩ : BufTy).Contents (Elt Ideal)) : (⟨S850000, .i32⟩ : BufTy).Contents (Elt Ideal) :=
  withLoops (sources e) nodeIds
def dst (e : (⟨S2x800000, .i32⟩ : BufTy).Contents (Elt Ideal)) : (⟨S850000, .i32⟩ : BufTy).Contents (Elt Ideal) :=
  withLoops (targets e) nodeIds

/-- Mixing a node array along the graph's edges, each edge weighted by its ends' degree factors. -/
def spread (e : (⟨S2x800000, .i32⟩ : BufTy).Contents (Elt Ideal))
    (x : (⟨S50000x128, .f32⟩ : BufTy).Contents (Elt Ideal)) : (⟨S50000x128, .f32⟩ : BufTy).Contents (Elt Ideal) :=
  mix (src e) (dst e) (weight (src e) (dst e)) x

/-- A standardising layer: a node array times a weight matrix, mixed along the edges, then bias, standardisation
    with stored statistics and the clamp at zero. The first two layers are this step. -/
def standardLayer (x : (⟨S50000x128, .f32⟩ : BufTy).Contents (Elt Ideal)) (e : (⟨S2x800000, .i32⟩ : BufTy).Contents (Elt Ideal))
    (w : (⟨S128x128, .f32⟩ : BufTy).Contents (Elt Ideal)) (b g beta mu var : (⟨S128, .f32⟩ : BufTy).Contents (Elt Ideal)) : (⟨S50000x128, .f32⟩ : BufTy).Contents (Elt Ideal) :=
  Cert.Layers.normRelu (spread e (Cert.Layers.project x w)) (featRow b) (featRow g) (featRow beta) (featRow mu) (featRow var)

/-- A clamping layer: a node array times a weight matrix, mixed along the edges, then bias and the clamp at zero.
    The third layer is this step. -/
def clampLayer (h : (⟨S50000x128, .f32⟩ : BufTy).Contents (Elt Ideal)) (e : (⟨S2x800000, .i32⟩ : BufTy).Contents (Elt Ideal))
    (w : (⟨S128x128, .f32⟩ : BufTy).Contents (Elt Ideal)) (b : (⟨S128, .f32⟩ : BufTy).Contents (Elt Ideal)) : (⟨S50000x128, .f32⟩ : BufTy).Contents (Elt Ideal) :=
  Cert.Layers.biasRelu (spread e (Cert.Layers.project h w)) (featRow b)

/-- The class scores of every node. -/
def scores (x : (⟨S50000x128, .f32⟩ : BufTy).Contents (Elt Ideal)) (e : (⟨S2x800000, .i32⟩ : BufTy).Contents (Elt Ideal))
    (w1 : (⟨S128x128, .f32⟩ : BufTy).Contents (Elt Ideal)) (b1 g1 beta1 mu1 var1 : (⟨S128, .f32⟩ : BufTy).Contents (Elt Ideal))
    (w2 : (⟨S128x128, .f32⟩ : BufTy).Contents (Elt Ideal)) (b2 g2 beta2 mu2 var2 : (⟨S128, .f32⟩ : BufTy).Contents (Elt Ideal))
    (w3 : (⟨S128x128, .f32⟩ : BufTy).Contents (Elt Ideal)) (b3 : (⟨S128, .f32⟩ : BufTy).Contents (Elt Ideal))
    (wh : (⟨S128x2, .f32⟩ : BufTy).Contents (Elt Ideal)) (bh : (⟨S2, .f32⟩ : BufTy).Contents (Elt Ideal)) : (⟨S50000x2, .f32⟩ : BufTy).Contents (Elt Ideal) :=
  Cert.Layers.head
    (clampLayer (standardLayer (standardLayer x e w1 b1 g1 beta1 mu1 var1) e w2 b2 g2 beta2 mu2 var2) e w3 b3)
    wh (headRow bh)

end Cert.KernelIdeal.Network

end
-- ==== Proof.ProjectRegion.lean ====
/-
  The dense step of each of the three hidden layers, as one function of whole arrays.

  A dense step takes the node array x (50000 rows of 128 features) and a 128 x 128 weight matrix w, and
  leaves the array whose entry (r, q) is the sum over k of x(r, k) * w(k, q). The program computes it five
  times over, once per block of 10000 consecutive rows: at grid point t it reads rows 10000 t ... 10000 t + 9999
  of x (all 128 columns) and the whole of w, narrows both to a shorter float format (the identity on extended
  reals), multiplies them on the matrix unit into an accumulator that starts at zero, and writes the product
  back to the same rows of the result.

  Three things are shown, for each of the three dense steps (they differ only in a cast of the loaded block to
  its own shape, which is the identity):
  * entry (p, q) of the product of a loaded block and the weights is the sum over the contraction index k of
    block(p, k) * w(k, q) -- the matrix unit's sum over its one contracted axis, re-indexed by that axis's
    coordinate;
  * what grid point t writes back is the block of rows of the whole-array product x w that starts at row
    10000 t: row p of the block of x read at point t is row 10000 t + p of x, and the weights are read whole;
  * every row r lies in the block of point r / 10000, so the five write-backs together leave x w.
-/
import proofs.«101335_j30365418783390_1_alg».proof.Proof.Gen.KernelIdeal.Frame
import proofs.«101335_j30365418783390_1_alg».proof.Proof.Layers
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ProjectRegion

open Cert.KernelIdeal Cert.KernelIdeal.Gen
open Idealize.ShloMosaic Idealize.ShloMosaic.TcCoe Idealize.SL.Sem Idealize.ShloMosaic.ValueIdx
open Idealize.ShloMosaic.Pipeline (Dat)

/-! ## The block product at an entry -/

/-- The left operand's row coordinate at output entry i is i's row. -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the contraction index. -/
theorem lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the contraction index. -/
theorem rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate at output entry i is i's column. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block of 10000 rows times the weights, into a zero accumulator, read at entry (p, q): the sum over the
    contracted coordinate k of a(p, k) * b(k, q). -/
theorem block_product_apply {φ₁ φ₂ : FTy} (a : FVec Ideal S10000x128 φ₁) (b : FVec Ideal S128x128 φ₂) (p : Fin 10000) (q : Fin 128) :
    (matmul dot_S10000x128_S128x128_S10000x128_1_0_0_1_n_n none a b (constant (F := Ideal) S10000x128 .f32 0x00000000#32) : FVec Ideal S10000x128 .f32)
        (ix2 (n0 := 10000) (n1 := 128) p q)
      = ∑ k : Fin 128, a (ix2 (n0 := 10000) (n1 := 128) p k) * b (ix2 (n0 := 128) (n1 := 128) k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 (n0 := 10000) (n1 := 128) p q) ((contrEquiv1 dot_S10000x128_S128x128_S10000x128_1_0_0_1_n_n 128 rfl rfl).symm k) = ix2 (n0 := 10000) (n1 := 128) p k := funext fun d => Fin.ext (by
    match d with
    | ⟨0, _⟩ => exact lhs_row _ _
    | ⟨1, _⟩ => exact (lhs_col _ _).trans hk)
  have er : dot_S10000x128_S128x128_S10000x128_1_0_0_1_n_n.rhsIdx (ix2 (n0 := 10000) (n1 := 128) p q) ((contrEquiv1 dot_S10000x128_S128x128_S10000x128_1_0_0_1_n_n 128 rfl rfl).symm k) = ix2 (n0 := 128) (n1 := 128) k q := funext fun d => Fin.ext (by
    match d with
    | ⟨0, _⟩ => exact (rhs_row _ _).trans hk
    | ⟨1, _⟩ => exact rhs_col _ _)
  rw [el, er]

/-- The first dense step's payload at entry (p, q). -/
theorem pay0_apply (x : Vec Ideal S10000x128 .f32) (w : Vec Ideal S128x128 .f32) (p : Fin 10000) (q : Fin 128) :
    k0_pay1 (F := Ideal) x w (ix2 (n0 := 10000) (n1 := 128) p q)
      = ∑ k : Fin 128, x (ix2 (n0 := 10000) (n1 := 128) p k) * w (ix2 (n0 := 128) (n1 := 128) k q) := by
  unfold k0_pay1
  exact block_product_apply (truncf .bf16 x bitsLt_bf16_f32) (truncf .bf16 w bitsLt_bf16_f32) p q

/-- The second dense step's payload at entry (p, q): the loaded block is first cast to its own shape. -/
theorem pay2_apply (x : Vec Ideal S10000x128 .f32) (w : Vec Ideal S128x128 .f32) (p : Fin 10000) (q : Fin 128) :
    k2_pay1 (F := Ideal) x w (ix2 (n0 := 10000) (n1 := 128) p q)
      = ∑ k : Fin 128, x (ix2 (n0 := 10000) (n1 := 128) p k) * w (ix2 (n0 := 128) (n1 := 128) k q) := by
  unfold k2_pay1
  refine (block_product_apply (truncf .bf16 (shapeCast S10000x128 x shapeCasts_S10000x128_S10000x128) bitsLt_bf16_f32) (truncf .bf16 w bitsLt_bf16_f32) p q).trans ?_
  refine Finset.sum_congr rfl fun k _ => ?_
  exact congrArg (· * w (ix2 (n0 := 128) (n1 := 128) k q)) (congrFun (shapeCast_self x shapeCasts_S10000x128_S10000x128) _)

/-- The third dense step's payload at entry (p, q): the same text as the second's. -/
theorem pay4_apply (x : Vec Ideal S10000x128 .f32) (w : Vec Ideal S128x128 .f32) (p : Fin 10000) (q : Fin 128) :
    k4_pay1 (F := Ideal) x w (ix2 (n0 := 10000) (n1 := 128) p q)
      = ∑ k : Fin 128, x (ix2 (n0 := 10000) (n1 := 128) p k) * w (ix2 (n0 := 128) (n1 := 128) k q) := by
  unfold k4_pay1
  refine (block_product_apply (truncf .bf16 (shapeCast S10000x128 x shapeCasts_S10000x128_S10000x128) bitsLt_bf16_f32) (truncf .bf16 w bitsLt_bf16_f32) p q).trans ?_
  refine Finset.sum_congr rfl fun k _ => ?_
  exact congrArg (· * w (ix2 (n0 := 128) (n1 := 128) k q)) (congrFun (shapeCast_self x shapeCasts_S10000x128_S10000x128) _)

/-! ## A block of rows of the product -/

/-- The stores and loads of a body cover its whole staging buffers: their offsets are zero. -/
theorem zero_offsets : (![0, 0] : Fin 2 → Nat) = fun _ => 0 := funext fun a => by fin_cases a <;> rfl

/-- Let x be the rows n * 10000 ... n * 10000 + 9999 of A and w be W. A block f whose entry (p, q) is the sum over k
    of x(p, k) * w(k, q) is then the same rows of the whole-array product of A and W: entry i of f is entry r of
    the product whenever r is i moved down by n * 10000 rows. -/
theorem rows_of_project (A : Cert.Layers.Nodes.Idx → EReal) (W : Cert.Layers.Weights.Idx → EReal)
    (x : Vec Ideal S10000x128 .f32) (w : Vec Ideal S128x128 .f32) (f : FVec Ideal S10000x128 .f32) (n : Nat)
    (hf : ∀ (p : Fin 10000) (q : Fin 128), f (ix2 (n0 := 10000) (n1 := 128) p q)
      = ∑ k : Fin 128, x (ix2 (n0 := 10000) (n1 := 128) p k) * w (ix2 (n0 := 128) (n1 := 128) k q))
    (hx : ∀ (i : S10000x128.Idx) (r : Cert.Layers.Nodes.Idx), (r 0).val = n * 10000 + (i 0).val → (r 1).val = (i 1).val → x i = A r)
    (hw : ∀ i : S128x128.Idx, w i = W i)
    (i : S10000x128.Idx) (r : Cert.Layers.Nodes.Idx) (h0 : (r 0).val = n * 10000 + (i 0).val) (h1 : (r 1).val = (i 1).val) :
    f i = Cert.Layers.project A W r := by
  obtain ⟨p, q, rfl⟩ : ∃ (p : Fin 10000) (q : Fin 128), i = ix2 p q := ⟨i 0, i 1, eq_ix2 i⟩
  rw [hf]
  show ∑ k : Fin 128, x (ix2 (n0 := 10000) (n1 := 128) p k) * w (ix2 (n0 := 128) (n1 := 128) k q)
    = ∑ k : Fin 128, A (ix2 (n0 := 50000) (n1 := 128) (r 0) k) * W (ix2 (n0 := 128) (n1 := 128) k (r 1))
  refine Finset.sum_congr rfl fun k _ => ?_
  have hq : r 1 = q := Fin.ext h1
  rw [hx (ix2 (n0 := 10000) (n1 := 128) p k) (ix2 (n0 := 50000) (n1 := 128) (r 0) k) h0 rfl, hw, hq]

/-! ## Region 0: from blocks to the array -/

/-- The index maps over the grid: at point t the node array's block and the result's block are block t of rows,
    all columns; the weights' block is the whole matrix. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of rows of the product of the two arrays the region finds. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (Cert.Layers.project (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨e0, e1, e2, e3, e4, e5⟩ := block_index0 t
  funext j
  refine rows_of_project (V c (Pipeline.arrRef spec0 0)) (V c (Pipeline.arrRef spec0 1)) (iblk0 V c 0 t) (iblk0 V c 1 t) _ t.val
    (pay0_apply _ _) ?_ ?_ _ _ ?_ ?_
  · intro i r h0 h1
    show V c (Pipeline.arrRef spec0 0) (((cfg0.win 0).blk t).view.emb i) = V c (Pipeline.arrRef spec0 0) r
    refine congrArg _ (funext fun a => Fin.ext ?_)
    match a with
    | ⟨0, _⟩ => show win0_0.index t (0 : Fin 2) * 10000 + 1 * (i 0).val = (r 0).val; rw [e0, h0]; omega
    | ⟨1, _⟩ => show win0_0.index t (1 : Fin 2) * 128 + 1 * (i 1).val = (r 1).val; rw [e1, h1]; omega
  · intro i
    show V c (Pipeline.arrRef spec0 1) (((cfg0.win 1).blk t).view.emb i) = V c (Pipeline.arrRef spec0 1) i
    refine congrArg _ (funext fun a => Fin.ext ?_)
    match a with
    | ⟨0, _⟩ => show win0_1.index t (0 : Fin 2) * 128 + 1 * (i 0).val = (i 0).val; rw [e2]; omega
    | ⟨1, _⟩ => show win0_1.index t (1 : Fin 2) * 128 + 1 * (i 1).val = (i 1).val; rw [e3]; omega
  · show win0_2.index t (0 : Fin 2) * 10000 + 1 * (j 0).val = t.val * 10000 + (j 0).val; rw [e4]; omega
  · show win0_2.index t (1 : Fin 2) * 128 + 1 * (j 1).val = (j 1).val; rw [e5]; omega

/-- A row index is in point t's block exactly when each coordinate is in the block's range on its axis. -/
theorem mem_block0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Every entry of the result is written back: row r by the point r / 10000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 10000 := ⟨⟨(i 0).val / 10000, by rw [show cfg0.N = 5 from N_0]; omega⟩, rfl⟩
  obtain ⟨-, -, -, -, e4, e5⟩ := block_index0 t
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 128 ≤ (i 1).val ∧ (i 1).val < win0_2.index t (1 : Fin 2) * 128 + 128; rw [e5]; omega

/-- The result array when the region ends is the product of the node array and the weights the region found. -/
theorem project0 (V : (c : Dev nD) → (b : Ref sig .tc) → Buf (Elt Ideal) ((c : Thread nD τ).loc b)) (c : Dev nD) :
    (dat0 (F := Ideal) V c).arrAt 2 cfg0.N
      = Cert.Layers.project (V c (Pipeline.arrRef spec0 0)) (V c (Pipeline.arrRef spec0 1)) :=
  (dat0 (F := Ideal) V c).arrAt_eq_of_cover 2 _ (fun t _ => flushed0_eq V c t) cover0

/-! ## Region 2: from blocks to the array -/

/-- The index maps over the grid: at point t the node array's block and the result's block are block t of rows,
    all columns; the weights' block is the whole matrix. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of rows of the product of the two arrays the region finds. -/
theorem flushed2_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal)
      (Cert.Layers.project (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S10000x128) zero_offsets, View.ld_unit_zero (S := S128x128) zero_offsets]
  obtain ⟨e0, e1, e2, e3, e4, e5⟩ := block_index2 t
  funext j
  refine rows_of_project (V c (Pipeline.arrRef spec2 0)) (V c (Pipeline.arrRef spec2 1)) (iblk2 V c 0 t) (iblk2 V c 1 t) _ t.val
    (pay2_apply _ _) ?_ ?_ _ _ ?_ ?_
  · intro i r h0 h1
    show V c (Pipeline.arrRef spec2 0) (((cfg2.win 0).blk t).view.emb i) = V c (Pipeline.arrRef spec2 0) r
    refine congrArg _ (funext fun a => Fin.ext ?_)
    match a with
    | ⟨0, _⟩ => show win2_0.index t (0 : Fin 2) * 10000 + 1 * (i 0).val = (r 0).val; rw [e0, h0]; omega
    | ⟨1, _⟩ => show win2_0.index t (1 : Fin 2) * 128 + 1 * (i 1).val = (r 1).val; rw [e1, h1]; omega
  · intro i
    show V c (Pipeline.arrRef spec2 1) (((cfg2.win 1).blk t).view.emb i) = V c (Pipeline.arrRef spec2 1) i
    refine congrArg _ (funext fun a => Fin.ext ?_)
    match a with
    | ⟨0, _⟩ => show win2_1.index t (0 : Fin 2) * 128 + 1 * (i 0).val = (i 0).val; rw [e2]; omega
    | ⟨1, _⟩ => show win2_1.index t (1 : Fin 2) * 128 + 1 * (i 1).val = (i 1).val; rw [e3]; omega
  · show win2_2.index t (0 : Fin 2) * 10000 + 1 * (j 0).val = t.val * 10000 + (j 0).val; rw [e4]; omega
  · show win2_2.index t (1 : Fin 2) * 128 + 1 * (j 1).val = (j 1).val; rw [e5]; omega

/-- A row index is in point t's block exactly when each coordinate is in the block's range on its axis. -/
theorem mem_block2 (t : Fin cfg2.N) (i : S50000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v52).slice (win2_2.rect t)).set ↔ _
  rw [View.set_slice_whole, Rect.mem_set_unit]
  exact Iff.rfl

/-- Every entry of the result is written back: row r by the point r / 10000. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 10000 := ⟨⟨(i 0).val / 10000, by rw [show cfg2.N = 5 from N_2]; omega⟩, rfl⟩
  obtain ⟨-, -, -, -, e4, e5⟩ := block_index2 t
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; rw [e4, ht]; omega
  | ⟨1, _⟩ => show win2_2.index t (1 : Fin 2) * 128 ≤ (i 1).val ∧ (i 1).val < win2_2.index t (1 : Fin 2) * 128 + 128; rw [e5]; omega

/-- The result array when the region ends is the product of the node array and the weights the region found. -/
theorem project2 (V : (c : Dev nD) → (b : Ref sig .tc) → Buf (Elt Ideal) ((c : Thread nD τ).loc b)) (c : Dev nD) :
    (dat2 (F := Ideal) V c).arrAt 2 cfg2.N
      = Cert.Layers.project (V c (Pipeline.arrRef spec2 0)) (V c (Pipeline.arrRef spec2 1)) :=
  (dat2 (F := Ideal) V c).arrAt_eq_of_cover 2 _ (fun t _ => flushed2_eq V c t) cover2

/-! ## Region 4: from blocks to the array -/

/-- The index maps over the grid: at point t the node array's block and the result's block are block t of rows,
    all columns; the weights' block is the whole matrix. -/
theorem block_index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of rows of the product of the two arrays the region finds. -/
theorem flushed4_eq (V : (c : Dev nD) → (b : Ref sig .tc) → Buf (Elt Ideal) ((c : Thread nD τ).loc b)) (c : Dev nD) (t : Fin cfg4.N) :
    (dat4 (F := Ideal) V c).flushed 2 t = ((cfg4.win 2).blk t).view.read (Elt Ideal)
      (Cert.Layers.project (V c (Pipeline.arrRef spec4 0)) (V c (Pipeline.arrRef spec4 1))) := by
  show (cfg4.win 2).cut (grid4.coords t) ((dat4 V c).after 2 t) = _
  rw [after4_2]
  unfold out4_2
  rw [View.canon_unit_zero zero_offsets]
  simp only [View.ld_unit_zero (S := S10000x128) zero_offsets, View.ld_unit_zero (S := S128x128) zero_offsets]
  obtain ⟨e0, e1, e2, e3, e4, e5⟩ := block_index4 t
  funext j
  refine rows_of_project (V c (Pipeline.arrRef spec4 0)) (V c (Pipeline.arrRef spec4 1)) (iblk4 V c 0 t) (iblk4 V c 1 t) _ t.val
    (pay4_apply _ _) ?_ ?_ _ _ ?_ ?_
  · intro i r h0 h1
    show V c (Pipeline.arrRef spec4 0) (((cfg4.win 0).blk t).view.emb i) = V c (Pipeline.arrRef spec4 0) r
    refine congrArg _ (funext fun a => Fin.ext ?_)
    match a with
    | ⟨0, _⟩ => show win4_0.index t (0 : Fin 2) * 10000 + 1 * (i 0).val = (r 0).val; rw [e0, h0]; omega
    | ⟨1, _⟩ => show win4_0.index t (1 : Fin 2) * 128 + 1 * (i 1).val = (r 1).val; rw [e1, h1]; omega
  · intro i
    show V c (Pipeline.arrRef spec4 1) (((cfg4.win 1).blk t).view.emb i) = V c (Pipeline.arrRef spec4 1) i
    refine congrArg _ (funext fun a => Fin.ext ?_)
    match a with
    | ⟨0, _⟩ => show win4_1.index t (0 : Fin 2) * 128 + 1 * (i 0).val = (i 0).val; rw [e2]; omega
    | ⟨1, _⟩ => show win4_1.index t (1 : Fin 2) * 128 + 1 * (i 1).val = (i 1).val; rw [e3]; omega
  · show win4_2.index t (0 : Fin 2) * 10000 + 1 * (j 0).val = t.val * 10000 + (j 0).val; rw [e4]; omega
  · show win4_2.index t (1 : Fin 2) * 128 + 1 * (j 1).val = (j 1).val; rw [e5]; omega

/-- A row index is in point t's block exactly when each coordinate is in the block's range on its axis. -/
theorem mem_block4 (t : Fin cfg4.N) (i : S50000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v72).slice (win4_2.rect t)).set ↔ _
  rw [View.set_slice_whole, Rect.mem_set_unit]
  exact Iff.rfl

/-- Every entry of the result is written back: row r by the point r / 10000. -/
theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ : ∃ t : Fin cfg4.N, t.val = (i 0).val / 10000 := ⟨⟨(i 0).val / 10000, by rw [show cfg4.N = 5 from N_4]; omega⟩, rfl⟩
  obtain ⟨-, -, -, -, e4, e5⟩ := block_index4 t
  refine ⟨t, flush4_2 t, ?_⟩
  rw [mem_block4]
  intro a
  match a with
  | ⟨0, _⟩ => show win4_2.index t (0 : Fin 2) * 10000 ≤ (i 0).val ∧ (i 0).val < win4_2.index t (0 : Fin 2) * 10000 + 10000; rw [e4, ht]; omega
  | ⟨1, _⟩ => show win4_2.index t (1 : Fin 2) * 128 ≤ (i 1).val ∧ (i 1).val < win4_2.index t (1 : Fin 2) * 128 + 128; rw [e5]; omega

/-- The result array when the region ends is the product of the node array and the weights the region found. -/
theorem project4 (V : (c : Dev nD) → (b : Ref sig .tc) → Buf (Elt Ideal) ((c : Thread nD τ).loc b)) (c : Dev nD) :
    (dat4 (F := Ideal) V c).arrAt 2 cfg4.N
      = Cert.Layers.project (V c (Pipeline.arrRef spec4 0)) (V c (Pipeline.arrRef spec4 1)) :=
  (dat4 (F := Ideal) V c).arrAt_eq_of_cover 2 _ (fun t _ => flushed4_eq V c t) cover4

end Cert.KernelIdeal.ProjectRegion

end
-- ==== Proof.NormRegion.lean ====
/-
  The three pointwise steps of the graph-convolution network, each read off its staged, block-by-block run as ONE
  function of whole arrays of extended reals.

  Each step works on a node array of 50000 rows by 128 features, cut into five blocks of 10000 consecutive rows; grid
  point t handles rows 10000 t to 10000 t + 9999. The per-feature vectors (bias, scale, shift, stored mean, stored
  variance) are one-row matrices that every grid point sees whole. Inside a block, entry (p, q) of the result depends
  only on entry (p, q) of the node block and on entry (0, q) of each row vector:

    hidden layers one and two:  max ((((a + b) - mu) * (var + eps)^(-1/2)) * g + beta) 0
    the last hidden layer:      max (a + b) 0

  Three facts give the whole-array statement. First, the block's arithmetic at one entry is the formula above (a
  stretched row reads its entry in the same column; a reshape to the same shape changes nothing; the zero word is the
  number zero). Second, entry (p, q) of block t sits at row 10000 t + p, column q of the array, for the input and the
  output alike, and a row vector's block is the vector, so what point t writes back is block t of the layer's function
  of the arrays. Third, row r lies in the block of point r / 10000, so the five blocks cover the output array, which
  therefore ends holding that function everywhere.
-/
import proofs.«101335_j30365418783390_1_alg».proof.Proof.Gen.KernelIdeal.Frame
import proofs.«101335_j30365418783390_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.NormRegion

open Cert.KernelIdeal Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem zero_offsets : (![0, 0] : Fin 2 → Nat) = fun _ => 0 := funext fun a => by fin_cases a <;> rfl

/-- A one-row vector stretched over 10000 rows reads, at (p, q), its entry (0, q). -/
theorem row_stretch (r : Vec Ideal S1x128 .f32) (hc : S1x128.ShapeCasts S1x128) (h : S1x128.Broadcasts S10000x128)
    (p : Fin 10000) (q : Fin 128) :
    broadcastTo S10000x128 (shapeCast S1x128 r hc) h (ix2 p q) = r (ix2 (n0 := 1) (n1 := 128) 0 q) :=
  (broadcastTo_apply _ h (ix2 p q) (ix2 (n0 := 1) (n1 := 128) 0 q)
    (fun d => match d with | ⟨0, _⟩ => rfl | ⟨1, _⟩ => rfl)).trans (congrFun (shapeCast_self r hc) _)

/-! ## The last hidden layer: bias and clamp -/

/-- The staged computation at one entry: the node entry plus the bias entry of its column, clamped at zero. -/
theorem biasRelu_payload (a : Vec Ideal S10000x128 .f32) (b : Vec Ideal S1x128 .f32) (p : Fin 10000) (q : Fin 128) :
    Gen.k5_pay1 a b (ix2 p q) = max (a (ix2 p q) + b (ix2 (n0 := 1) (n1 := 128) 0 q)) 0 := by
  unfold Gen.k5_pay1
  refine (maximumf_apply _ _ _).trans ?_
  refine congrArg₂ max ?_ Ideal.ofBits_zero_f32
  refine (addf_apply _ _ _).trans ?_
  exact congrArg₂ (· + ·) (congrFun (shapeCast_self a _) _) (row_stretch b _ _ p q)

/-- The same, with the two blocks' entries named as entries of whole arrays. -/
theorem biasRelu_at (A : Cert.Layers.Nodes.Idx → EReal) (B : Cert.Layers.FeatRow.Idx → EReal)
    (a : Vec Ideal S10000x128 .f32) (b : Vec Ideal S1x128 .f32) (p : Fin 10000) (q : Fin 128) (i : Cert.Layers.Nodes.Idx)
    (ha : a (ix2 p q) = A i) (hb : b (ix2 (n0 := 1) (n1 := 128) 0 q) = B (ix2 (n0 := 1) (n1 := 128) 0 (i 1))) :
    Gen.k5_pay1 a b (ix2 p q) = Cert.Layers.biasRelu A B i := by
  rw [biasRelu_payload, ha, hb]; rfl

/-- Which block each window holds at grid point t: the node arrays' block t of rows, the bias row whole. -/
theorem blockIndex5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Entry (p, q) of the input block at point t is the input array's entry under entry (p, q) of the output block at t. -/
theorem nodes_block5 (c : Dev nD) (t : Fin cfg5.N) (p : Fin 10000) (q : Fin 128) :
    Gen.iblk5 V c 0 t (ix2 p q) = V c (Pipeline.arrRef spec5 0) (((cfg5.win 2).blk t).view.emb (ix2 p q)) := by
  obtain ⟨e00, e01, -, -, e20, e21⟩ := blockIndex5 t
  show V c (Pipeline.arrRef spec5 0) (((cfg5.win 0).blk t).view.emb (ix2 p q)) = _
  refine congrArg _ (funext fun a => Fin.ext ?_)
  match a with
  | ⟨0, _⟩ => show win5_0.index t (0 : Fin 2) * 10000 + 1 * p.val = win5_2.index t (0 : Fin 2) * 10000 + 1 * p.val; omega
  | ⟨1, _⟩ => show win5_0.index t (1 : Fin 2) * 128 + 1 * q.val = win5_2.index t (1 : Fin 2) * 128 + 1 * q.val; omega

/-- Entry (0, q) of the bias block at any point is the bias row's entry in the column of the output block's entry (p, q). -/
theorem row_block5 (c : Dev nD) (t : Fin cfg5.N) (p : Fin 10000) (q : Fin 128) :
    Gen.iblk5 V c 1 t (ix2 (n0 := 1) (n1 := 128) 0 q)
      = V c (Pipeline.arrRef spec5 1) (ix2 (n0 := 1) (n1 := 128) 0 ((((cfg5.win 2).blk t).view.emb (ix2 p q)) 1)) := by
  obtain ⟨-, -, e10, e11, e20, e21⟩ := blockIndex5 t
  show V c (Pipeline.arrRef spec5 1) (((cfg5.win 1).blk t).view.emb (ix2 (n0 := 1) (n1 := 128) 0 q)) = _
  refine congrArg _ (funext fun a => Fin.ext ?_)
  match a with
  | ⟨0, _⟩ => show win5_1.index t (0 : Fin 2) * 1 + 1 * 0 = 0; omega
  | ⟨1, _⟩ => show win5_1.index t (1 : Fin 2) * 128 + 1 * q.val = win5_2.index t (1 : Fin 2) * 128 + 1 * q.val; omega

/-- What grid point t writes back is block t of the layer's function of the arrays the region found. -/
theorem flushed5 (c : Dev nD) (t : Fin cfg5.N) :
    (Gen.dat5 (F := Ideal) V c).flushed 2 t
      = ((cfg5.win 2).blk t).view.read (Elt Ideal)
          (Cert.Layers.biasRelu (V c (Pipeline.arrRef spec5 0)) (V c (Pipeline.arrRef spec5 1))) := by
  show (cfg5.win 2).cut (grid5.coords t) ((Gen.dat5 V c).after 2 t) = _
  rw [Gen.after5_2]
  unfold Gen.out5_2
  rw [View.canon_unit_zero zero_offsets]
  simp only [View.ld_unit_zero (S := S10000x128) zero_offsets, View.ld_unit_zero (S := S1x128) zero_offsets]
  funext j
  obtain ⟨p, q, rfl⟩ : ∃ (p : Fin 10000) (q : Fin 128), j = ix2 p q := ⟨j 0, j 1, eq_ix2 j⟩
  show Gen.k5_pay1 (Gen.iblk5 V c 0 t) (Gen.iblk5 V c 1 t) (ix2 p q)
    = Cert.Layers.biasRelu (V c (Pipeline.arrRef spec5 0)) (V c (Pipeline.arrRef spec5 1)) (((cfg5.win 2).blk t).view.emb (ix2 p q))
  exact biasRelu_at _ _ _ _ p q _ (nodes_block5 V c t p q) (row_block5 V c t p q)

/-- An array index lies in point t's output block iff each coordinate lies in the block's range on its axis. -/
theorem mem_block5 (t : Fin cfg5.N) (i : S50000x128.Idx) :
    i ∈ ((cfg5.win 2).blk t).view.set ↔ ∀ a : Fin 2, win5_2.index t a * S10000x128.size a ≤ (i a).val
      ∧ (i a).val < win5_2.index t a * S10000x128.size a + S10000x128.size a := by
  show i ∈ ((View.whole main_v87).slice (win5_2.rect t)).set ↔ _
  rw [View.set_slice_whole, Rect.mem_set_unit]
  exact Iff.rfl

/-- Every row r lies in the block of point r / 10000: the five blocks tile the array. -/
theorem cover5 (i : S50000x128.Idx) :
    ∃ t : Fin cfg5.N, (cfg5.win 2).flush t = true ∧ i ∈ ((cfg5.win 2).blk t).view.set := by
  have hN : cfg5.N = 5 := Gen.N_5
  have h0 : (i 0).val < 50000 := (i 0).isLt
  have h1 : (i 1).val < 128 := (i 1).isLt
  obtain ⟨t, ht⟩ : ∃ t : Fin cfg5.N, t.val = (i 0).val / 10000 := ⟨⟨(i 0).val / 10000, by omega⟩, rfl⟩
  obtain ⟨-, -, -, -, e20, e21⟩ := blockIndex5 t
  refine ⟨t, Gen.flush5_2 t, ?_⟩
  rw [mem_block5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 128 ≤ (i 1).val ∧ (i 1).val < win5_2.index t (1 : Fin 2) * 128 + 128; omega

/-- The region's output array at exit is the layer's function of the arrays it found at entry. -/
theorem biasRelu5 (c : Dev nD) :
    (Gen.dat5 (F := Ideal) V c).arrAt 2 cfg5.N
      = Cert.Layers.biasRelu (V c (Pipeline.arrRef spec5 0)) (V c (Pipeline.arrRef spec5 1)) :=
  (Gen.dat5 (F := Ideal) V c).arrAt_eq_of_cover 2 _ (fun t _ => flushed5 V c t) cover5

/-! ## The first hidden layer: bias, standardisation, clamp -/

/-- The staged computation at one entry, from the node block's entry and the five rows' entries in its column:
    bias added, mean taken off, times the inverse square root of the stabilised variance, times the scale, plus
    the shift, clamped at zero. -/
theorem normRelu_payload1 (a : Vec Ideal S10000x128 .f32) (b mu var g beta : Vec Ideal S1x128 .f32) (p : Fin 10000) (q : Fin 128) :
    Gen.k1_pay1 a b mu var g beta (ix2 p q)
      = max ((((a (ix2 p q) + b (ix2 (n0 := 1) (n1 := 128) 0 q)) - mu (ix2 (n0 := 1) (n1 := 128) 0 q))
          * Ideal.rsqrt (var (ix2 (n0 := 1) (n1 := 128) 0 q) + Cert.Layers.eps)) * g (ix2 (n0 := 1) (n1 := 128) 0 q)
          + beta (ix2 (n0 := 1) (n1 := 128) 0 q)) 0 := by
  unfold Gen.k1_pay1
  refine (maximumf_apply _ _ _).trans ?_
  refine congrArg₂ max ?_ Ideal.ofBits_zero_f32
  refine (addf_apply _ _ _).trans ?_
  refine congrArg₂ (· + ·) ?_ (row_stretch beta _ _ p q)
  refine (mulf_apply _ _ _).trans ?_
  refine congrArg₂ (· * ·) ?_ (row_stretch g _ _ p q)
  refine (mulf_apply _ _ _).trans ?_
  refine congrArg₂ (· * ·) ?_ ?_
  · refine (subf_apply _ _ _).trans ?_
    refine congrArg₂ (· - ·) ?_ (row_stretch mu _ _ p q)
    refine (addf_apply _ _ _).trans ?_
    exact congrArg₂ (· + ·) (congrFun (shapeCast_self a _) _) (row_stretch b _ _ p q)
  · refine (broadcastTo_apply _ _ (ix2 p q) (ix2 (n0 := 1) (n1 := 128) 0 q)
      (fun d => match d with | ⟨0, _⟩ => rfl | ⟨1, _⟩ => rfl)).trans ?_
    show Ideal.rsqrt (shapeCast S1x128 var _ (ix2 (n0 := 1) (n1 := 128) 0 q) + Cert.Layers.eps) = _
    exact congrArg (fun x => Ideal.rsqrt (x + Cert.Layers.eps)) (congrFun (shapeCast_self var _) _)

/-- The same, with the blocks' entries named as entries of whole arrays. -/
theorem normRelu_at1 (A : Cert.Layers.Nodes.Idx → EReal) (B G Be Mu Va : Cert.Layers.FeatRow.Idx → EReal)
    (a : Vec Ideal S10000x128 .f32) (b mu var g beta : Vec Ideal S1x128 .f32) (p : Fin 10000) (q : Fin 128)
    (i : Cert.Layers.Nodes.Idx) (ha : a (ix2 p q) = A i)
    (hb : b (ix2 (n0 := 1) (n1 := 128) 0 q) = B (ix2 (n0 := 1) (n1 := 128) 0 (i 1)))
    (hmu : mu (ix2 (n0 := 1) (n1 := 128) 0 q) = Mu (ix2 (n0 := 1) (n1 := 128) 0 (i 1)))
    (hvar : var (ix2 (n0 := 1) (n1 := 128) 0 q) = Va (ix2 (n0 := 1) (n1 := 128) 0 (i 1)))
    (hg : g (ix2 (n0 := 1) (n1 := 128) 0 q) = G (ix2 (n0 := 1) (n1 := 128) 0 (i 1)))
    (hbeta : beta (ix2 (n0 := 1) (n1 := 128) 0 q) = Be (ix2 (n0 := 1) (n1 := 128) 0 (i 1))) :
    Gen.k1_pay1 a b mu var g beta (ix2 p q) = Cert.Layers.normRelu A B G Be Mu Va i := by
  rw [normRelu_payload1, ha, hb, hmu, hvar, hg, hbeta]; rfl

/-- Which block each window holds at grid point t: the node arrays' block t of rows, each one-row vector whole. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Entry (p, q) of the input block at point t is the input array's entry under entry (p, q) of the output block at t. -/
theorem nodes_block1 (c : Dev nD) (t : Fin cfg1.N) (p : Fin 10000) (q : Fin 128) :
    Gen.iblk1 V c 0 t (ix2 p q) = V c (Pipeline.arrRef spec1 0) (((cfg1.win 6).blk t).view.emb (ix2 p q)) := by
  obtain ⟨e00, e01, -, -, -, -, -, -, -, -, -, -, e60, e61⟩ := blockIndex1 t
  show V c (Pipeline.arrRef spec1 0) (((cfg1.win 0).blk t).view.emb (ix2 p q)) = _
  refine congrArg _ (funext fun a => Fin.ext ?_)
  match a with
  | ⟨0, _⟩ => show win1_0.index t (0 : Fin 2) * 10000 + 1 * p.val = win1_6.index t (0 : Fin 2) * 10000 + 1 * p.val; omega
  | ⟨1, _⟩ => show win1_0.index t (1 : Fin 2) * 128 + 1 * q.val = win1_6.index t (1 : Fin 2) * 128 + 1 * q.val; omega

/-- Entry (0, q) of window 1's one-row block at any point is that row's entry in the column of the output block's entry (p, q). -/
theorem row_block1_1 (c : Dev nD) (t : Fin cfg1.N) (p : Fin 10000) (q : Fin 128) :
    Gen.iblk1 V c 1 t (ix2 (n0 := 1) (n1 := 128) 0 q)
      = V c (Pipeline.arrRef spec1 1) (ix2 (n0 := 1) (n1 := 128) 0 ((((cfg1.win 6).blk t).view.emb (ix2 p q)) 1)) := by
  obtain ⟨-, -, ew0, ew1, -, -, -, -, -, -, -, -, e60, e61⟩ := blockIndex1 t
  show V c (Pipeline.arrRef spec1 1) (((cfg1.win 1).blk t).view.emb (ix2 (n0 := 1) (n1 := 128) 0 q)) = _
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * q.val = win1_6.index t (1 : Fin 2) * 128 + 1 * q.val; omega

/-- Entry (0, q) of window 2's one-row block at any point is that row's entry in the column of the output block's entry (p, q). -/
theorem row_block1_2 (c : Dev nD) (t : Fin cfg1.N) (p : Fin 10000) (q : Fin 128) :
    Gen.iblk1 V c 2 t (ix2 (n0 := 1) (n1 := 128) 0 q)
      = V c (Pipeline.arrRef spec1 2) (ix2 (n0 := 1) (n1 := 128) 0 ((((cfg1.win 6).blk t).view.emb (ix2 p q)) 1)) := by
  obtain ⟨-, -, -, -, ew0, ew1, -, -, -, -, -, -, e60, e61⟩ := blockIndex1 t
  show V c (Pipeline.arrRef spec1 2) (((cfg1.win 2).blk t).view.emb (ix2 (n0 := 1) (n1 := 128) 0 q)) = _
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * q.val = win1_6.index t (1 : Fin 2) * 128 + 1 * q.val; omega

/-- Entry (0, q) of window 3's one-row block at any point is that row's entry in the column of the output block's entry (p, q). -/
theorem row_block1_3 (c : Dev nD) (t : Fin cfg1.N) (p : Fin 10000) (q : Fin 128) :
    Gen.iblk1 V c 3 t (ix2 (n0 := 1) (n1 := 128) 0 q)
      = V c (Pipeline.arrRef spec1 3) (ix2 (n0 := 1) (n1 := 128) 0 ((((cfg1.win 6).blk t).view.emb (ix2 p q)) 1)) := by
  obtain ⟨-, -, -, -, -, -, ew0, ew1, -, -, -, -, e60, e61⟩ := blockIndex1 t
  show V c (Pipeline.arrRef spec1 3) (((cfg1.win 3).blk t).view.emb (ix2 (n0 := 1) (n1 := 128) 0 q)) = _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = win1_6.index t (1 : Fin 2) * 128 + 1 * q.val; omega

/-- Entry (0, q) of window 4's one-row block at any point is that row's entry in the column of the output block's entry (p, q). -/
theorem row_block1_4 (c : Dev nD) (t : Fin cfg1.N) (p : Fin 10000) (q : Fin 128) :
    Gen.iblk1 V c 4 t (ix2 (n0 := 1) (n1 := 128) 0 q)
      = V c (Pipeline.arrRef spec1 4) (ix2 (n0 := 1) (n1 := 128) 0 ((((cfg1.win 6).blk t).view.emb (ix2 p q)) 1)) := by
  obtain ⟨-, -, -, -, -, -, -, -, ew0, ew1, -, -, e60, e61⟩ := blockIndex1 t
  show V c (Pipeline.arrRef spec1 4) (((cfg1.win 4).blk t).view.emb (ix2 (n0 := 1) (n1 := 128) 0 q)) = _
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = win1_6.index t (1 : Fin 2) * 128 + 1 * q.val; omega

/-- Entry (0, q) of window 5's one-row block at any point is that row's entry in the column of the output block's entry (p, q). -/
theorem row_block1_5 (c : Dev nD) (t : Fin cfg1.N) (p : Fin 10000) (q : Fin 128) :
    Gen.iblk1 V c 5 t (ix2 (n0 := 1) (n1 := 128) 0 q)
      = V c (Pipeline.arrRef spec1 5) (ix2 (n0 := 1) (n1 := 128) 0 ((((cfg1.win 6).blk t).view.emb (ix2 p q)) 1)) := by
  obtain ⟨-, -, -, -, -, -, -, -, -, -, ew0, ew1, e60, e61⟩ := blockIndex1 t
  show V c (Pipeline.arrRef spec1 5) (((cfg1.win 5).blk t).view.emb (ix2 (n0 := 1) (n1 := 128) 0 q)) = _
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * q.val = win1_6.index t (1 : Fin 2) * 128 + 1 * q.val; omega

set_option maxHeartbeats 1000000 in
/-- What grid point t writes back is block t of the layer's function of the arrays the region found. -/
theorem flushed1 (c : Dev nD) (t : Fin cfg1.N) :
    (Gen.dat1 (F := Ideal) V c).flushed 6 t
      = ((cfg1.win 6).blk t).view.read (Elt Ideal)
          (Cert.Layers.normRelu (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((Gen.dat1 V c).after 6 t) = _
  rw [Gen.after1_6]
  unfold Gen.out1_6
  rw [View.canon_unit_zero zero_offsets]
  simp only [View.ld_unit_zero (S := S10000x128) zero_offsets, View.ld_unit_zero (S := S1x128) zero_offsets]
  funext j
  obtain ⟨p, q, rfl⟩ : ∃ (p : Fin 10000) (q : Fin 128), j = ix2 p q := ⟨j 0, j 1, eq_ix2 j⟩
  show Gen.k1_pay1 (Gen.iblk1 V c 0 t) (Gen.iblk1 V c 1 t) (Gen.iblk1 V c 4 t) (Gen.iblk1 V c 5 t)
      (Gen.iblk1 V c 2 t) (Gen.iblk1 V c 3 t) (ix2 p q)
    = Cert.Layers.normRelu (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (((cfg1.win 6).blk t).view.emb (ix2 p q))
  exact normRelu_at1 _ _ _ _ _ _ _ _ _ _ _ _ p q _ (nodes_block1 V c t p q) (row_block1_1 V c t p q)
    (row_block1_4 V c t p q) (row_block1_5 V c t p q) (row_block1_2 V c t p q) (row_block1_3 V c t p q)

/-- An array index lies in point t's output block iff each coordinate lies in the block's range on its axis. -/
theorem mem_block1 (t : Fin cfg1.N) (i : S50000x128.Idx) :
    i ∈ ((cfg1.win 6).blk t).view.set ↔ ∀ a : Fin 2, win1_6.index t a * S10000x128.size a ≤ (i a).val
      ∧ (i a).val < win1_6.index t a * S10000x128.size a + S10000x128.size a := by
  show i ∈ ((View.whole main_v51).slice (win1_6.rect t)).set ↔ _
  rw [View.set_slice_whole, Rect.mem_set_unit]
  exact Iff.rfl

/-- Every row r lies in the block of point r / 10000: the five blocks tile the array. -/
theorem cover1 (i : S50000x128.Idx) :
    ∃ t : Fin cfg1.N, (cfg1.win 6).flush t = true ∧ i ∈ ((cfg1.win 6).blk t).view.set := by
  have hN : cfg1.N = 5 := Gen.N_1
  have h0 : (i 0).val < 50000 := (i 0).isLt
  have h1 : (i 1).val < 128 := (i 1).isLt
  obtain ⟨t, ht⟩ : ∃ t : Fin cfg1.N, t.val = (i 0).val / 10000 := ⟨⟨(i 0).val / 10000, by omega⟩, rfl⟩
  obtain ⟨-, -, -, -, -, -, -, -, -, -, -, -, e60, e61⟩ := blockIndex1 t
  refine ⟨t, Gen.flush1_6 t, ?_⟩
  rw [mem_block1]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 128 ≤ (i 1).val ∧ (i 1).val < win1_6.index t (1 : Fin 2) * 128 + 128; omega

/-- The region's output array at exit is the layer's function of the arrays it found at entry:
    windows 0 to 5 are the mixed node array, the bias, the scale, the shift, the stored mean and the stored variance. -/
theorem normRelu1 (c : Dev nD) :
    (Gen.dat1 (F := Ideal) V c).arrAt 6 cfg1.N
      = Cert.Layers.normRelu (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (Gen.dat1 (F := Ideal) V c).arrAt_eq_of_cover 6 _ (fun t _ => flushed1 V c t) cover1

/-! ## The second hidden layer: bias, standardisation, clamp -/

/-- The staged computation at one entry, from the node block's entry and the five rows' entries in its column:
    bias added, mean taken off, times the inverse square root of the stabilised variance, times the scale, plus
    the shift, clamped at zero. -/
theorem normRelu_payload3 (a : Vec Ideal S10000x128 .f32) (b mu var g beta : Vec Ideal S1x128 .f32) (p : Fin 10000) (q : Fin 128) :
    Gen.k3_pay1 a b mu var g beta (ix2 p q)
      = max ((((a (ix2 p q) + b (ix2 (n0 := 1) (n1 := 128) 0 q)) - mu (ix2 (n0 := 1) (n1 := 128) 0 q))
          * Ideal.rsqrt (var (ix2 (n0 := 1) (n1 := 128) 0 q) + Cert.Layers.eps)) * g (ix2 (n0 := 1) (n1 := 128) 0 q)
          + beta (ix2 (n0 := 1) (n1 := 128) 0 q)) 0 := by
  unfold Gen.k3_pay1
  refine (maximumf_apply _ _ _).trans ?_
  refine congrArg₂ max ?_ Ideal.ofBits_zero_f32
  refine (addf_apply _ _ _).trans ?_
  refine congrArg₂ (· + ·) ?_ (row_stretch beta _ _ p q)
  refine (mulf_apply _ _ _).trans ?_
  refine congrArg₂ (· * ·) ?_ (row_stretch g _ _ p q)
  refine (mulf_apply _ _ _).trans ?_
  refine congrArg₂ (· * ·) ?_ ?_
  · refine (subf_apply _ _ _).trans ?_
    refine congrArg₂ (· - ·) ?_ (row_stretch mu _ _ p q)
    refine (addf_apply _ _ _).trans ?_
    exact congrArg₂ (· + ·) (congrFun (shapeCast_self a _) _) (row_stretch b _ _ p q)
  · refine (broadcastTo_apply _ _ (ix2 p q) (ix2 (n0 := 1) (n1 := 128) 0 q)
      (fun d => match d with | ⟨0, _⟩ => rfl | ⟨1, _⟩ => rfl)).trans ?_
    show Ideal.rsqrt (shapeCast S1x128 var _ (ix2 (n0 := 1) (n1 := 128) 0 q) + Cert.Layers.eps) = _
    exact congrArg (fun x => Ideal.rsqrt (x + Cert.Layers.eps)) (congrFun (shapeCast_self var _) _)

/-- The same, with the blocks' entries named as entries of whole arrays. -/
theorem normRelu_at3 (A : Cert.Layers.Nodes.Idx → EReal) (B G Be Mu Va : Cert.Layers.FeatRow.Idx → EReal)
    (a : Vec Ideal S10000x128 .f32) (b mu var g beta : Vec Ideal S1x128 .f32) (p : Fin 10000) (q : Fin 128)
    (i : Cert.Layers.Nodes.Idx) (ha : a (ix2 p q) = A i)
    (hb : b (ix2 (n0 := 1) (n1 := 128) 0 q) = B (ix2 (n0 := 1) (n1 := 128) 0 (i 1)))
    (hmu : mu (ix2 (n0 := 1) (n1 := 128) 0 q) = Mu (ix2 (n0 := 1) (n1 := 128) 0 (i 1)))
    (hvar : var (ix2 (n0 := 1) (n1 := 128) 0 q) = Va (ix2 (n0 := 1) (n1 := 128) 0 (i 1)))
    (hg : g (ix2 (n0 := 1) (n1 := 128) 0 q) = G (ix2 (n0 := 1) (n1 := 128) 0 (i 1)))
    (hbeta : beta (ix2 (n0 := 1) (n1 := 128) 0 q) = Be (ix2 (n0 := 1) (n1 := 128) 0 (i 1))) :
    Gen.k3_pay1 a b mu var g beta (ix2 p q) = Cert.Layers.normRelu A B G Be Mu Va i := by
  rw [normRelu_payload3, ha, hb, hmu, hvar, hg, hbeta]; rfl

/-- Which block each window holds at grid point t: the node arrays' block t of rows, each one-row vector whole. -/
theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Entry (p, q) of the input block at point t is the input array's entry under entry (p, q) of the output block at t. -/
theorem nodes_block3 (c : Dev nD) (t : Fin cfg3.N) (p : Fin 10000) (q : Fin 128) :
    Gen.iblk3 V c 0 t (ix2 p q) = V c (Pipeline.arrRef spec3 0) (((cfg3.win 6).blk t).view.emb (ix2 p q)) := by
  obtain ⟨e00, e01, -, -, -, -, -, -, -, -, -, -, e60, e61⟩ := blockIndex3 t
  show V c (Pipeline.arrRef spec3 0) (((cfg3.win 0).blk t).view.emb (ix2 p q)) = _
  refine congrArg _ (funext fun a => Fin.ext ?_)
  match a with
  | ⟨0, _⟩ => show win3_0.index t (0 : Fin 2) * 10000 + 1 * p.val = win3_6.index t (0 : Fin 2) * 10000 + 1 * p.val; omega
  | ⟨1, _⟩ => show win3_0.index t (1 : Fin 2) * 128 + 1 * q.val = win3_6.index t (1 : Fin 2) * 128 + 1 * q.val; omega

/-- Entry (0, q) of window 1's one-row block at any point is that row's entry in the column of the output block's entry (p, q). -/
theorem row_block3_1 (c : Dev nD) (t : Fin cfg3.N) (p : Fin 10000) (q : Fin 128) :
    Gen.iblk3 V c 1 t (ix2 (n0 := 1) (n1 := 128) 0 q)
      = V c (Pipeline.arrRef spec3 1) (ix2 (n0 := 1) (n1 := 128) 0 ((((cfg3.win 6).blk t).view.emb (ix2 p q)) 1)) := by
  obtain ⟨-, -, ew0, ew1, -, -, -, -, -, -, -, -, e60, e61⟩ := blockIndex3 t
  show V c (Pipeline.arrRef spec3 1) (((cfg3.win 1).blk t).view.emb (ix2 (n0 := 1) (n1 := 128) 0 q)) = _
  refine congrArg _ (funext fun a => Fin.ext ?_)
  match a with
  | ⟨0, _⟩ => show win3_1.index t (0 : Fin 2) * 1 + 1 * 0 = 0; omega
  | ⟨1, _⟩ => show win3_1.index t (1 : Fin 2) * 128 + 1 * q.val = win3_6.index t (1 : Fin 2) * 128 + 1 * q.val; omega

/-- Entry (0, q) of window 2's one-row block at any point is that row's entry in the column of the output block's entry (p, q). -/
theorem row_block3_2 (c : Dev nD) (t : Fin cfg3.N) (p : Fin 10000) (q : Fin 128) :
    Gen.iblk3 V c 2 t (ix2 (n0 := 1) (n1 := 128) 0 q)
      = V c (Pipeline.arrRef spec3 2) (ix2 (n0 := 1) (n1 := 128) 0 ((((cfg3.win 6).blk t).view.emb (ix2 p q)) 1)) := by
  obtain ⟨-, -, -, -, ew0, ew1, -, -, -, -, -, -, e60, e61⟩ := blockIndex3 t
  show V c (Pipeline.arrRef spec3 2) (((cfg3.win 2).blk t).view.emb (ix2 (n0 := 1) (n1 := 128) 0 q)) = _
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * q.val = win3_6.index t (1 : Fin 2) * 128 + 1 * q.val; omega

/-- Entry (0, q) of window 3's one-row block at any point is that row's entry in the column of the output block's entry (p, q). -/
theorem row_block3_3 (c : Dev nD) (t : Fin cfg3.N) (p : Fin 10000) (q : Fin 128) :
    Gen.iblk3 V c 3 t (ix2 (n0 := 1) (n1 := 128) 0 q)
      = V c (Pipeline.arrRef spec3 3) (ix2 (n0 := 1) (n1 := 128) 0 ((((cfg3.win 6).blk t).view.emb (ix2 p q)) 1)) := by
  obtain ⟨-, -, -, -, -, -, ew0, ew1, -, -, -, -, e60, e61⟩ := blockIndex3 t
  show V c (Pipeline.arrRef spec3 3) (((cfg3.win 3).blk t).view.emb (ix2 (n0 := 1) (n1 := 128) 0 q)) = _
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * q.val = win3_6.index t (1 : Fin 2) * 128 + 1 * q.val; omega

/-- Entry (0, q) of window 4's one-row block at any point is that row's entry in the column of the output block's entry (p, q). -/
theorem row_block3_4 (c : Dev nD) (t : Fin cfg3.N) (p : Fin 10000) (q : Fin 128) :
    Gen.iblk3 V c 4 t (ix2 (n0 := 1) (n1 := 128) 0 q)
      = V c (Pipeline.arrRef spec3 4) (ix2 (n0 := 1) (n1 := 128) 0 ((((cfg3.win 6).blk t).view.emb (ix2 p q)) 1)) := by
  obtain ⟨-, -, -, -, -, -, -, -, ew0, ew1, -, -, e60, e61⟩ := blockIndex3 t
  show V c (Pipeline.arrRef spec3 4) (((cfg3.win 4).blk t).view.emb (ix2 (n0 := 1) (n1 := 128) 0 q)) = _
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * q.val = win3_6.index t (1 : Fin 2) * 128 + 1 * q.val; omega

/-- Entry (0, q) of window 5's one-row block at any point is that row's entry in the column of the output block's entry (p, q). -/
theorem row_block3_5 (c : Dev nD) (t : Fin cfg3.N) (p : Fin 10000) (q : Fin 128) :
    Gen.iblk3 V c 5 t (ix2 (n0 := 1) (n1 := 128) 0 q)
      = V c (Pipeline.arrRef spec3 5) (ix2 (n0 := 1) (n1 := 128) 0 ((((cfg3.win 6).blk t).view.emb (ix2 p q)) 1)) := by
  obtain ⟨-, -, -, -, -, -, -, -, -, -, ew0, ew1, e60, e61⟩ := blockIndex3 t
  show V c (Pipeline.arrRef spec3 5) (((cfg3.win 5).blk t).view.emb (ix2 (n0 := 1) (n1 := 128) 0 q)) = _
  refine congrArg _ (funext fun a => Fin.ext ?_)
  match a with
  | ⟨0, _⟩ => show win3_5.index t (0 : Fin 2) * 1 + 1 * 0 = 0; omega
  | ⟨1, _⟩ => show win3_5.index t (1 : Fin 2) * 128 + 1 * q.val = win3_6.index t (1 : Fin 2) * 128 + 1 * q.val; omega

set_option maxHeartbeats 1000000 in
/-- What grid point t writes back is block t of the layer's function of the arrays the region found. -/
theorem flushed3 (c : Dev nD) (t : Fin cfg3.N) :
    (Gen.dat3 (F := Ideal) V c).flushed 6 t
      = ((cfg3.win 6).blk t).view.read (Elt Ideal)
          (Cert.Layers.normRelu (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((Gen.dat3 V c).after 6 t) = _
  rw [Gen.after3_6]
  unfold Gen.out3_6
  rw [View.canon_unit_zero zero_offsets]
  simp only [View.ld_unit_zero (S := S10000x128) zero_offsets, View.ld_unit_zero (S := S1x128) zero_offsets]
  funext j
  obtain ⟨p, q, rfl⟩ : ∃ (p : Fin 10000) (q : Fin 128), j = ix2 p q := ⟨j 0, j 1, eq_ix2 j⟩
  show Gen.k3_pay1 (Gen.iblk3 V c 0 t) (Gen.iblk3 V c 1 t) (Gen.iblk3 V c 4 t) (Gen.iblk3 V c 5 t)
      (Gen.iblk3 V c 2 t) (Gen.iblk3 V c 3 t) (ix2 p q)
    = Cert.Layers.normRelu (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (((cfg3.win 6).blk t).view.emb (ix2 p q))
  exact normRelu_at3 _ _ _ _ _ _ _ _ _ _ _ _ p q _ (nodes_block3 V c t p q) (row_block3_1 V c t p q)
    (row_block3_4 V c t p q) (row_block3_5 V c t p q) (row_block3_2 V c t p q) (row_block3_3 V c t p q)

/-- An array index lies in point t's output block iff each coordinate lies in the block's range on its axis. -/
theorem mem_block3 (t : Fin cfg3.N) (i : S50000x128.Idx) :
    i ∈ ((cfg3.win 6).blk t).view.set ↔ ∀ a : Fin 2, win3_6.index t a * S10000x128.size a ≤ (i a).val
      ∧ (i a).val < win3_6.index t a * S10000x128.size a + S10000x128.size a := by
  show i ∈ ((View.whole main_v71).slice (win3_6.rect t)).set ↔ _
  rw [View.set_slice_whole, Rect.mem_set_unit]
  exact Iff.rfl

/-- Every row r lies in the block of point r / 10000: the five blocks tile the array. -/
theorem cover3 (i : S50000x128.Idx) :
    ∃ t : Fin cfg3.N, (cfg3.win 6).flush t = true ∧ i ∈ ((cfg3.win 6).blk t).view.set := by
  have hN : cfg3.N = 5 := Gen.N_3
  have h0 : (i 0).val < 50000 := (i 0).isLt
  have h1 : (i 1).val < 128 := (i 1).isLt
  obtain ⟨t, ht⟩ : ∃ t : Fin cfg3.N, t.val = (i 0).val / 10000 := ⟨⟨(i 0).val / 10000, by omega⟩, rfl⟩
  obtain ⟨-, -, -, -, -, -, -, -, -, -, -, -, e60, e61⟩ := blockIndex3 t
  refine ⟨t, Gen.flush3_6 t, ?_⟩
  rw [mem_block3]
  intro a
  match a with
  | ⟨0, _⟩ => show win3_6.index t (0 : Fin 2) * 10000 ≤ (i 0).val ∧ (i 0).val < win3_6.index t (0 : Fin 2) * 10000 + 10000; omega
  | ⟨1, _⟩ => show win3_6.index t (1 : Fin 2) * 128 ≤ (i 1).val ∧ (i 1).val < win3_6.index t (1 : Fin 2) * 128 + 128; omega

/-- The region's output array at exit is the layer's function of the arrays it found at entry:
    windows 0 to 5 are the mixed node array, the bias, the scale, the shift, the stored mean and the stored variance. -/
theorem normRelu3 (c : Dev nD) :
    (Gen.dat3 (F := Ideal) V c).arrAt 6 cfg3.N
      = Cert.Layers.normRelu (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (Gen.dat3 (F := Ideal) V c).arrAt_eq_of_cover 6 _ (fun t _ => flushed3 V c t) cover3

end Cert.KernelIdeal.NormRegion

end
-- ==== Proof.HeadRegion.lean ====
/-
  The output head of the network, as one function of the arrays it is entered with.

  The region's grid has five points. Point t holds rows 10000 t ... 10000 t + 9999 of the hidden node array
  (50000 rows of 128 features), the whole 128 x 2 weight matrix and the whole one-row bias, and writes rows
  10000 t ... 10000 t + 9999 of the 50000 x 2 score array. On its block the body computes, at the exact reals, the
  matrix product of the block with the weights (the two narrowing casts of the operands are the identity, the
  accumulator is zero) and adds the bias row to every row: entry (p, q) of the block's result is
  sum over k of h(p, k) * w(k, q), plus b(0, q).

  Entry (r, q) of the score array therefore depends only on row r of the hidden array, column q of the weights and
  entry q of the bias; row r lies in the block of point r / 10000, the five blocks fill the array, and the array the
  region leaves is the specification's output head of the three entry arrays.
-/
import proofs.«101335_j30365418783390_1_alg».proof.Proof.Gen.KernelIdeal.Frame
import proofs.«101335_j30365418783390_1_alg».proof.Proof.Layers
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

open scoped BigOperators

namespace Cert.KernelIdeal.HeadRegion

open Cert.KernelIdeal Cert.KernelIdeal.Gen Idealize.ShloMosaic Idealize.ShloMosaic.TcCoe Idealize.SL.Sem
open Idealize.ShloMosaic.ValueIdx
open Idealize.ShloMosaic.Pipeline (Dat)

/-! ## The product's operand indices -/

/-- The left operand's row is the output's row. -/
theorem lhs_row (i : S10000x2.Idx) (q : dot_S10000x128_S128x2_S10000x2_1_0_0_1_n_n.contr.Idx) :
    (dot_S10000x128_S128x2_S10000x2_1_0_0_1_n_n.lhsIdx i q 0).val = (i 0).val := by
  unfold DotDims.lhsIdx
  rw [dif_neg (show ¬(0 : Fin S10000x128.rank) ∈ dot_S10000x128_S128x2_S10000x2_1_0_0_1_n_n.lhsBatch by decide), dif_pos (show (0 : Fin S10000x128.rank) ∈ dot_S10000x128_S128x2_S10000x2_1_0_0_1_n_n.lhsNonContracting by decide)]
  rfl

/-- The left operand's column is the summation position. -/
theorem lhs_col (i : S10000x2.Idx) (q : dot_S10000x128_S128x2_S10000x2_1_0_0_1_n_n.contr.Idx) :
    (dot_S10000x128_S128x2_S10000x2_1_0_0_1_n_n.lhsIdx i q 1).val = (q ⟨0, by decide⟩).val :=
  dot_S10000x128_S128x2_S10000x2_1_0_0_1_n_n.lhsIdx_val_of_single rfl i q

/-- The right operand's row is the summation position. -/
theorem rhs_row (i : S10000x2.Idx) (q : dot_S10000x128_S128x2_S10000x2_1_0_0_1_n_n.contr.Idx) :
    (dot_S10000x128_S128x2_S10000x2_1_0_0_1_n_n.rhsIdx i q 0).val = (q ⟨0, by decide⟩).val :=
  dot_S10000x128_S128x2_S10000x2_1_0_0_1_n_n.rhsIdx_val_of_single rfl i q

/-- The right operand's column is the output's column. -/
theorem rhs_col (i : S10000x2.Idx) (q : dot_S10000x128_S128x2_S10000x2_1_0_0_1_n_n.contr.Idx) :
    (dot_S10000x128_S128x2_S10000x2_1_0_0_1_n_n.rhsIdx i q 1).val = (i 1).val := by
  unfold DotDims.rhsIdx
  rw [dif_neg (show ¬(1 : Fin S128x2.rank) ∈ dot_S10000x128_S128x2_S10000x2_1_0_0_1_n_n.rhsBatch by decide), dif_pos (show (1 : Fin S128x2.rank) ∈ dot_S10000x128_S128x2_S10000x2_1_0_0_1_n_n.rhsNonContracting by decide)]
  rfl

/-! ## The body's arithmetic at one entry of a block -/

/-- The product into a zero accumulator, at entry (p, q): the sum over k of x(p, k) * y(k, q). -/
theorem product_apply (x : FVec Ideal S10000x128 .bf16) (y : FVec Ideal S128x2 .bf16) (p : Fin 10000) (q : Fin 2) :
    matmul dot_S10000x128_S128x2_S10000x2_1_0_0_1_n_n none x y (constant (F := Ideal) S10000x2 .f32 0x00000000#32) (ix2 p q)
      = ∑ k : Fin 128, x (ix2 p k) * y (ix2 k q) := by
  refine (Ideal.matmul_constant_zero_apply dot_S10000x128_S128x2_S10000x2_1_0_0_1_n_n none x y (ix2 p q)).trans ?_
  rw [← Equiv.sum_comp (ValueIdx.contrEquiv1 dot_S10000x128_S128x2_S10000x2_1_0_0_1_n_n 128 rfl rfl).symm]
  refine Finset.sum_congr rfl fun k _ => ?_
  have hk := ValueIdx.contrEquiv1_symm_val dot_S10000x128_S128x2_S10000x2_1_0_0_1_n_n 128 rfl rfl k
  have el : dot_S10000x128_S128x2_S10000x2_1_0_0_1_n_n.lhsIdx (ix2 p q) ((ValueIdx.contrEquiv1 dot_S10000x128_S128x2_S10000x2_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x2_S10000x2_1_0_0_1_n_n.rhsIdx (ix2 p q) ((ValueIdx.contrEquiv1 dot_S10000x128_S128x2_S10000x2_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row laid along every row of the block, at entry (p, q): the row's entry q. -/
theorem bias_rows_apply (b : Vec Ideal S1x2 .f32) (p : Fin 10000) (q : Fin 2) :
    broadcastTo S10000x2 (shapeCast S1x2 b shapeCasts_S1x2_S1x2) broadcasts_S1x2_S10000x2 (ix2 p q) = b (ix2 0 q) := by
  refine (broadcastTo_apply (shapeCast S1x2 b shapeCasts_S1x2_S1x2) broadcasts_S1x2_S10000x2 (ix2 p q) (ix2 (0 : Fin 1) q) ?_).trans ?_
  · intro a
    match a with
    | ⟨0, _⟩ => rfl
    | ⟨1, _⟩ => rfl
  · exact congrFun (shapeCast_self b shapeCasts_S1x2_S1x2) _

/-- THE BODY AT AN ENTRY: entry (p, q) of what the body computes from a block h of hidden rows, the weights w and the
    bias row b is the sum over k of h(p, k) * w(k, q), plus b(0, q). -/
theorem payload_apply (h : Vec Ideal S10000x128 .f32) (w : Vec Ideal S128x2 .f32) (b : Vec Ideal S1x2 .f32)
    (p : Fin 10000) (q : Fin 2) :
    k6_pay1 (F := Ideal) h w b (ix2 p q) = (∑ k : Fin 128, h (ix2 p k) * w (ix2 k q)) + b (ix2 0 q) := by
  unfold k6_pay1
  refine (addf_apply _ _ (ix2 p q)).trans ?_
  refine congrArg₂ (· + ·) ?_ (bias_rows_apply b p q)
  refine (product_apply _ _ p q).trans ?_
  refine Finset.sum_congr rfl fun k _ => ?_
  refine congrArg₂ (· * ·) ?_ rfl
  exact congrFun (shapeCast_self h shapeCasts_S10000x128_S10000x128) _

/-! ## Where each window's block sits -/

/-- The block indices at grid point t: the hidden rows' block and the scores' block are block t along the rows, the
    weights and the bias row are the one whole block; and there are five points. -/
theorem block_indices : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 ∧ t.val < 5 :=
  (by decide +kernel : ∀ t : Fin grid6.N, _)

theorem zero_offsets : (![0, 0] : Fin 2 → Nat) = fun _ => 0 := funext fun a => by fin_cases a <;> rfl

section Blocks
variable (V : (c : Dev nD) → (b : Ref sig .tc) → Buf (Elt Ideal) ((c : Thread nD τ).loc b))

/-- Entry (p, k) of the hidden rows' block at point t is entry (10000 t + p, k) of the hidden array. -/
theorem hidden_block_apply (c : Dev nD) (t : Fin cfg6.N) (p : Fin 10000) (k : Fin 128) (r : Fin 50000)
    (hr : r.val = 10000 * t.val + p.val) :
    (iblk6 (F := Ideal) V c 0 t : Vec Ideal S10000x128 .f32) (ix2 p k)
      = (V c (Pipeline.arrRef spec6 0) : S50000x128.Idx → EReal) (ix2 r k) := by
  obtain ⟨e0, e1, -⟩ := block_indices t
  unfold iblk6
  rw [View.read_apply]
  show (V c (Pipeline.arrRef spec6 0) : S50000x128.Idx → EReal) (((cfg6.win 0).blk t).view.emb (ix2 p k)) = _
  refine congrArg _ (funext fun a => Fin.ext ?_)
  match a with
  | ⟨0, _⟩ => show win6_0.index t (0 : Fin 2) * 10000 + 1 * p.val = r.val; rw [e0, hr]; omega
  | ⟨1, _⟩ => show win6_0.index t (1 : Fin 2) * 128 + 1 * k.val = k.val; rw [e1]; omega

/-- The weights' block at every point is the weight matrix. -/
theorem weights_block_apply (c : Dev nD) (t : Fin cfg6.N) (k : Fin 128) (q : Fin 2) :
    (iblk6 (F := Ideal) V c 1 t : Vec Ideal S128x2 .f32) (ix2 k q)
      = (V c (Pipeline.arrRef spec6 1) : S128x2.Idx → EReal) (ix2 k q) := by
  obtain ⟨-, -, e0, e1, -⟩ := block_indices t
  unfold iblk6
  rw [View.read_apply]
  show (V c (Pipeline.arrRef spec6 1) : S128x2.Idx → EReal) (((cfg6.win 1).blk t).view.emb (ix2 k q)) = _
  refine congrArg _ (funext fun a => Fin.ext ?_)
  match a with
  | ⟨0, _⟩ => show win6_1.index t (0 : Fin 2) * 128 + 1 * k.val = k.val; rw [e0]; omega
  | ⟨1, _⟩ => show win6_1.index t (1 : Fin 2) * 2 + 1 * q.val = q.val; rw [e1]; omega

/-- The bias row's block at every point is the bias row. -/
theorem bias_block_apply (c : Dev nD) (t : Fin cfg6.N) (q : Fin 2) :
    (iblk6 (F := Ideal) V c 2 t : Vec Ideal S1x2 .f32) (ix2 0 q)
      = (V c (Pipeline.arrRef spec6 2) : S1x2.Idx → EReal) (ix2 0 q) := by
  obtain ⟨-, -, -, -, e0, e1, -⟩ := block_indices t
  unfold iblk6
  rw [View.read_apply]
  show (V c (Pipeline.arrRef spec6 2) : S1x2.Idx → EReal) (((cfg6.win 2).blk t).view.emb (ix2 0 q)) = _
  refine congrArg _ (funext fun a => Fin.ext ?_)
  match a with
  | ⟨0, _⟩ => show win6_2.index t (0 : Fin 2) * 1 + 1 * (0 : Fin 1).val = (0 : Fin 1).val; rw [e0]; rfl
  | ⟨1, _⟩ => show win6_2.index t (1 : Fin 2) * 2 + 1 * q.val = q.val; rw [e1]; omega

/-- The array the region leaves, as the specification's function of the three entry arrays. -/
abbrev scores (c : Dev nD) : S50000x2.Idx → EReal :=
  Cert.Layers.head (V c (Pipeline.arrRef spec6 0)) (V c (Pipeline.arrRef spec6 1)) (V c (Pipeline.arrRef spec6 2))

/-- WHAT POINT t WRITES BACK is rows 10000 t ... 10000 t + 9999 of the output head of the entry arrays. -/
theorem flushed_eq (c : Dev nD) (t : Fin cfg6.N) :
    (dat6 (F := Ideal) V c).flushed 3 t = ((cfg6.win 3).blk t).view.read (Elt Ideal) (scores V c) := by
  show (cfg6.win 3).cut (grid6.coords t) ((dat6 V c).after 3 t) = _
  rw [after6_3]
  unfold out6_3
  rw [View.canon_unit_zero zero_offsets]
  simp only [View.ld_unit_zero (S := S10000x128) zero_offsets, View.ld_unit_zero (S := S128x2) zero_offsets,
    View.ld_unit_zero (S := S1x2) zero_offsets]
  obtain ⟨-, -, -, -, -, -, e0, e1, ht⟩ := block_indices t
  funext j
  obtain ⟨p, q, rfl⟩ : ∃ (p : Fin 10000) (q : Fin 2), j = ix2 p q := ⟨j 0, j 1, eq_ix2 j⟩
  have hp : p.val < 10000 := p.isLt
  refine (payload_apply (iblk6 V c 0 t) (iblk6 V c 1 t) (iblk6 V c 2 t) p q).trans ?_
  have hemb : ((cfg6.win 3).blk t).view.emb (ix2 p q) = (ix2 (⟨10000 * t.val + p.val, by omega⟩ : Fin 50000) q : S50000x2.Idx) := by
    funext a; apply Fin.ext
    match a with
    | ⟨0, _⟩ => show win6_3.index t (0 : Fin 2) * 10000 + 1 * p.val = 10000 * t.val + p.val; rw [e0]; omega
    | ⟨1, _⟩ => show win6_3.index t (1 : Fin 2) * 2 + 1 * q.val = q.val; rw [e1]; omega
  show _ = scores V c (((cfg6.win 3).blk t).view.emb (ix2 p q))
  rw [hemb]
  refine congrArg₂ (· + ·) (Finset.sum_congr rfl fun k _ => congrArg₂ (· * ·) ?_ ?_) ?_
  · exact hidden_block_apply V c t p k _ rfl
  · exact weights_block_apply V c t k q
  · exact bias_block_apply V c t q

/-- An index of the score array is in point t's block iff each coordinate is in the block's range on its axis. -/
theorem mem_block (t : Fin cfg6.N) (i : S50000x2.Idx) :
    i ∈ ((cfg6.win 3).blk t).view.set ↔ ∀ a : Fin 2, win6_3.index t a * S10000x2.size a ≤ (i a).val ∧ (i a).val < win6_3.index t a * S10000x2.size a + S10000x2.size a := by
  show i ∈ ((View.whole main_v89).slice (win6_3.rect t)).set ↔ _
  rw [View.set_slice_whole, Rect.mem_set_unit]
  exact Iff.rfl

/-- The five blocks fill the score array: row r is in the block of point r / 10000. -/
theorem blocks_cover (i : S50000x2.Idx) :
    ∃ t : Fin cfg6.N, (cfg6.win 3).flush t = true ∧ i ∈ ((cfg6.win 3).blk t).view.set := by
  have hN : grid6.N = 5 := N_6
  have hi0 : (i 0).val < 50000 := (i 0).isLt
  have hi1 : (i 1).val < 2 := (i 1).isLt
  have hlt : (i 0).val / 10000 < grid6.N := by rw [hN]; omega
  obtain ⟨-, -, -, -, -, -, e0, e1, -⟩ := block_indices ⟨(i 0).val / 10000, hlt⟩
  have e0' : win6_3.index ⟨(i 0).val / 10000, hlt⟩ (0 : Fin 2) = (i 0).val / 10000 := e0
  refine ⟨⟨(i 0).val / 10000, hlt⟩, flush6_3 _, ?_⟩
  rw [mem_block]
  intro a
  match a with
  | ⟨0, _⟩ =>
    show win6_3.index ⟨(i 0).val / 10000, hlt⟩ (0 : Fin 2) * 10000 ≤ (i 0).val ∧ (i 0).val < win6_3.index ⟨(i 0).val / 10000, hlt⟩ (0 : Fin 2) * 10000 + 10000
    rw [e0']; omega
  | ⟨1, _⟩ =>
    show win6_3.index ⟨(i 0).val / 10000, hlt⟩ (1 : Fin 2) * 2 ≤ (i 1).val ∧ (i 1).val < win6_3.index ⟨(i 0).val / 10000, hlt⟩ (1 : Fin 2) * 2 + 2
    rw [e1]; omega

/-- THE REGION'S OUTPUT: after the five points the score array is the output head of the hidden array, the weights and
    the bias row the region was entered with. -/
theorem head6 (c : Dev nD) :
    (dat6 (F := Ideal) V c).arrAt 3 cfg6.N
      = Cert.Layers.head (V c (Pipeline.arrRef spec6 0)) (V c (Pipeline.arrRef spec6 1)) (V c (Pipeline.arrRef spec6 2)) :=
  (dat6 (F := Ideal) V c).arrAt_eq_of_cover 3 (scores V c) (fun t _ => flushed_eq V c t) blocks_cover

end Blocks

end Cert.KernelIdeal.HeadRegion

end
-- ==== Proof.KernelFold.lean ====
/-
  The idealized kernel's result as a function of its launch arrays. The program's buffer contents at each of its
  fourteen boundaries are a fold: a stretch of host operations rewrites the buffers it writes and keeps the rest; a
  tiled region replaces its output array and keeps the rest. Walking the fold back from the last boundary: the
  result is the output head of the third hidden array; each hidden array is the pointwise layer step of a mixed
  array; each mixed array is the graph step of a product; each product is a region's matrix product of the
  previous hidden array (or of the input) with a weight argument. The edge lists, the edge weights and every
  argument are never rewritten after they are made, so they are read at any later boundary as at the first.
-/
import proofs.«101335_j30365418783390_1_alg».proof.Proof.Gen.KernelIdeal.Frame
import proofs.«101335_j30365418783390_1_alg».proof.Proof.Glue
import proofs.«101335_j30365418783390_1_alg».proof.Proof.Layers
import proofs.«101335_j30365418783390_1_alg».proof.Proof.Network
import proofs.«101335_j30365418783390_1_alg».proof.Proof.ProjectRegion
import proofs.«101335_j30365418783390_1_alg».proof.Proof.NormRegion
import proofs.«101335_j30365418783390_1_alg».proof.Proof.HeadRegion
import Idealize.ShloMosaic.Lib.StableHlo.Run

set_option maxRecDepth 16384

noncomputable section

namespace Cert.KernelIdeal.Fold

open Cert.KernelIdeal Cert.KernelIdeal.Gen Cert.KernelIdeal.Glue Cert.KernelIdeal.Network
open Idealize.ShloMosaic Idealize.ShloMosaic.TcCoe Idealize.SL.Sem Idealize.ShloMosaic.StableHlo

/-! ## What each host stretch writes -/

section Written

variable {F : FTy → Type} [FloatOps F]

/-- The buffers the stretch `hostOps0` writes. -/
def written0 : List (Ref sig .tc) := [main_v0, main_v1, main_v2, main_v3, main_v4, main_v5, main_v6, main_cst, main_v7, main_cst_0, main_v8, main_v9, main_v10, main_cst_1, main_v11, main_v12, main_cst_2, main_v13, main_v14, main_cst_3, main_v15]
theorem written0_sub : (hostOps0 (F := F)).Forall fun op => op.writes ⊆ (written0.map (Proc.devRef (τ := τ) .tc)).toFinset := by
  simp only [hostOps0, written0, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the stretch `hostOps0_1` writes. -/
def written0_1 : List (Ref sig .tc) := [main_v16]
theorem written0_1_sub : (hostOps0_1 (F := F)).Forall fun op => op.writes ⊆ (written0_1.map (Proc.devRef (τ := τ) .tc)).toFinset := by
  simp only [hostOps0_1, written0_1, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the stretch `hostOps0_2` writes. -/
def written0_2 : List (Ref sig .tc) := [main_c, main_v17, main_v18, main_c_4, main_v19, main_v20, main_v21, main_v22, main_v23, main_c_5, main_v24, main_v25, main_c_6, main_v26, main_v27, main_v28, main_v29, main_v30, main_v31]
theorem written0_2_sub : (hostOps0_2 (F := F)).Forall fun op => op.writes ⊆ (written0_2.map (Proc.devRef (τ := τ) .tc)).toFinset := by
  simp only [hostOps0_2, written0_2, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the stretch `hostOps1` writes. -/
def written1 : List (Ref sig .tc) := [main_c_7, main_v33, main_v34, main_c_8, main_v35, main_v36, main_v37, main_v38, main_v39, main_v40, main_v41, main_v42, main_cst_9, main_v43, main_v44, main_v45, main_v46, main_v47, main_v48, main_v49, main_v50]
theorem written1_sub : (hostOps1 (F := F)).Forall fun op => op.writes ⊆ (written1.map (Proc.devRef (τ := τ) .tc)).toFinset := by
  simp only [hostOps1, written1, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the stretch `hostOps3` writes. -/
def written3 : List (Ref sig .tc) := [main_c_10, main_v53, main_v54, main_c_11, main_v55, main_v56, main_v57, main_v58, main_v59, main_v60, main_v61, main_v62, main_cst_12, main_v63, main_v64, main_v65, main_v66, main_v67, main_v68, main_v69, main_v70]
theorem written3_sub : (hostOps3 (F := F)).Forall fun op => op.writes ⊆ (written3.map (Proc.devRef (τ := τ) .tc)).toFinset := by
  simp only [hostOps3, written3, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the stretch `hostOps5` writes. -/
def written5 : List (Ref sig .tc) := [main_c_13, main_v73, main_v74, main_c_14, main_v75, main_v76, main_v77, main_v78, main_v79, main_v80, main_v81, main_v82, main_cst_15, main_v83, main_v84, main_v85, main_v86]
theorem written5_sub : (hostOps5 (F := F)).Forall fun op => op.writes ⊆ (written5.map (Proc.devRef (τ := τ) .tc)).toFinset := by
  simp only [hostOps5, written5, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers the stretch `hostOps6` writes. -/
def written6 : List (Ref sig .tc) := [main_v88]
theorem written6_sub : (hostOps6 (F := F)).Forall fun op => op.writes ⊆ (written6.map (Proc.devRef (τ := τ) .tc)).toFinset := by
  simp only [hostOps6, written6, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

end Written

/-! ## A buffer nobody writes is read at a later boundary as at an earlier one -/

section Walk

variable {F : FTy → Type} [FloatOps F]
variable (m : (ℓ : Loc nD τ sig) → Buf (Elt F) ℓ) (ρ : Dev nD → PrngReg) (c : Dev nD)

/-- From region 0's entry back to the launch: the three opening stretches do not write `b`. -/
theorem W3_launch (b : Ref sig .tc) (h0 : b ∉ written0) (h1 : b ∉ written0_1) (h2 : b ∉ written0_2) :
    W3 m ρ c (Proc.devRef .tc b) = m ((c : Thread nD τ).loc b) :=
  (after_of_writes_sub hostOps0_2 _ written0_2_sub h2).trans
    ((after_of_writes_sub hostOps0_1 _ written0_1_sub h1).trans (after_of_writes_sub hostOps0 _ written0_sub h0))

theorem W5_W4 (b : Ref sig .tc) (h : b ∉ written1) : W5 m ρ c (Proc.devRef .tc b) = W4 m ρ c (Proc.devRef .tc b) :=
  after_of_writes_sub hostOps1 _ written1_sub h
theorem W8_W7 (b : Ref sig .tc) (h : b ∉ written3) : W8 m ρ c (Proc.devRef .tc b) = W7 m ρ c (Proc.devRef .tc b) :=
  after_of_writes_sub hostOps3 _ written3_sub h
theorem W11_W10 (b : Ref sig .tc) (h : b ∉ written5) : W11 m ρ c (Proc.devRef .tc b) = W10 m ρ c (Proc.devRef .tc b) :=
  after_of_writes_sub hostOps5 _ written5_sub h
theorem W13_W12 (b : Ref sig .tc) (h : b ∉ written6) : W13 m ρ c (Proc.devRef .tc b) = W12 m ρ c (Proc.devRef .tc b) :=
  after_of_writes_sub hostOps6 _ written6_sub h

/-- From region 2's exit back to region 0's entry. -/
theorem W7_W3 (b : Ref sig .tc) (h2 : ∀ w, Pipeline.arrRef spec2 w ≠ b) (h1 : ∀ w, Pipeline.arrRef spec1 w ≠ b)
    (hs : b ∉ written1) (h0 : ∀ w, Pipeline.arrRef spec0 w ≠ b) :
    W7 m ρ c (Proc.devRef .tc b) = W3 m ρ c (Proc.devRef .tc b) :=
  (W7_of_ne m ρ c b h2).trans ((W6_of_ne m ρ c b h1).trans ((W5_W4 m ρ c b hs).trans (W4_of_ne m ρ c b h0)))
/-- From region 4's exit back to region 2's exit. -/
theorem W10_W7 (b : Ref sig .tc) (h4 : ∀ w, Pipeline.arrRef spec4 w ≠ b) (h3 : ∀ w, Pipeline.arrRef spec3 w ≠ b)
    (hs : b ∉ written3) : W10 m ρ c (Proc.devRef .tc b) = W7 m ρ c (Proc.devRef .tc b) :=
  (W10_of_ne m ρ c b h4).trans ((W9_of_ne m ρ c b h3).trans (W8_W7 m ρ c b hs))
/-- From region 5's exit back to region 4's exit. -/
theorem W12_W10 (b : Ref sig .tc) (h5 : ∀ w, Pipeline.arrRef spec5 w ≠ b) (hs : b ∉ written5) :
    W12 m ρ c (Proc.devRef .tc b) = W10 m ρ c (Proc.devRef .tc b) :=
  (W12_of_ne m ρ c b h5).trans (W11_W10 m ρ c b hs)

end Walk

/-! ## What each host stretch computes, from any entry contents -/

section Stretches

variable {F : FTy → Type} [FloatOps F] (V : Valuation τ sig (Elt F))

set_option maxHeartbeats 4000000 in
/-- The opening stretches make the two end lists with self-loops … -/
theorem opening_src : after hostOps0_2 (after hostOps0_1 (after (hostOps0 (F := F)) V)) (Proc.devRef .tc main_v5)
    = withLoops (sources (V (Proc.devRef .tc main_arg1))) nodeIds := by
  rw [after_of_writes_sub hostOps0_2 _ written0_2_sub (by decide), after_of_writes_sub hostOps0_1 _ written0_1_sub (by decide)]
  after_results
  rfl
set_option maxHeartbeats 4000000 in
theorem opening_dst : after hostOps0_2 (after hostOps0_1 (after (hostOps0 (F := F)) V)) (Proc.devRef .tc main_v6)
    = withLoops (targets (V (Proc.devRef .tc main_arg1))) nodeIds := by
  rw [after_of_writes_sub hostOps0_2 _ written0_2_sub (by decide), after_of_writes_sub hostOps0_1 _ written0_1_sub (by decide)]
  after_results
  rfl
set_option maxHeartbeats 8000000 in
/-- … and the edge weights: the product of the two ends' degree factors. -/
theorem opening_weight : after hostOps0_2 (after hostOps0_1 (after (hostOps0 (F := F)) V)) (Proc.devRef .tc main_v31)
    = weight (withLoops (sources (V (Proc.devRef .tc main_arg1))) nodeIds) (withLoops (targets (V (Proc.devRef .tc main_arg1))) nodeIds) := by
  after_results
  rfl

set_option maxHeartbeats 4000000 in
/-- The stretch before a pointwise region mixes the product along the edges … -/
theorem stretch1_mix : after (hostOps1 (F := F)) V (Proc.devRef .tc main_v45)
    = mix (V (Proc.devRef .tc main_v5)) (V (Proc.devRef .tc main_v6)) (V (Proc.devRef .tc main_v31)) (V (Proc.devRef .tc main_v32)) := by
  after_results
  rfl
set_option maxHeartbeats 4000000 in
theorem stretch3_mix : after (hostOps3 (F := F)) V (Proc.devRef .tc main_v65)
    = mix (V (Proc.devRef .tc main_v5)) (V (Proc.devRef .tc main_v6)) (V (Proc.devRef .tc main_v31)) (V (Proc.devRef .tc main_v52)) := by
  after_results
  rfl
set_option maxHeartbeats 4000000 in
theorem stretch5_mix : after (hostOps5 (F := F)) V (Proc.devRef .tc main_v85)
    = mix (V (Proc.devRef .tc main_v5)) (V (Proc.devRef .tc main_v6)) (V (Proc.devRef .tc main_v31)) (V (Proc.devRef .tc main_v72)) := by
  after_results
  rfl

set_option maxHeartbeats 4000000 in
/-- … and lays each per-feature argument out as a one-row matrix. -/
theorem stretch1_row46 : after (hostOps1 (F := F)) V (Proc.devRef .tc main_v46) = featRow (V (Proc.devRef .tc main_arg3)) := by
  after_results
  rfl
set_option maxHeartbeats 4000000 in
theorem stretch1_row47 : after (hostOps1 (F := F)) V (Proc.devRef .tc main_v47) = featRow (V (Proc.devRef .tc main_arg4)) := by
  after_results
  rfl
set_option maxHeartbeats 4000000 in
theorem stretch1_row48 : after (hostOps1 (F := F)) V (Proc.devRef .tc main_v48) = featRow (V (Proc.devRef .tc main_arg5)) := by
  after_results
  rfl
set_option maxHeartbeats 4000000 in
theorem stretch1_row49 : after (hostOps1 (F := F)) V (Proc.devRef .tc main_v49) = featRow (V (Proc.devRef .tc main_arg6)) := by
  after_results
  rfl
set_option maxHeartbeats 4000000 in
theorem stretch1_row50 : after (hostOps1 (F := F)) V (Proc.devRef .tc main_v50) = featRow (V (Proc.devRef .tc main_arg7)) := by
  after_results
  rfl
set_option maxHeartbeats 4000000 in
theorem stretch3_row66 : after (hostOps3 (F := F)) V (Proc.devRef .tc main_v66) = featRow (V (Proc.devRef .tc main_arg9)) := by
  after_results
  rfl
set_option maxHeartbeats 4000000 in
theorem stretch3_row67 : after (hostOps3 (F := F)) V (Proc.devRef .tc main_v67) = featRow (V (Proc.devRef .tc main_arg10)) := by
  after_results
  rfl
set_option maxHeartbeats 4000000 in
theorem stretch3_row68 : after (hostOps3 (F := F)) V (Proc.devRef .tc main_v68) = featRow (V (Proc.devRef .tc main_arg11)) := by
  after_results
  rfl
set_option maxHeartbeats 4000000 in
theorem stretch3_row69 : after (hostOps3 (F := F)) V (Proc.devRef .tc main_v69) = featRow (V (Proc.devRef .tc main_arg12)) := by
  after_results
  rfl
set_option maxHeartbeats 4000000 in
theorem stretch3_row70 : after (hostOps3 (F := F)) V (Proc.devRef .tc main_v70) = featRow (V (Proc.devRef .tc main_arg13)) := by
  after_results
  rfl
set_option maxHeartbeats 4000000 in
theorem stretch5_row86 : after (hostOps5 (F := F)) V (Proc.devRef .tc main_v86) = featRow (V (Proc.devRef .tc main_arg15)) := by
  after_results
  rfl
theorem stretch6_row : after (hostOps6 (F := F)) V (Proc.devRef .tc main_v88) = headRow (V (Proc.devRef .tc main_arg17)) := by
  after_results
  rfl

end Stretches

/-! ## The fold walked back, at the exact-real instance -/

section Scores

variable (m : (ℓ : Loc nD τ sig) → Buf (Elt Ideal) ℓ) (ρ : Dev nD → PrngReg) (c : Dev nD)

/-- The end lists and the edge weights at region 0's entry. -/
theorem W3_src : W3 m ρ c (Proc.devRef .tc main_v5) = src (m ((c : Thread nD τ).loc main_arg1)) := opening_src (W0 m ρ c)
theorem W3_dst : W3 m ρ c (Proc.devRef .tc main_v6) = dst (m ((c : Thread nD τ).loc main_arg1)) := opening_dst (W0 m ρ c)
theorem W3_weight : W3 m ρ c (Proc.devRef .tc main_v31) = weight (src (m ((c : Thread nD τ).loc main_arg1))) (dst (m ((c : Thread nD τ).loc main_arg1))) := opening_weight (W0 m ρ c)

/-- The first product: region 0 on the input and the first weights. -/
theorem W4_product : W4 m ρ c (Proc.devRef .tc main_v32) = Cert.Layers.project (m ((c : Thread nD τ).loc main_arg0)) (m ((c : Thread nD τ).loc main_arg2)) :=
  (W4_arr m ρ c 2).trans ((ProjectRegion.project0 (V3 m ρ) c).trans
    (congrArg₂ Cert.Layers.project (W3_launch m ρ c main_arg0 (by decide) (by decide) (by decide))
      (W3_launch m ρ c main_arg2 (by decide) (by decide) (by decide))))

/-- The first mixed array, at region 1's entry. -/
theorem W5_mixed : W5 m ρ c (Proc.devRef .tc main_v45) = spread (m ((c : Thread nD τ).loc main_arg1)) (Cert.Layers.project (m ((c : Thread nD τ).loc main_arg0)) (m ((c : Thread nD τ).loc main_arg2))) := by
  refine (stretch1_mix (W4 m ρ c)).trans ?_
  rw [W4_of_ne m ρ c main_v5 (by decide), W4_of_ne m ρ c main_v6 (by decide), W4_of_ne m ρ c main_v31 (by decide),
    W3_src, W3_dst, W3_weight, W4_product]
  rfl

/-- The three hidden arrays as functions of the launch arrays. -/
def hidden1 : (⟨S50000x128, .f32⟩ : BufTy).Contents (Elt Ideal) :=
  Network.standardLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
def hidden2 : (⟨S50000x128, .f32⟩ : BufTy).Contents (Elt Ideal) :=
  Network.standardLayer (hidden1 m c) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
def hidden3 : (⟨S50000x128, .f32⟩ : BufTy).Contents (Elt Ideal) :=
  Network.clampLayer (hidden2 m c) (m ((c : Thread nD τ).loc main_arg1)) (m ((c : Thread nD τ).loc main_arg14)) (m ((c : Thread nD τ).loc main_arg15))

/-! ### A buffer nobody has written yet is still the launch's -/

theorem W4_launch (b : Ref sig .tc) (h0 : ∀ w, Pipeline.arrRef spec0 w ≠ b) (k0 : b ∉ written0) (k1 : b ∉ written0_1) (k2 : b ∉ written0_2) :
    W4 m ρ c (Proc.devRef .tc b) = m ((c : Thread nD τ).loc b) :=
  (W4_of_ne m ρ c b h0).trans (W3_launch m ρ c b k0 k1 k2)
theorem W7_launch (b : Ref sig .tc) (h2 : ∀ w, Pipeline.arrRef spec2 w ≠ b) (h1 : ∀ w, Pipeline.arrRef spec1 w ≠ b) (s1 : b ∉ written1)
    (h0 : ∀ w, Pipeline.arrRef spec0 w ≠ b) (k0 : b ∉ written0) (k1 : b ∉ written0_1) (k2 : b ∉ written0_2) :
    W7 m ρ c (Proc.devRef .tc b) = m ((c : Thread nD τ).loc b) :=
  (W7_W3 m ρ c b h2 h1 s1 h0).trans (W3_launch m ρ c b k0 k1 k2)
theorem W10_launch (b : Ref sig .tc) (h4 : ∀ w, Pipeline.arrRef spec4 w ≠ b) (h3 : ∀ w, Pipeline.arrRef spec3 w ≠ b) (s3 : b ∉ written3)
    (h2 : ∀ w, Pipeline.arrRef spec2 w ≠ b) (h1 : ∀ w, Pipeline.arrRef spec1 w ≠ b) (s1 : b ∉ written1)
    (h0 : ∀ w, Pipeline.arrRef spec0 w ≠ b) (k0 : b ∉ written0) (k1 : b ∉ written0_1) (k2 : b ∉ written0_2) :
    W10 m ρ c (Proc.devRef .tc b) = m ((c : Thread nD τ).loc b) :=
  (W10_W7 m ρ c b h4 h3 s3).trans (W7_launch m ρ c b h2 h1 s1 h0 k0 k1 k2)
theorem W12_launch (b : Ref sig .tc) (h5 : ∀ w, Pipeline.arrRef spec5 w ≠ b) (s5 : b ∉ written5)
    (h4 : ∀ w, Pipeline.arrRef spec4 w ≠ b) (h3 : ∀ w, Pipeline.arrRef spec3 w ≠ b) (s3 : b ∉ written3)
    (h2 : ∀ w, Pipeline.arrRef spec2 w ≠ b) (h1 : ∀ w, Pipeline.arrRef spec1 w ≠ b) (s1 : b ∉ written1)
    (h0 : ∀ w, Pipeline.arrRef spec0 w ≠ b) (k0 : b ∉ written0) (k1 : b ∉ written0_1) (k2 : b ∉ written0_2) :
    W12 m ρ c (Proc.devRef .tc b) = m ((c : Thread nD τ).loc b) :=
  (W12_W10 m ρ c b h5 s5).trans (W10_launch m ρ c b h4 h3 s3 h2 h1 s1 h0 k0 k1 k2)

/-! ### Layer 1 -/

theorem W5_row46 : W5 m ρ c (Proc.devRef .tc main_v46) = featRow (m ((c : Thread nD τ).loc main_arg3)) :=
  (stretch1_row46 (W4 m ρ c)).trans (congrArg featRow (W4_launch m ρ c main_arg3 (by decide) (by decide) (by decide) (by decide)))
theorem W5_row47 : W5 m ρ c (Proc.devRef .tc main_v47) = featRow (m ((c : Thread nD τ).loc main_arg4)) :=
  (stretch1_row47 (W4 m ρ c)).trans (congrArg featRow (W4_launch m ρ c main_arg4 (by decide) (by decide) (by decide) (by decide)))
theorem W5_row48 : W5 m ρ c (Proc.devRef .tc main_v48) = featRow (m ((c : Thread nD τ).loc main_arg5)) :=
  (stretch1_row48 (W4 m ρ c)).trans (congrArg featRow (W4_launch m ρ c main_arg5 (by decide) (by decide) (by decide) (by decide)))
theorem W5_row49 : W5 m ρ c (Proc.devRef .tc main_v49) = featRow (m ((c : Thread nD τ).loc main_arg6)) :=
  (stretch1_row49 (W4 m ρ c)).trans (congrArg featRow (W4_launch m ρ c main_arg6 (by decide) (by decide) (by decide) (by decide)))
theorem W5_row50 : W5 m ρ c (Proc.devRef .tc main_v50) = featRow (m ((c : Thread nD τ).loc main_arg7)) :=
  (stretch1_row50 (W4 m ρ c)).trans (congrArg featRow (W4_launch m ρ c main_arg7 (by decide) (by decide) (by decide) (by decide)))

/-- The first hidden array: region 1 on the first mixed array and the five rows. -/
theorem W6_hidden : W6 m ρ c (Proc.devRef .tc main_v51) = hidden1 m c := by
  refine (W6_arr m ρ c 6).trans ((NormRegion.normRelu1 (V5 m ρ) c).trans ?_)
  show Cert.Layers.normRelu (W5 m ρ c (Proc.devRef .tc main_v45)) (W5 m ρ c (Proc.devRef .tc main_v46)) (W5 m ρ c (Proc.devRef .tc main_v47))
    (W5 m ρ c (Proc.devRef .tc main_v48)) (W5 m ρ c (Proc.devRef .tc main_v49)) (W5 m ρ c (Proc.devRef .tc main_v50)) = _
  rw [W5_mixed, W5_row46, W5_row47, W5_row48, W5_row49, W5_row50]
  rfl

/-! ### Layer 2 -/

/-- The second product: region 2 on the first hidden array and the second weights. -/
theorem W7_product : W7 m ρ c (Proc.devRef .tc main_v52) = Cert.Layers.project (hidden1 m c) (m ((c : Thread nD τ).loc main_arg8)) := by
  refine (W7_arr m ρ c 2).trans ((ProjectRegion.project2 (V6 m ρ) c).trans ?_)
  show Cert.Layers.project (W6 m ρ c (Proc.devRef .tc main_v51)) (W6 m ρ c (Proc.devRef .tc main_arg8)) = _
  rw [W6_hidden, (W6_of_ne m ρ c main_arg8 (by decide)).trans ((W5_W4 m ρ c main_arg8 (by decide)).trans (W4_launch m ρ c main_arg8 (by decide) (by decide) (by decide) (by decide)))]

theorem W8_mixed : W8 m ρ c (Proc.devRef .tc main_v65) = spread (m ((c : Thread nD τ).loc main_arg1)) (Cert.Layers.project (hidden1 m c) (m ((c : Thread nD τ).loc main_arg8))) := by
  refine (stretch3_mix (W7 m ρ c)).trans ?_
  rw [W7_W3 m ρ c main_v5 (by decide) (by decide) (by decide) (by decide), W7_W3 m ρ c main_v6 (by decide) (by decide) (by decide) (by decide),
    W7_W3 m ρ c main_v31 (by decide) (by decide) (by decide) (by decide), W3_src, W3_dst, W3_weight, W7_product]
  rfl

theorem W8_row66 : W8 m ρ c (Proc.devRef .tc main_v66) = featRow (m ((c : Thread nD τ).loc main_arg9)) :=
  (stretch3_row66 (W7 m ρ c)).trans (congrArg featRow (W7_launch m ρ c main_arg9 (by decide) (by decide) (by decide) (by decide) (by decide) (by decide) (by decide)))
theorem W8_row67 : W8 m ρ c (Proc.devRef .tc main_v67) = featRow (m ((c : Thread nD τ).loc main_arg10)) :=
  (stretch3_row67 (W7 m ρ c)).trans (congrArg featRow (W7_launch m ρ c main_arg10 (by decide) (by decide) (by decide) (by decide) (by decide) (by decide) (by decide)))
theorem W8_row68 : W8 m ρ c (Proc.devRef .tc main_v68) = featRow (m ((c : Thread nD τ).loc main_arg11)) :=
  (stretch3_row68 (W7 m ρ c)).trans (congrArg featRow (W7_launch m ρ c main_arg11 (by decide) (by decide) (by decide) (by decide) (by decide) (by decide) (by decide)))
theorem W8_row69 : W8 m ρ c (Proc.devRef .tc main_v69) = featRow (m ((c : Thread nD τ).loc main_arg12)) :=
  (stretch3_row69 (W7 m ρ c)).trans (congrArg featRow (W7_launch m ρ c main_arg12 (by decide) (by decide) (by decide) (by decide) (by decide) (by decide) (by decide)))
theorem W8_row70 : W8 m ρ c (Proc.devRef .tc main_v70) = featRow (m ((c : Thread nD τ).loc main_arg13)) :=
  (stretch3_row70 (W7 m ρ c)).trans (congrArg featRow (W7_launch m ρ c main_arg13 (by decide) (by decide) (by decide) (by decide) (by decide) (by decide) (by decide)))

/-- The second hidden array: region 3. -/
theorem W9_hidden : W9 m ρ c (Proc.devRef .tc main_v71) = hidden2 m c := by
  refine (W9_arr m ρ c 6).trans ((NormRegion.normRelu3 (V8 m ρ) c).trans ?_)
  show Cert.Layers.normRelu (W8 m ρ c (Proc.devRef .tc main_v65)) (W8 m ρ c (Proc.devRef .tc main_v66)) (W8 m ρ c (Proc.devRef .tc main_v67))
    (W8 m ρ c (Proc.devRef .tc main_v68)) (W8 m ρ c (Proc.devRef .tc main_v69)) (W8 m ρ c (Proc.devRef .tc main_v70)) = _
  rw [W8_mixed, W8_row66, W8_row67, W8_row68, W8_row69, W8_row70]
  rfl

/-! ### Layer 3 -/

theorem W10_product : W10 m ρ c (Proc.devRef .tc main_v72) = Cert.Layers.project (hidden2 m c) (m ((c : Thread nD τ).loc main_arg14)) := by
  refine (W10_arr m ρ c 2).trans ((ProjectRegion.project4 (V9 m ρ) c).trans ?_)
  show Cert.Layers.project (W9 m ρ c (Proc.devRef .tc main_v71)) (W9 m ρ c (Proc.devRef .tc main_arg14)) = _
  rw [W9_hidden, (W9_of_ne m ρ c main_arg14 (by decide)).trans ((W8_W7 m ρ c main_arg14 (by decide)).trans (W7_launch m ρ c main_arg14 (by decide) (by decide) (by decide) (by decide) (by decide) (by decide) (by decide)))]

theorem W11_mixed : W11 m ρ c (Proc.devRef .tc main_v85) = spread (m ((c : Thread nD τ).loc main_arg1)) (Cert.Layers.project (hidden2 m c) (m ((c : Thread nD τ).loc main_arg14))) := by
  refine (stretch5_mix (W10 m ρ c)).trans ?_
  rw [(W10_W7 m ρ c main_v5 (by decide) (by decide) (by decide)).trans (W7_W3 m ρ c main_v5 (by decide) (by decide) (by decide) (by decide)),
    (W10_W7 m ρ c main_v6 (by decide) (by decide) (by decide)).trans (W7_W3 m ρ c main_v6 (by decide) (by decide) (by decide) (by decide)),
    (W10_W7 m ρ c main_v31 (by decide) (by decide) (by decide)).trans (W7_W3 m ρ c main_v31 (by decide) (by decide) (by decide) (by decide)),
    W3_src, W3_dst, W3_weight, W10_product]
  rfl

theorem W11_row86 : W11 m ρ c (Proc.devRef .tc main_v86) = featRow (m ((c : Thread nD τ).loc main_arg15)) :=
  (stretch5_row86 (W10 m ρ c)).trans (congrArg featRow (W10_launch m ρ c main_arg15 (by decide) (by decide) (by decide) (by decide) (by decide) (by decide) (by decide) (by decide) (by decide) (by decide)))

/-- The third hidden array: region 5. -/
theorem W12_hidden : W12 m ρ c (Proc.devRef .tc main_v87) = hidden3 m c := by
  refine (W12_arr m ρ c 2).trans ((NormRegion.biasRelu5 (V11 m ρ) c).trans ?_)
  show Cert.Layers.biasRelu (W11 m ρ c (Proc.devRef .tc main_v85)) (W11 m ρ c (Proc.devRef .tc main_v86)) = _
  rw [W11_mixed, W11_row86]
  rfl

/-! ### The output head -/

/-- The head's bias as a row at region 6's entry. -/
theorem W13_row : W13 m ρ c (Proc.devRef .tc main_v88) = headRow (m ((c : Thread nD τ).loc main_arg17)) :=
  (stretch6_row (W12 m ρ c)).trans (congrArg headRow (W12_launch m ρ c main_arg17 (by decide) (by decide) (by decide) (by decide) (by decide) (by decide) (by decide) (by decide) (by decide) (by decide) (by decide) (by decide)))

/-- The result buffer at the last boundary is the network's class scores of the launch arrays. -/
theorem W14_scores : W14 m ρ c (Proc.devRef .tc main_v89)
    = Network.scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W14_arr m ρ c 3).trans ((HeadRegion.head6 (V13 m ρ) c).trans ?_)
  show Cert.Layers.head (W13 m ρ c (Proc.devRef .tc main_v87)) (W13 m ρ c (Proc.devRef .tc main_arg16)) (W13 m ρ c (Proc.devRef .tc main_v88)) = _
  rw [(W13_W12 m ρ c main_v87 (by decide)).trans (W12_hidden m ρ c),
    (W13_W12 m ρ c main_arg16 (by decide)).trans (W12_launch m ρ c main_arg16 (by decide) (by decide) (by decide) (by decide) (by decide) (by decide) (by decide) (by decide) (by decide) (by decide) (by decide) (by decide)),
    W13_row]
  rfl

end Scores

end Cert.KernelIdeal.Fold

end
-- ==== Proof.LibRow.lean ====
/-
  A vector read as a row. For a vector x of length b, the cast of x to shape [1, b] and the broadcast of x
  along axis 1 into shape [1, b] are the same array: entry (0, q) of either is x(q). Stated for any element
  type and any length.
-/
import Idealize.ShloMosaic.Lib.Pipeline.Value
import Idealize.ShloMosaic.Lib.ValueIdx

namespace Cert.LibRow

open Idealize.ShloMosaic Idealize.ShloMosaic.ValueIdx

variable {α : Type}

/-- Entry (0, q) of the cast of a length-b vector to shape [1, b] is the vector's entry q. -/
theorem shapeCast_row_apply {b : ℕ} (x : (⟨1, ![b]⟩ : Shape).Idx → α)
    (h : (⟨1, ![b]⟩ : Shape).ShapeCasts ⟨2, ![1, b]⟩) (j : (⟨2, ![1, b]⟩ : Shape).Idx) :
    shapeCast ⟨2, ![1, b]⟩ x h j = x (fun a => j a.succ) :=
  shapeCast_addUnit_apply ![b] x h j

/-- Entry (0, q) of the broadcast of a length-b vector along axis 1 into shape [1, b] is the vector's entry q. -/
theorem broadcastInDim_row_apply {b : ℕ} (x : (⟨1, ![b]⟩ : Shape).Idx → α)
    (hb : (⟨1, ![b]⟩ : Shape).BroadcastsInDim ⟨2, ![1, b]⟩ ![1]) (j : (⟨2, ![1, b]⟩ : Shape).Idx) :
    broadcastInDim ⟨2, ![1, b]⟩ ![1] hb x j = x (fun a => j a.succ) := by
  refine broadcastInDim_apply ![1] hb x j (fun a => j a.succ) ?_
  intro d
  match d with
  | ⟨0, _⟩ =>
    show (j 1).val = if b = 1 then 0 else (j 1).val
    split_ifs with hb1
    · have := (j 1).isLt
      simp only [Matrix.cons_val_one, Matrix.cons_val_zero] at this
      omega
    · rfl

/-- The cast to a row and the broadcast to a row are one array. -/
theorem shapeCast_row_eq_broadcastInDim {b : ℕ} (x : (⟨1, ![b]⟩ : Shape).Idx → α)
    (h : (⟨1, ![b]⟩ : Shape).ShapeCasts ⟨2, ![1, b]⟩)
    (hb : (⟨1, ![b]⟩ : Shape).BroadcastsInDim ⟨2, ![1, b]⟩ ![1]) :
    shapeCast ⟨2, ![1, b]⟩ x h = broadcastInDim ⟨2, ![1, b]⟩ ![1] hb x :=
  funext fun j => (shapeCast_row_apply x h j).trans (broadcastInDim_row_apply x hb j).symm

end Cert.LibRow
-- ==== Proof.RefDense.lean ====
/-
  The dense steps of the plain network, read off its list of operations.

  Three times the network multiplies the node array (50000 rows of 128 features) by a 128 x 128 weight matrix, and at
  the end it multiplies by a 128 x 2 matrix and adds a bias. Each product is one contraction over the shared axis:
  entry (p, q) is the sum over k of x(p, k) * w(k, q), which is the specification's dense step. The final bias is a
  vector of two entries, laid out as a one-row matrix and then along all 50000 rows before the addition; entry (p, q)
  of the sum is the product's entry plus the row's entry (0, q), which is the specification's output head.

  Each statement below is about one consecutive stretch of the operation list run from arbitrary buffer contents:
  the buffer the stretch's product (or final sum) writes holds the specification's function of the buffers it reads.
-/
import proofs.«101335_j30365418783390_1_alg».proof.Proof.RefOpsPatched
import proofs.«101335_j30365418783390_1_alg».proof.Proof.Layers
import Idealize.ShloMosaic.Lib.StableHlo.Run
import Idealize.ShloMosaic.Lib.Pipeline.Value
import Idealize.ShloMosaic.Lib.ValueIdx
import Idealize.ShloMosaic.Lib.ValueIdxCoords
import Idealize.ShloMosaic.PureOps.Ideal.Laws

noncomputable section

open scoped BigOperators

namespace Cert.ReferenceIdeal.Dense

open Cert.ReferenceIdeal Cert.ReferenceIdeal.Gen Idealize.ShloMosaic Idealize.ShloMosaic.TcCoe Idealize.ShloMosaic.StableHlo
open Idealize.ShloMosaic.ValueIdx

/-! ## The hidden layers' product: [50000,128] by [128,128] -/

/-- The left operand's row is the output's row. -/
theorem hidden_lhs_row (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl

/-- The left operand's column is the summation position. -/
theorem hidden_lhs_col (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q

/-- The right operand's row is the summation position. -/
theorem hidden_rhs_row (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q

/-- The right operand's column is the output's column. -/
theorem hidden_rhs_col (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- THE DENSE STEP: the contraction of a node array with a hidden layer's weights is the specification's product,
    entry (p, q) the sum over k of x(p, k) * w(k, q). -/
theorem product_eq_project (x : FVec Ideal S50000x128 .f32) (w : FVec Ideal S128x128 .f32) :
    Host.dotGeneral (F := Ideal) dot_S50000x128_S128x128_S50000x128_1_0_0_1_n_n none x w = Cert.Layers.project x w := by
  funext i
  obtain ⟨p, q, rfl⟩ : ∃ (p : Fin 50000) (q : Fin 128), i = ix2 p q := ⟨i 0, i 1, eq_ix2 i⟩
  show _ = ∑ k : Fin 128, x (ix2 p k) * w (ix2 k q)
  refine (Ideal.dotGeneral_apply dot_S50000x128_S128x128_S50000x128_1_0_0_1_n_n none _ x w (ix2 p q)).trans ?_
  rw [← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p q) ((ValueIdx.contrEquiv1 dot_S50000x128_S128x128_S50000x128_1_0_0_1_n_n 128 rfl rfl).symm k) = ix2 p k := funext fun a => Fin.ext (by
    match a with
    | ⟨0, _⟩ => exact hidden_lhs_row _ _
    | ⟨1, _⟩ => exact (hidden_lhs_col _ _).trans hk)
  have er : dot_S50000x128_S128x128_S50000x128_1_0_0_1_n_n.rhsIdx (ix2 p q) ((ValueIdx.contrEquiv1 dot_S50000x128_S128x128_S50000x128_1_0_0_1_n_n 128 rfl rfl).symm k) = ix2 k q := funext fun a => Fin.ext (by
    match a with
    | ⟨0, _⟩ => exact (hidden_rhs_row _ _).trans hk
    | ⟨1, _⟩ => exact hidden_rhs_col _ _)
  rw [el, er]

/-! ## The output head's product: [50000,128] by [128,2] -/

/-- The left operand's row is the output's row. -/
theorem head_lhs_row (i : S50000x2.Idx) (q : dot_S50000x128_S128x2_S50000x2_1_0_0_1_n_n.contr.Idx) :
    (dot_S50000x128_S128x2_S50000x2_1_0_0_1_n_n.lhsIdx i q 0).val = (i 0).val := by
  unfold DotDims.lhsIdx
  rw [dif_neg (show ¬(0 : Fin S50000x128.rank) ∈ dot_S50000x128_S128x2_S50000x2_1_0_0_1_n_n.lhsBatch by decide), dif_pos (show (0 : Fin S50000x128.rank) ∈ dot_S50000x128_S128x2_S50000x2_1_0_0_1_n_n.lhsNonContracting by decide)]
  rfl

/-- The left operand's column is the summation position. -/
theorem head_lhs_col (i : S50000x2.Idx) (q : dot_S50000x128_S128x2_S50000x2_1_0_0_1_n_n.contr.Idx) :
    (dot_S50000x128_S128x2_S50000x2_1_0_0_1_n_n.lhsIdx i q 1).val = (q ⟨0, by decide⟩).val :=
  dot_S50000x128_S128x2_S50000x2_1_0_0_1_n_n.lhsIdx_val_of_single rfl i q

/-- The right operand's row is the summation position. -/
theorem head_rhs_row (i : S50000x2.Idx) (q : dot_S50000x128_S128x2_S50000x2_1_0_0_1_n_n.contr.Idx) :
    (dot_S50000x128_S128x2_S50000x2_1_0_0_1_n_n.rhsIdx i q 0).val = (q ⟨0, by decide⟩).val :=
  dot_S50000x128_S128x2_S50000x2_1_0_0_1_n_n.rhsIdx_val_of_single rfl i q

/-- The right operand's column is the output's column. -/
theorem head_rhs_col (i : S50000x2.Idx) (q : dot_S50000x128_S128x2_S50000x2_1_0_0_1_n_n.contr.Idx) :
    (dot_S50000x128_S128x2_S50000x2_1_0_0_1_n_n.rhsIdx i q 1).val = (i 1).val := by
  unfold DotDims.rhsIdx
  rw [dif_neg (show ¬(1 : Fin S128x2.rank) ∈ dot_S50000x128_S128x2_S50000x2_1_0_0_1_n_n.rhsBatch by decide), dif_pos (show (1 : Fin S128x2.rank) ∈ dot_S50000x128_S128x2_S50000x2_1_0_0_1_n_n.rhsNonContracting by decide)]
  rfl

/-- The head's contraction at entry (p, q): the sum over k of h(p, k) * w(k, q). -/
theorem head_product_apply (h : FVec Ideal S50000x128 .f32) (w : FVec Ideal S128x2 .f32)
    (p : Fin 50000) (q : Fin 2) :
    Host.dotGeneral (F := Ideal) dot_S50000x128_S128x2_S50000x2_1_0_0_1_n_n none h w (ix2 p q)
      = ∑ k : Fin 128, h (ix2 p k) * w (ix2 k q) := by
  refine (Ideal.dotGeneral_apply dot_S50000x128_S128x2_S50000x2_1_0_0_1_n_n none _ h w (ix2 p q)).trans ?_
  rw [← Equiv.sum_comp (ValueIdx.contrEquiv1 dot_S50000x128_S128x2_S50000x2_1_0_0_1_n_n 128 rfl rfl).symm]
  refine Finset.sum_congr rfl fun k _ => ?_
  have hk := ValueIdx.contrEquiv1_symm_val dot_S50000x128_S128x2_S50000x2_1_0_0_1_n_n 128 rfl rfl k
  have el : dot_S50000x128_S128x2_S50000x2_1_0_0_1_n_n.lhsIdx (ix2 p q) ((ValueIdx.contrEquiv1 dot_S50000x128_S128x2_S50000x2_1_0_0_1_n_n 128 rfl rfl).symm k) = ix2 p k := funext fun a => Fin.ext (by
    match a with
    | ⟨0, _⟩ => exact head_lhs_row _ _
    | ⟨1, _⟩ => exact (head_lhs_col _ _).trans hk)
  have er : dot_S50000x128_S128x2_S50000x2_1_0_0_1_n_n.rhsIdx (ix2 p q) ((ValueIdx.contrEquiv1 dot_S50000x128_S128x2_S50000x2_1_0_0_1_n_n 128 rfl rfl).symm k) = ix2 k q := funext fun a => Fin.ext (by
    match a with
    | ⟨0, _⟩ => exact (head_rhs_row _ _).trans hk
    | ⟨1, _⟩ => exact head_rhs_col _ _)
  rw [el, er]

/-- A one-row matrix laid along all 50000 rows, at entry (p, q): the row's entry (0, q). -/
theorem row_along_rows_apply (b : FVec Ideal S1x2 .f32) (p : Fin 50000) (q : Fin 2) :
    broadcastInDim S50000x2 ![0, 1] bcast_S1x2_S50000x2_0_1 b (ix2 p q) = b (ix2 0 q) :=
  broadcastInDim_apply _ bcast_S1x2_S50000x2_0_1 b (ix2 p q) (ix2 (0 : Fin 1) q) (fun a => match a with
    | ⟨0, _⟩ => by show 0 = if (1 : Nat) = 1 then 0 else p.val; rw [if_pos rfl]
    | ⟨1, _⟩ => by show q.val = if (2 : Nat) = 1 then 0 else q.val; rw [if_neg (by decide)])

/-- THE OUTPUT HEAD: the contraction with the head's weights plus the bias row laid along every row is the
    specification's output head of the hidden array, the weights and the bias row. -/
theorem product_add_row_eq_head (h : FVec Ideal S50000x128 .f32) (w : FVec Ideal S128x2 .f32)
    (b : FVec Ideal S1x2 .f32) :
    addf (Host.dotGeneral (F := Ideal) dot_S50000x128_S128x2_S50000x2_1_0_0_1_n_n none h w)
        (broadcastInDim S50000x2 ![0, 1] bcast_S1x2_S50000x2_0_1 b)
      = Cert.Layers.head h w b := by
  funext i
  obtain ⟨p, q, rfl⟩ : ∃ (p : Fin 50000) (q : Fin 2), i = ix2 p q := ⟨i 0, i 1, eq_ix2 i⟩
  show _ = (∑ k : Fin 128, h (ix2 p k) * w (ix2 k q)) + b (ix2 0 q)
  refine (addf_apply _ _ (ix2 p q)).trans ?_
  exact congrArg₂ (· + ·) (head_product_apply h w p q) (row_along_rows_apply b p q)

/-! ## The four stretches of the operation list -/

section Stretches
variable (V : Valuation τ sig (Elt Ideal))

set_option maxHeartbeats 4000000 in
/-- The first stretch leaves the first layer's product of the input features and the first weights. -/
theorem slices_product :
    after (RunP.slices (F := Ideal)) V (Proc.devRef .tc main_v4)
      = Cert.Layers.project (V (Proc.devRef .tc main_arg0)) (V (Proc.devRef .tc main_arg2)) := by
  after_results
  exact product_eq_project _ _

set_option maxHeartbeats 4000000 in
/-- The second layer's dense stretch leaves the product of the first layer's output and the second weights. -/
theorem dense2_product :
    after (RunP.dense2 (F := Ideal)) V (Proc.devRef .tc main_v65)
      = Cert.Layers.project (V (Proc.devRef .tc main_v64)) (V (Proc.devRef .tc main_arg8)) := by
  after_results
  exact product_eq_project _ _

set_option maxHeartbeats 4000000 in
/-- The third layer's dense stretch leaves the product of the second layer's output and the third weights. -/
theorem dense3_product :
    after (RunP.dense3 (F := Ideal)) V (Proc.devRef .tc main_v126)
      = Cert.Layers.project (V (Proc.devRef .tc main_v125)) (V (Proc.devRef .tc main_arg14)) := by
  after_results
  exact product_eq_project _ _

set_option maxHeartbeats 4000000 in
/-- The last stretch leaves the output head of the last hidden array, the head's weights, and the bias vector laid
    out as a one-row matrix. -/
theorem head_scores :
    after (RunP.headOps (F := Ideal)) V (Proc.devRef .tc main_v175)
      = Cert.Layers.head (V (Proc.devRef .tc main_v171)) (V (Proc.devRef .tc main_arg16))
          (broadcastInDim S1x2 ![1] bcast_S2_S1x2_1 (V (Proc.devRef .tc main_arg17))) := by
  after_results
  exact product_add_row_eq_head _ _ _

end Stretches

end Cert.ReferenceIdeal.Dense

end
-- ==== Proof.RefPointwise.lean ====
/-
  The reference's three pointwise steps, each as one function of whole arrays.

  After a layer's rows have been mixed along the graph's edges, the reference adds the layer's bias, and in the
  two normalised layers standardises each feature with stored statistics and rescales it,
  ((h + b) - mu) * (var + eps)^(-1/2) * g + beta, and then clamps at zero; the last hidden layer only adds the
  bias and clamps. Every per-feature vector of length 128 enters as a one-row matrix (entry (0, q) is the vector's
  entry q) which is then repeated down the 50000 rows, so at entry (p, q) each vector contributes its entry q.
  The inverse square root is taken on the length-128 vector var + eps before it is made a row, which at entry
  (p, q) is the inverse square root of var(q) + eps, the same value the layer's specification forms per entry.
  The clamp is a maximum with a zero repeated over the whole array.

  Each step is first read entry by entry as an equation between array expressions over arbitrary arrays, and
  then identified with what the step's operations, run in order from arbitrary contents, leave in the step's
  result.
-/
import proofs.«101335_j30365418783390_1_alg».proof.Proof.RefOpsPatched
import proofs.«101335_j30365418783390_1_alg».proof.Proof.Layers
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.ReferenceIdeal.Pointwise

open Cert.ReferenceIdeal Cert.ReferenceIdeal.Gen Idealize.ShloMosaic Idealize.ShloMosaic.TcCoe Idealize.SL.Sem Idealize.ShloMosaic.StableHlo
open Idealize.ShloMosaic.ValueIdx

/-- A length-128 vector as a one-row matrix: entry (0, q) is the vector's entry q. -/
abbrev rowR {F : FTy → Type} (x : (⟨S128, .f32⟩ : BufTy).Contents (Elt F)) : (⟨S1x128, .f32⟩ : BufTy).Contents (Elt F) :=
  broadcastInDim S1x128 ![1] bcast_S128_S1x128_1 x

/-! ## The layout operations at an entry -/

/-- A one-row matrix repeated down the rows: entry (p, q) is the row's entry (0, q). -/
theorem row_down_apply {α : Type} (y : S1x128.Idx → α) (p : Fin 50000) (q : Fin 128) :
    broadcastInDim S50000x128 ![0, 1] bcast_S1x128_S50000x128_0_1 y (ix2 (n0 := 50000) (n1 := 128) p q)
      = y (ix2 (n0 := 1) (n1 := 128) 0 q) :=
  broadcastInDim_apply _ bcast_S1x128_S50000x128_0_1 y _ _ (fun a => match a with
    | ⟨0, _⟩ => by show 0 = if (1 : Nat) = 1 then 0 else p.val; rw [if_pos rfl]
    | ⟨1, _⟩ => by show q.val = if (128 : Nat) = 1 then 0 else q.val; rw [if_neg (by decide)])

/-- A vector made a one-row matrix: entry (0, q) is the vector's entry q. -/
theorem row_apply {α : Type} (x : S128.Idx → α) (q : Fin 128) :
    broadcastInDim S1x128 ![1] bcast_S128_S1x128_1 x (ix2 (n0 := 1) (n1 := 128) 0 q) = x (ix1 (n := 128) q) :=
  broadcastInDim_apply _ bcast_S128_S1x128_1 x _ _ (fun a => match a with
    | ⟨0, _⟩ => by show q.val = if (128 : Nat) = 1 then 0 else q.val; rw [if_neg (by decide)])

/-- A scalar repeated over the whole node array. -/
theorem fill_apply {α : Type} (y : S_.Idx → α) (i : S50000x128.Idx) :
    broadcastInDim S50000x128 ![] bcast_S_S50000x128 y i = y ix0 :=
  broadcastInDim_apply _ bcast_S_S50000x128 y i ix0 (fun a => a.elim0)

/-- A scalar repeated over a length-128 vector. -/
theorem fill_vector_apply {α : Type} (y : S_.Idx → α) (i : S128.Idx) :
    broadcastInDim S128 ![] bcast_S_S128 y i = y ix0 :=
  broadcastInDim_apply _ bcast_S_S128 y i ix0 (fun a => a.elim0)

/-! ## The steps as equations between arrays -/

/-- Bias and clamp: the array the last hidden layer's pointwise operations compute from the mixed array a and
    the bias vector b is max (a + b) 0, entry by entry. -/
theorem clamp_array (a : (⟨S50000x128, .f32⟩ : BufTy).Contents (Elt Ideal)) (b : (⟨S128, .f32⟩ : BufTy).Contents (Elt Ideal)) :
    maximumf (addf a (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32))
      = Cert.Layers.biasRelu a (rowR b) := by
  funext i
  obtain ⟨p, q, rfl⟩ : ∃ (p : Fin 50000) (q : Fin 128), i = ix2 p q := ⟨i 0, i 1, eq_ix2 i⟩
  show max (a (ix2 p q) + broadcastInDim S50000x128 ![0, 1] bcast_S1x128_S50000x128_0_1 (broadcastInDim S1x128 ![1] bcast_S128_S1x128_1 b) (ix2 (n0 := 50000) (n1 := 128) p q))
      (broadcastInDim S50000x128 ![] bcast_S_S50000x128 (constant (F := Ideal) S_ .f32 0x00000000#32) (ix2 (n0 := 50000) (n1 := 128) p q))
    = max (a (ix2 p q) + rowR b (ix2 (n0 := 1) (n1 := 128) 0 q)) 0
  rw [row_down_apply, fill_apply]
  show max _ (Ideal.ofBits .f32 0x00000000#32) = _
  rw [Ideal.ofBits_zero_f32]

/-- The inverse square root taken on the vector var + eps and then made a row is, at entry (0, q), the inverse
    square root of var's row entry plus eps. -/
theorem rsqrt_row_apply (var : (⟨S128, .f32⟩ : BufTy).Contents (Elt Ideal)) (q : Fin 128) :
    broadcastInDim S1x128 ![1] bcast_S128_S1x128_1
        (Host.rsqrt (F := Ideal) (addf var (broadcastInDim S128 ![] bcast_S_S128 (constant (F := Ideal) S_ .f32 0x3727C5AC#32))))
        (ix2 (n0 := 1) (n1 := 128) 0 q)
      = Ideal.rsqrt (rowR var (ix2 (n0 := 1) (n1 := 128) 0 q) + Cert.Layers.eps) := by
  rw [row_apply]
  show Ideal.rsqrt (var (ix1 q) + broadcastInDim S128 ![] bcast_S_S128 (constant (F := Ideal) S_ .f32 0x3727C5AC#32) (ix1 (n := 128) q))
    = Ideal.rsqrt (broadcastInDim S1x128 ![1] bcast_S128_S1x128_1 var (ix2 (n0 := 1) (n1 := 128) 0 q) + Cert.Layers.eps)
  rw [fill_vector_apply, row_apply]
  rfl

/-- Bias, standardisation and clamp: the array a normalised layer's pointwise operations compute from the mixed
    array a and the five per-feature vectors is max (((a + b) - mu) * (var + eps)^(-1/2) * g + beta) 0, entry by entry. -/
theorem norm_array (a : (⟨S50000x128, .f32⟩ : BufTy).Contents (Elt Ideal)) (b g beta mu var : (⟨S128, .f32⟩ : BufTy).Contents (Elt Ideal)) :
    maximumf
        (addf
          (mulf
            (mulf
              (subf (addf a (broadcastInDim S50000x128 ![0, 1] bcast_S1x128_S50000x128_0_1 (broadcastInDim S1x128 ![1] bcast_S128_S1x128_1 b)))
                (broadcastInDim S50000x128 ![0, 1] bcast_S1x128_S50000x128_0_1 (broadcastInDim S1x128 ![1] bcast_S128_S1x128_1 mu)))
              (broadcastInDim S50000x128 ![0, 1] bcast_S1x128_S50000x128_0_1 (broadcastInDim S1x128 ![1] bcast_S128_S1x128_1
                (Host.rsqrt (F := Ideal) (addf var (broadcastInDim S128 ![] bcast_S_S128 (constant (F := Ideal) S_ .f32 0x3727C5AC#32)))))))
            (broadcastInDim S50000x128 ![0, 1] bcast_S1x128_S50000x128_0_1 (broadcastInDim S1x128 ![1] bcast_S128_S1x128_1 g)))
          (broadcastInDim S50000x128 ![0, 1] bcast_S1x128_S50000x128_0_1 (broadcastInDim S1x128 ![1] bcast_S128_S1x128_1 beta)))
        (broadcastInDim S50000x128 ![] bcast_S_S50000x128 (constant (F := Ideal) S_ .f32 0x00000000#32))
      = Cert.Layers.normRelu a (rowR b) (rowR g) (rowR beta) (rowR mu) (rowR var) := by
  funext i
  obtain ⟨p, q, rfl⟩ : ∃ (p : Fin 50000) (q : Fin 128), i = ix2 p q := ⟨i 0, i 1, eq_ix2 i⟩
  show max
      ((((a (ix2 p q) + broadcastInDim S50000x128 ![0, 1] bcast_S1x128_S50000x128_0_1 (broadcastInDim S1x128 ![1] bcast_S128_S1x128_1 b) (ix2 (n0 := 50000) (n1 := 128) p q))
          - broadcastInDim S50000x128 ![0, 1] bcast_S1x128_S50000x128_0_1 (broadcastInDim S1x128 ![1] bcast_S128_S1x128_1 mu) (ix2 (n0 := 50000) (n1 := 128) p q))
          * broadcastInDim S50000x128 ![0, 1] bcast_S1x128_S50000x128_0_1 (broadcastInDim S1x128 ![1] bcast_S128_S1x128_1
              (Host.rsqrt (F := Ideal) (addf var (broadcastInDim S128 ![] bcast_S_S128 (constant (F := Ideal) S_ .f32 0x3727C5AC#32))))) (ix2 (n0 := 50000) (n1 := 128) p q))
          * broadcastInDim S50000x128 ![0, 1] bcast_S1x128_S50000x128_0_1 (broadcastInDim S1x128 ![1] bcast_S128_S1x128_1 g) (ix2 (n0 := 50000) (n1 := 128) p q)
        + broadcastInDim S50000x128 ![0, 1] bcast_S1x128_S50000x128_0_1 (broadcastInDim S1x128 ![1] bcast_S128_S1x128_1 beta) (ix2 (n0 := 50000) (n1 := 128) p q))
      (broadcastInDim S50000x128 ![] bcast_S_S50000x128 (constant (F := Ideal) S_ .f32 0x00000000#32) (ix2 (n0 := 50000) (n1 := 128) p q))
    = max
      ((((a (ix2 p q) + rowR b (ix2 (n0 := 1) (n1 := 128) 0 q)) - rowR mu (ix2 (n0 := 1) (n1 := 128) 0 q))
          * Ideal.rsqrt (rowR var (ix2 (n0 := 1) (n1 := 128) 0 q) + Cert.Layers.eps))
          * rowR g (ix2 (n0 := 1) (n1 := 128) 0 q)
        + rowR beta (ix2 (n0 := 1) (n1 := 128) 0 q)) 0
  rw [row_down_apply, row_down_apply, row_down_apply, row_down_apply, row_down_apply, fill_apply, rsqrt_row_apply]
  show max _ (Ideal.ofBits .f32 0x00000000#32) = _
  rw [Ideal.ofBits_zero_f32]

/-! ## The steps as what their operations leave -/

set_option maxHeartbeats 4000000 in
/-- The last hidden layer's pointwise step, run from any contents, leaves max (mixed + bias) 0. -/
theorem clamp3_value (V : Valuation τ sig (Elt Ideal)) :
    after (RunP.clamp3 (F := Ideal)) V (Proc.devRef .tc main_v171)
      = Cert.Layers.biasRelu (V (Proc.devRef .tc main_v167)) (rowR (V (Proc.devRef .tc main_arg15))) := by
  after_results
  exact clamp_array _ _

set_option maxHeartbeats 4000000 in
/-- The first layer's pointwise step, run from any contents, leaves the standardised, rescaled and clamped array. -/
theorem norm1_value (V : Valuation τ sig (Elt Ideal)) :
    after (RunP.norm1 (F := Ideal)) V (Proc.devRef .tc main_v64)
      = Cert.Layers.normRelu (V (Proc.devRef .tc main_v45)) (rowR (V (Proc.devRef .tc main_arg3))) (rowR (V (Proc.devRef .tc main_arg4)))
          (rowR (V (Proc.devRef .tc main_arg5))) (rowR (V (Proc.devRef .tc main_arg6))) (rowR (V (Proc.devRef .tc main_arg7))) := by
  after_results
  exact norm_array _ _ _ _ _ _

set_option maxHeartbeats 4000000 in
/-- The second layer's pointwise step, run from any contents, leaves the standardised, rescaled and clamped array. -/
theorem norm2_value (V : Valuation τ sig (Elt Ideal)) :
    after (RunP.norm2 (F := Ideal)) V (Proc.devRef .tc main_v125)
      = Cert.Layers.normRelu (V (Proc.devRef .tc main_v106)) (rowR (V (Proc.devRef .tc main_arg9))) (rowR (V (Proc.devRef .tc main_arg10)))
          (rowR (V (Proc.devRef .tc main_arg11))) (rowR (V (Proc.devRef .tc main_arg12))) (rowR (V (Proc.devRef .tc main_arg13))) := by
  after_results
  exact norm_array _ _ _ _ _ _

end Cert.ReferenceIdeal.Pointwise

end
-- ==== Proof.RefGraph.lean ====
/-
  The graph steps of the plain network, read off its list of array operations. The list is walked in thirteen
  consecutive pieces. For each piece: the buffers it writes (every other buffer keeps its contents through the piece),
  and, for the pieces that handle the graph, what they leave in their result buffers as the named graph functions of
  what they found: the two end rows of the edge array flattened, the node numbers, an end list with the self-loops
  appended, the edge weights (the product of the two ends' degree factors) and the mixing of a node array along the
  edges (source rows scaled by the weights, added into target rows). The operations are the same ones, in the same
  order, as those the named functions are made of, so each value is read by evaluating the fold at the result buffer.
-/
import proofs.«101335_j30365418783390_1_alg».proof.Proof.RefOpsPatched
import proofs.«101335_j30365418783390_1_alg».proof.Proof.Glue
import Idealize.ShloMosaic.Lib.StableHlo.Run

set_option maxRecDepth 16384

noncomputable section

namespace Cert.ReferenceIdeal.Graph

open Cert.ReferenceIdeal Cert.ReferenceIdeal.Gen Cert.ReferenceIdeal.RunP Cert.KernelIdeal.Glue
open Idealize.ShloMosaic Idealize.ShloMosaic.TcCoe Idealize.ShloMosaic.StableHlo

variable {F : FTy → Type} [FloatOps F]

/-! ## What each piece writes -/

/-- The buffers written by the two end rows cut out of the edge array, the first dense product and the node numbers. -/
def written_slices : List (Ref sig .tc) := [main_v0, main_v1, main_v2, main_v3, main_v4, main_v5]
theorem written_slices_sub : (slices (F := F)).Forall fun op => op.writes ⊆ (written_slices.map (Proc.devRef (τ := τ) .tc)).toFinset := by
  simp only [slices, written_slices, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers written by the first layer's end lists with self-loops and its edge weights. -/
def written_edges1 : List (Ref sig .tc) := [main_v6, main_v7, main_cst, main_v8, main_cst_0, main_v9, main_v10, main_v11, main_cst_1, main_v12, main_v13, main_cst_2, main_v14, main_v15, main_cst_3, main_v16, main_v17, main_c, main_v18, main_v19, main_c_4, main_v20, main_v21, main_v22, main_v23, main_v24, main_c_5, main_v25, main_v26, main_c_6, main_v27, main_v28, main_v29, main_v30, main_v31, main_v32]
theorem written_edges1_sub : (edges1 (F := F)).Forall fun op => op.writes ⊆ (written_edges1.map (Proc.devRef (τ := τ) .tc)).toFinset := by
  simp only [edges1, written_edges1, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers written by the first layer's mixing along the edges. -/
def written_mix1 : List (Ref sig .tc) := [main_c_7, main_v33, main_v34, main_c_8, main_v35, main_v36, main_v37, main_v38, main_v39, main_v40, main_v41, main_v42, main_cst_9, main_v43, main_v44, main_v45]
theorem written_mix1_sub : (mix1 (F := F)).Forall fun op => op.writes ⊆ (written_mix1.map (Proc.devRef (τ := τ) .tc)).toFinset := by
  simp only [mix1, written_mix1, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers written by the first layer's bias, standardisation and clamp. -/
def written_norm1 : List (Ref sig .tc) := [main_v46, main_v47, main_v48, main_v49, main_v50, main_v51, main_cst_10, main_v52, main_v53, main_v54, main_v55, main_v56, main_v57, main_v58, main_v59, main_v60, main_v61, main_v62, main_v63, main_call1_cst, main_call1_v0, main_v64]
theorem written_norm1_sub : (norm1 (F := F)).Forall fun op => op.writes ⊆ (written_norm1.map (Proc.devRef (τ := τ) .tc)).toFinset := by
  simp only [norm1, written_norm1, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers written by the second dense product and the node numbers. -/
def written_dense2 : List (Ref sig .tc) := [main_v65, main_v66]
theorem written_dense2_sub : (dense2 (F := F)).Forall fun op => op.writes ⊆ (written_dense2.map (Proc.devRef (τ := τ) .tc)).toFinset := by
  simp only [dense2, written_dense2, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers written by the second layer's end lists and edge weights. -/
def written_edges2 : List (Ref sig .tc) := [main_v67, main_v68, main_cst_11, main_v69, main_cst_12, main_v70, main_v71, main_v72, main_cst_13, main_v73, main_v74, main_cst_14, main_v75, main_v76, main_cst_15, main_v77, main_v78, main_c_16, main_v79, main_v80, main_c_17, main_v81, main_v82, main_v83, main_v84, main_v85, main_c_18, main_v86, main_v87, main_c_19, main_v88, main_v89, main_v90, main_v91, main_v92, main_v93]
theorem written_edges2_sub : (edges2 (F := F)).Forall fun op => op.writes ⊆ (written_edges2.map (Proc.devRef (τ := τ) .tc)).toFinset := by
  simp only [edges2, written_edges2, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers written by the second layer's mixing. -/
def written_mix2 : List (Ref sig .tc) := [main_c_20, main_v94, main_v95, main_c_21, main_v96, main_v97, main_v98, main_v99, main_v100, main_v101, main_v102, main_v103, main_cst_22, main_v104, main_v105, main_v106]
theorem written_mix2_sub : (mix2 (F := F)).Forall fun op => op.writes ⊆ (written_mix2.map (Proc.devRef (τ := τ) .tc)).toFinset := by
  simp only [mix2, written_mix2, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers written by the second layer's bias, standardisation and clamp. -/
def written_norm2 : List (Ref sig .tc) := [main_v107, main_v108, main_v109, main_v110, main_v111, main_v112, main_cst_23, main_v113, main_v114, main_v115, main_v116, main_v117, main_v118, main_v119, main_v120, main_v121, main_v122, main_v123, main_v124, main_call3_cst, main_call3_v0, main_v125]
theorem written_norm2_sub : (norm2 (F := F)).Forall fun op => op.writes ⊆ (written_norm2.map (Proc.devRef (τ := τ) .tc)).toFinset := by
  simp only [norm2, written_norm2, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers written by the third dense product and the node numbers. -/
def written_dense3 : List (Ref sig .tc) := [main_v126, main_v127]
theorem written_dense3_sub : (dense3 (F := F)).Forall fun op => op.writes ⊆ (written_dense3.map (Proc.devRef (τ := τ) .tc)).toFinset := by
  simp only [dense3, written_dense3, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers written by the third layer's end lists and edge weights. -/
def written_edges3 : List (Ref sig .tc) := [main_v128, main_v129, main_cst_24, main_v130, main_cst_25, main_v131, main_v132, main_v133, main_cst_26, main_v134, main_v135, main_cst_27, main_v136, main_v137, main_cst_28, main_v138, main_v139, main_c_29, main_v140, main_v141, main_c_30, main_v142, main_v143, main_v144, main_v145, main_v146, main_c_31, main_v147, main_v148, main_c_32, main_v149, main_v150, main_v151, main_v152, main_v153, main_v154]
theorem written_edges3_sub : (edges3 (F := F)).Forall fun op => op.writes ⊆ (written_edges3.map (Proc.devRef (τ := τ) .tc)).toFinset := by
  simp only [edges3, written_edges3, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers written by the third layer's mixing. -/
def written_mix3 : List (Ref sig .tc) := [main_c_33, main_v155, main_v156, main_c_34, main_v157, main_v158, main_v159, main_v160, main_v161, main_v162, main_v163, main_v164, main_cst_35, main_v165, main_v166, main_v167]
theorem written_mix3_sub : (mix3 (F := F)).Forall fun op => op.writes ⊆ (written_mix3.map (Proc.devRef (τ := τ) .tc)).toFinset := by
  simp only [mix3, written_mix3, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers written by the third layer's bias and clamp. -/
def written_clamp3 : List (Ref sig .tc) := [main_v168, main_v169, main_v170, main_call5_cst, main_call5_v0, main_v171]
theorem written_clamp3_sub : (clamp3 (F := F)).Forall fun op => op.writes ⊆ (written_clamp3.map (Proc.devRef (τ := τ) .tc)).toFinset := by
  simp only [clamp3, written_clamp3, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-- The buffers written by the output head. -/
def written_headOps : List (Ref sig .tc) := [main_v172, main_v173, main_v174, main_v175]
theorem written_headOps_sub : (headOps (F := F)).Forall fun op => op.writes ⊆ (written_headOps.map (Proc.devRef (τ := τ) .tc)).toFinset := by
  simp only [headOps, written_headOps, List.Forall, StableHlo.nullary_writes, StableHlo.unary_writes, StableHlo.binary_writes, StableHlo.ternary_writes, StableHlo.quaternary_writes, StableHlo.reshape_writes, StableHlo.binaryIndexed_writes,
    Finset.singleton_subset_iff, List.mem_toFinset, List.map_cons, List.map_nil, List.mem_cons, true_or, or_true, and_self]

/-! ## What the graph pieces compute, from any entry contents -/

variable (V : Valuation τ sig (Elt F))

set_option maxHeartbeats 4000000 in
/-- Row 0 of the edge array, flattened. -/
theorem slices_sources : after (slices (F := F)) V (Proc.devRef .tc main_v1) = sources (V (Proc.devRef .tc main_arg1)) := by
  after_results
  rfl

set_option maxHeartbeats 4000000 in
/-- Row 1 of the edge array, flattened. -/
theorem slices_targets : after (slices (F := F)) V (Proc.devRef .tc main_v3) = targets (V (Proc.devRef .tc main_arg1)) := by
  after_results
  rfl

set_option maxHeartbeats 4000000 in
/-- The node numbers. -/
theorem slices_ids : after (slices (F := F)) V (Proc.devRef .tc main_v5) = nodeIds := by
  after_results
  rfl

set_option maxHeartbeats 4000000 in
/-- Layer 1's mixing: the source rows of the product, scaled by the edge weights, added into the target rows. -/
theorem mix1_value : after (mix1 (F := F)) V (Proc.devRef .tc main_v45) = mix (V (Proc.devRef .tc main_v6)) (V (Proc.devRef .tc main_v7)) (V (Proc.devRef .tc main_v32)) (V (Proc.devRef .tc main_v4)) := by
  after_results
  rfl

set_option maxHeartbeats 4000000 in
/-- The node numbers, made again before layer 2's lists. -/
theorem dense2_ids : after (dense2 (F := F)) V (Proc.devRef .tc main_v66) = nodeIds := by
  after_results
  rfl

set_option maxHeartbeats 4000000 in
/-- The node numbers, made again before layer 3's lists. -/
theorem dense3_ids : after (dense3 (F := F)) V (Proc.devRef .tc main_v127) = nodeIds := by
  after_results
  rfl

set_option maxHeartbeats 4000000 in
/-- Layer 1's source list: the sources with the node numbers appended. -/
theorem edges1_src : after (edges1 (F := F)) V (Proc.devRef .tc main_v6) = withLoops (V (Proc.devRef .tc main_v1)) (V (Proc.devRef .tc main_v5)) := by
  after_results
  rfl

set_option maxHeartbeats 4000000 in
/-- Layer 1's target list: the targets with the node numbers appended. -/
theorem edges1_dst : after (edges1 (F := F)) V (Proc.devRef .tc main_v7) = withLoops (V (Proc.devRef .tc main_v3)) (V (Proc.devRef .tc main_v5)) := by
  after_results
  rfl

set_option maxHeartbeats 8000000 in
/-- Layer 1's edge weights: the product of the two ends' degree factors. -/
theorem edges1_weight : after (edges1 (F := F)) V (Proc.devRef .tc main_v32) = weight (withLoops (V (Proc.devRef .tc main_v1)) (V (Proc.devRef .tc main_v5))) (withLoops (V (Proc.devRef .tc main_v3)) (V (Proc.devRef .tc main_v5))) := by
  after_results
  rfl

set_option maxHeartbeats 4000000 in
/-- Layer 2's source list: the sources with the node numbers appended. -/
theorem edges2_src : after (edges2 (F := F)) V (Proc.devRef .tc main_v67) = withLoops (V (Proc.devRef .tc main_v1)) (V (Proc.devRef .tc main_v66)) := by
  after_results
  rfl

set_option maxHeartbeats 4000000 in
/-- Layer 2's target list: the targets with the node numbers appended. -/
theorem edges2_dst : after (edges2 (F := F)) V (Proc.devRef .tc main_v68) = withLoops (V (Proc.devRef .tc main_v3)) (V (Proc.devRef .tc main_v66)) := by
  after_results
  rfl

set_option maxHeartbeats 8000000 in
/-- Layer 2's edge weights: the product of the two ends' degree factors. -/
theorem edges2_weight : after (edges2 (F := F)) V (Proc.devRef .tc main_v93) = weight (withLoops (V (Proc.devRef .tc main_v1)) (V (Proc.devRef .tc main_v66))) (withLoops (V (Proc.devRef .tc main_v3)) (V (Proc.devRef .tc main_v66))) := by
  after_results
  rfl

set_option maxHeartbeats 4000000 in
/-- Layer 3's source list: the sources with the node numbers appended. -/
theorem edges3_src : after (edges3 (F := F)) V (Proc.devRef .tc main_v128) = withLoops (V (Proc.devRef .tc main_v1)) (V (Proc.devRef .tc main_v127)) := by
  after_results
  rfl

set_option maxHeartbeats 4000000 in
/-- Layer 3's target list: the targets with the node numbers appended. -/
theorem edges3_dst : after (edges3 (F := F)) V (Proc.devRef .tc main_v129) = withLoops (V (Proc.devRef .tc main_v3)) (V (Proc.devRef .tc main_v127)) := by
  after_results
  rfl

set_option maxHeartbeats 8000000 in
/-- Layer 3's edge weights: the product of the two ends' degree factors. -/
theorem edges3_weight : after (edges3 (F := F)) V (Proc.devRef .tc main_v154) = weight (withLoops (V (Proc.devRef .tc main_v1)) (V (Proc.devRef .tc main_v127))) (withLoops (V (Proc.devRef .tc main_v3)) (V (Proc.devRef .tc main_v127))) := by
  after_results
  rfl

set_option maxHeartbeats 4000000 in
/-- Layer 2's mixing. -/
theorem mix2_value : after (mix2 (F := F)) V (Proc.devRef .tc main_v106) = mix (V (Proc.devRef .tc main_v67)) (V (Proc.devRef .tc main_v68)) (V (Proc.devRef .tc main_v93)) (V (Proc.devRef .tc main_v65)) := by
  after_results
  rfl

set_option maxHeartbeats 4000000 in
/-- Layer 3's mixing. -/
theorem mix3_value : after (mix3 (F := F)) V (Proc.devRef .tc main_v167) = mix (V (Proc.devRef .tc main_v128)) (V (Proc.devRef .tc main_v129)) (V (Proc.devRef .tc main_v154)) (V (Proc.devRef .tc main_v126)) := by
  after_results
  rfl

end Cert.ReferenceIdeal.Graph

end
-- ==== Proof.RefFold.lean ====
/-
  The idealized reference's result as a function of its launch arrays. The program is a straight line of 220 host
  operations; the contents of every buffer after it are the fold of the operations over the launch contents. The
  line is cut into thirteen consecutive pieces — the edge rows and first product; then, three times over, the edge
  lists with self-loops and their weights, the mixing of a product along the edges, and the layer's pointwise step
  or the next product — and the fold is walked piece by piece. The reference recomputes the edge lists and weights
  in every layer from the same two edge rows, so each copy is the same array. A per-feature vector enters a layer
  broadcast to a one-row matrix, which is the same array as the vector cast to one row.
-/
import proofs.«101335_j30365418783390_1_alg».proof.Proof.RefOpsPatched
import proofs.«101335_j30365418783390_1_alg».proof.Proof.Glue
import proofs.«101335_j30365418783390_1_alg».proof.Proof.Layers
import proofs.«101335_j30365418783390_1_alg».proof.Proof.Network
import proofs.«101335_j30365418783390_1_alg».proof.Proof.LibRow
import proofs.«101335_j30365418783390_1_alg».proof.Proof.RefDense
import proofs.«101335_j30365418783390_1_alg».proof.Proof.RefPointwise
import proofs.«101335_j30365418783390_1_alg».proof.Proof.RefGraph
import Idealize.ShloMosaic.Lib.StableHlo.Run

set_option maxRecDepth 16384

noncomputable section

namespace Cert.ReferenceIdeal.Fold

open Cert.ReferenceIdeal Cert.ReferenceIdeal.Gen Cert.ReferenceIdeal.RunP Cert.ReferenceIdeal.Graph
open Cert.KernelIdeal.Glue
open Idealize.ShloMosaic Idealize.ShloMosaic.TcCoe Idealize.SL.Sem Idealize.ShloMosaic.StableHlo

/-- Two lines run one after the other fold as their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A length-128 vector broadcast to one row is the vector cast to one row. -/
theorem rowR_eq (x : (⟨S128, .f32⟩ : BufTy).Contents (Elt Ideal)) : Pointwise.rowR x = featRow x := by
  unfold featRow
  exact (Cert.LibRow.shapeCast_row_eq_broadcastInDim (b := 128) x _ _).symm
/-- The same for the head's length-2 bias. -/
theorem headRowR_eq (x : (⟨S2, .f32⟩ : BufTy).Contents (Elt Ideal)) :
    broadcastInDim S1x2 ![1] bcast_S2_S1x2_1 x = headRow x := by
  unfold headRow
  exact (Cert.LibRow.shapeCast_row_eq_broadcastInDim (b := 2) x _ _).symm

variable (m : (ℓ : Loc nD τ sig) → Buf (Elt Ideal) ℓ) (c : Dev nD)

/-! ## The contents after each piece -/

/-- The launch contents. -/
def R0 : Valuation τ sig (Elt Ideal) := launchContents m c
/-- The contents after piece `slices`. -/
def R1 : Valuation τ sig (Elt Ideal) := after (slices (F := Ideal)) (R0 m c)
/-- The contents after piece `edges1`. -/
def R2 : Valuation τ sig (Elt Ideal) := after (edges1 (F := Ideal)) (R1 m c)
/-- The contents after piece `mix1`. -/
def R3 : Valuation τ sig (Elt Ideal) := after (mix1 (F := Ideal)) (R2 m c)
/-- The contents after piece `norm1`. -/
def R4 : Valuation τ sig (Elt Ideal) := after (norm1 (F := Ideal)) (R3 m c)
/-- The contents after piece `dense2`. -/
def R5 : Valuation τ sig (Elt Ideal) := after (dense2 (F := Ideal)) (R4 m c)
/-- The contents after piece `edges2`. -/
def R6 : Valuation τ sig (Elt Ideal) := after (edges2 (F := Ideal)) (R5 m c)
/-- The contents after piece `mix2`. -/
def R7 : Valuation τ sig (Elt Ideal) := after (mix2 (F := Ideal)) (R6 m c)
/-- The contents after piece `norm2`. -/
def R8 : Valuation τ sig (Elt Ideal) := after (norm2 (F := Ideal)) (R7 m c)
/-- The contents after piece `dense3`. -/
def R9 : Valuation τ sig (Elt Ideal) := after (dense3 (F := Ideal)) (R8 m c)
/-- The contents after piece `edges3`. -/
def R10 : Valuation τ sig (Elt Ideal) := after (edges3 (F := Ideal)) (R9 m c)
/-- The contents after piece `mix3`. -/
def R11 : Valuation τ sig (Elt Ideal) := after (mix3 (F := Ideal)) (R10 m c)
/-- The contents after piece `clamp3`. -/
def R12 : Valuation τ sig (Elt Ideal) := after (clamp3 (F := Ideal)) (R11 m c)
/-- The contents after piece `headOps`. -/
def R13 : Valuation τ sig (Elt Ideal) := after (headOps (F := Ideal)) (R12 m c)

/-- The whole line's fold is the thirteen pieces' folds in order. -/
theorem fold_eq : after (ops (F := Ideal)) (launchContents m c) = R13 m c := by
  rw [ops_eq_pieces]
  simp only [after_append]
  rfl

/-! ## A buffer no piece has written yet is still the launch's; one no later piece writes is kept -/

theorem R3_launch (b : Ref sig .tc) (h0 : b ∉ written_slices) (h1 : b ∉ written_edges1) (h2 : b ∉ written_mix1) :
    R3 m c (Proc.devRef .tc b) = m ((c.tc : Thread nD τ).loc b) :=
  (after_of_writes_sub mix1 _ written_mix1_sub h2).trans ((after_of_writes_sub edges1 _ written_edges1_sub h1).trans (after_of_writes_sub slices _ written_slices_sub h0))
theorem R4_launch (b : Ref sig .tc) (h0 : b ∉ written_slices) (h1 : b ∉ written_edges1) (h2 : b ∉ written_mix1) (h3 : b ∉ written_norm1) :
    R4 m c (Proc.devRef .tc b) = m ((c.tc : Thread nD τ).loc b) :=
  (after_of_writes_sub norm1 _ written_norm1_sub h3).trans ((after_of_writes_sub mix1 _ written_mix1_sub h2).trans ((after_of_writes_sub edges1 _ written_edges1_sub h1).trans (after_of_writes_sub slices _ written_slices_sub h0)))
theorem R7_launch (b : Ref sig .tc) (h0 : b ∉ written_slices) (h1 : b ∉ written_edges1) (h2 : b ∉ written_mix1) (h3 : b ∉ written_norm1) (h4 : b ∉ written_dense2) (h5 : b ∉ written_edges2) (h6 : b ∉ written_mix2) :
    R7 m c (Proc.devRef .tc b) = m ((c.tc : Thread nD τ).loc b) :=
  (after_of_writes_sub mix2 _ written_mix2_sub h6).trans ((after_of_writes_sub edges2 _ written_edges2_sub h5).trans ((after_of_writes_sub dense2 _ written_dense2_sub h4).trans ((after_of_writes_sub norm1 _ written_norm1_sub h3).trans ((after_of_writes_sub mix1 _ written_mix1_sub h2).trans ((after_of_writes_sub edges1 _ written_edges1_sub h1).trans (after_of_writes_sub slices _ written_slices_sub h0))))))
theorem R8_launch (b : Ref sig .tc) (h0 : b ∉ written_slices) (h1 : b ∉ written_edges1) (h2 : b ∉ written_mix1) (h3 : b ∉ written_norm1) (h4 : b ∉ written_dense2) (h5 : b ∉ written_edges2) (h6 : b ∉ written_mix2) (h7 : b ∉ written_norm2) :
    R8 m c (Proc.devRef .tc b) = m ((c.tc : Thread nD τ).loc b) :=
  (after_of_writes_sub norm2 _ written_norm2_sub h7).trans ((after_of_writes_sub mix2 _ written_mix2_sub h6).trans ((after_of_writes_sub edges2 _ written_edges2_sub h5).trans ((after_of_writes_sub dense2 _ written_dense2_sub h4).trans ((after_of_writes_sub norm1 _ written_norm1_sub h3).trans ((after_of_writes_sub mix1 _ written_mix1_sub h2).trans ((after_of_writes_sub edges1 _ written_edges1_sub h1).trans (after_of_writes_sub slices _ written_slices_sub h0)))))))
theorem R11_launch (b : Ref sig .tc) (h0 : b ∉ written_slices) (h1 : b ∉ written_edges1) (h2 : b ∉ written_mix1) (h3 : b ∉ written_norm1) (h4 : b ∉ written_dense2) (h5 : b ∉ written_edges2) (h6 : b ∉ written_mix2) (h7 : b ∉ written_norm2) (h8 : b ∉ written_dense3) (h9 : b ∉ written_edges3) (h10 : b ∉ written_mix3) :
    R11 m c (Proc.devRef .tc b) = m ((c.tc : Thread nD τ).loc b) :=
  (after_of_writes_sub mix3 _ written_mix3_sub h10).trans ((after_of_writes_sub edges3 _ written_edges3_sub h9).trans ((after_of_writes_sub dense3 _ written_dense3_sub h8).trans ((after_of_writes_sub norm2 _ written_norm2_sub h7).trans ((after_of_writes_sub mix2 _ written_mix2_sub h6).trans ((after_of_writes_sub edges2 _ written_edges2_sub h5).trans ((after_of_writes_sub dense2 _ written_dense2_sub h4).trans ((after_of_writes_sub norm1 _ written_norm1_sub h3).trans ((after_of_writes_sub mix1 _ written_mix1_sub h2).trans ((after_of_writes_sub edges1 _ written_edges1_sub h1).trans (after_of_writes_sub slices _ written_slices_sub h0))))))))))
theorem R12_launch (b : Ref sig .tc) (h0 : b ∉ written_slices) (h1 : b ∉ written_edges1) (h2 : b ∉ written_mix1) (h3 : b ∉ written_norm1) (h4 : b ∉ written_dense2) (h5 : b ∉ written_edges2) (h6 : b ∉ written_mix2) (h7 : b ∉ written_norm2) (h8 : b ∉ written_dense3) (h9 : b ∉ written_edges3) (h10 : b ∉ written_mix3) (h11 : b ∉ written_clamp3) :
    R12 m c (Proc.devRef .tc b) = m ((c.tc : Thread nD τ).loc b) :=
  (after_of_writes_sub clamp3 _ written_clamp3_sub h11).trans ((after_of_writes_sub mix3 _ written_mix3_sub h10).trans ((after_of_writes_sub edges3 _ written_edges3_sub h9).trans ((after_of_writes_sub dense3 _ written_dense3_sub h8).trans ((after_of_writes_sub norm2 _ written_norm2_sub h7).trans ((after_of_writes_sub mix2 _ written_mix2_sub h6).trans ((after_of_writes_sub edges2 _ written_edges2_sub h5).trans ((after_of_writes_sub dense2 _ written_dense2_sub h4).trans ((after_of_writes_sub norm1 _ written_norm1_sub h3).trans ((after_of_writes_sub mix1 _ written_mix1_sub h2).trans ((after_of_writes_sub edges1 _ written_edges1_sub h1).trans (after_of_writes_sub slices _ written_slices_sub h0)))))))))))
theorem R5_R1 (b : Ref sig .tc) (h1 : b ∉ written_edges1) (h2 : b ∉ written_mix1) (h3 : b ∉ written_norm1) (h4 : b ∉ written_dense2) :
    R5 m c (Proc.devRef .tc b) = R1 m c (Proc.devRef .tc b) :=
  (after_of_writes_sub dense2 _ written_dense2_sub h4).trans ((after_of_writes_sub norm1 _ written_norm1_sub h3).trans ((after_of_writes_sub mix1 _ written_mix1_sub h2).trans (after_of_writes_sub edges1 _ written_edges1_sub h1)))
theorem R9_R5 (b : Ref sig .tc) (h5 : b ∉ written_edges2) (h6 : b ∉ written_mix2) (h7 : b ∉ written_norm2) (h8 : b ∉ written_dense3) :
    R9 m c (Proc.devRef .tc b) = R5 m c (Proc.devRef .tc b) :=
  (after_of_writes_sub dense3 _ written_dense3_sub h8).trans ((after_of_writes_sub norm2 _ written_norm2_sub h7).trans ((after_of_writes_sub mix2 _ written_mix2_sub h6).trans (after_of_writes_sub edges2 _ written_edges2_sub h5)))

/-- The three hidden arrays as functions of the launch arrays. -/
def hiddenA : (⟨S50000x128, .f32⟩ : BufTy).Contents (Elt Ideal) :=
  Cert.KernelIdeal.Network.standardLayer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
def hiddenB : (⟨S50000x128, .f32⟩ : BufTy).Contents (Elt Ideal) :=
  Cert.KernelIdeal.Network.standardLayer (hiddenA m c) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
def hiddenC : (⟨S50000x128, .f32⟩ : BufTy).Contents (Elt Ideal) :=
  Cert.KernelIdeal.Network.clampLayer (hiddenB m c) (m ((c.tc : Thread nD τ).loc main_arg1)) (m ((c.tc : Thread nD τ).loc main_arg14)) (m ((c.tc : Thread nD τ).loc main_arg15))

/-! ## Layer 1 -/

theorem R1_product : R1 m c (Proc.devRef .tc main_v4) = Cert.Layers.project (m ((c.tc : Thread nD τ).loc main_arg0)) (m ((c.tc : Thread nD τ).loc main_arg2)) := Dense.slices_product (R0 m c)
theorem R1_sources : R1 m c (Proc.devRef .tc main_v1) = sources (m ((c.tc : Thread nD τ).loc main_arg1)) := slices_sources (R0 m c)
theorem R1_targets : R1 m c (Proc.devRef .tc main_v3) = targets (m ((c.tc : Thread nD τ).loc main_arg1)) := slices_targets (R0 m c)
theorem R1_ids : R1 m c (Proc.devRef .tc main_v5) = nodeIds := slices_ids (R0 m c)

theorem R2_src : R2 m c (Proc.devRef .tc main_v6) = Cert.KernelIdeal.Network.src (m ((c.tc : Thread nD τ).loc main_arg1)) := by
  refine (edges1_src (R1 m c)).trans ?_
  rw [R1_sources, R1_ids]; rfl
theorem R2_dst : R2 m c (Proc.devRef .tc main_v7) = Cert.KernelIdeal.Network.dst (m ((c.tc : Thread nD τ).loc main_arg1)) := by
  refine (edges1_dst (R1 m c)).trans ?_
  rw [R1_targets, R1_ids]; rfl
theorem R2_weight : R2 m c (Proc.devRef .tc main_v32)
    = weight (Cert.KernelIdeal.Network.src (m ((c.tc : Thread nD τ).loc main_arg1))) (Cert.KernelIdeal.Network.dst (m ((c.tc : Thread nD τ).loc main_arg1))) := by
  refine (edges1_weight (R1 m c)).trans ?_
  rw [R1_sources, R1_targets, R1_ids]; rfl
theorem R2_product : R2 m c (Proc.devRef .tc main_v4) = Cert.Layers.project (m ((c.tc : Thread nD τ).loc main_arg0)) (m ((c.tc : Thread nD τ).loc main_arg2)) :=
  (after_of_writes_sub edges1 _ written_edges1_sub (by decide)).trans (R1_product m c)

theorem R3_mixed : R3 m c (Proc.devRef .tc main_v45)
    = Cert.KernelIdeal.Network.spread (m ((c.tc : Thread nD τ).loc main_arg1)) (Cert.Layers.project (m ((c.tc : Thread nD τ).loc main_arg0)) (m ((c.tc : Thread nD τ).loc main_arg2))) := by
  refine (mix1_value (R2 m c)).trans ?_
  rw [R2_src, R2_dst, R2_weight, R2_product]; rfl

/-- The first hidden array. -/
theorem R4_hidden : R4 m c (Proc.devRef .tc main_v64) = hiddenA m c := by
  refine (Pointwise.norm1_value (R3 m c)).trans ?_
  rw [R3_mixed, R3_launch m c main_arg3 (by decide) (by decide) (by decide), R3_launch m c main_arg4 (by decide) (by decide) (by decide), R3_launch m c main_arg5 (by decide) (by decide) (by decide), R3_launch m c main_arg6 (by decide) (by decide) (by decide), R3_launch m c main_arg7 (by decide) (by decide) (by decide)]
  simp only [rowR_eq]
  rfl

/-! ## Layer 2 -/

theorem R5_product : R5 m c (Proc.devRef .tc main_v65) = Cert.Layers.project (hiddenA m c) (m ((c.tc : Thread nD τ).loc main_arg8)) := by
  refine (Dense.dense2_product (R4 m c)).trans ?_
  rw [R4_hidden, R4_launch m c main_arg8 (by decide) (by decide) (by decide) (by decide)]
theorem R5_ids : R5 m c (Proc.devRef .tc main_v66) = nodeIds := dense2_ids (R4 m c)
theorem R5_sources : R5 m c (Proc.devRef .tc main_v1) = sources (m ((c.tc : Thread nD τ).loc main_arg1)) :=
  (R5_R1 m c main_v1 (by decide) (by decide) (by decide) (by decide)).trans (R1_sources m c)
theorem R5_targets : R5 m c (Proc.devRef .tc main_v3) = targets (m ((c.tc : Thread nD τ).loc main_arg1)) :=
  (R5_R1 m c main_v3 (by decide) (by decide) (by decide) (by decide)).trans (R1_targets m c)

theorem R6_src : R6 m c (Proc.devRef .tc main_v67) = Cert.KernelIdeal.Network.src (m ((c.tc : Thread nD τ).loc main_arg1)) := by
  refine (edges2_src (R5 m c)).trans ?_
  rw [R5_sources, R5_ids]; rfl
theorem R6_dst : R6 m c (Proc.devRef .tc main_v68) = Cert.KernelIdeal.Network.dst (m ((c.tc : Thread nD τ).loc main_arg1)) := by
  refine (edges2_dst (R5 m c)).trans ?_
  rw [R5_targets, R5_ids]; rfl
theorem R6_weight : R6 m c (Proc.devRef .tc main_v93)
    = weight (Cert.KernelIdeal.Network.src (m ((c.tc : Thread nD τ).loc main_arg1))) (Cert.KernelIdeal.Network.dst (m ((c.tc : Thread nD τ).loc main_arg1))) := by
  refine (edges2_weight (R5 m c)).trans ?_
  rw [R5_sources, R5_targets, R5_ids]; rfl
theorem R6_product : R6 m c (Proc.devRef .tc main_v65) = Cert.Layers.project (hiddenA m c) (m ((c.tc : Thread nD τ).loc main_arg8)) :=
  (after_of_writes_sub edges2 _ written_edges2_sub (by decide)).trans (R5_product m c)

theorem R7_mixed : R7 m c (Proc.devRef .tc main_v106)
    = Cert.KernelIdeal.Network.spread (m ((c.tc : Thread nD τ).loc main_arg1)) (Cert.Layers.project (hiddenA m c) (m ((c.tc : Thread nD τ).loc main_arg8))) := by
  refine (mix2_value (R6 m c)).trans ?_
  rw [R6_src, R6_dst, R6_weight, R6_product]; rfl

/-- The second hidden array. -/
theorem R8_hidden : R8 m c (Proc.devRef .tc main_v125) = hiddenB m c := by
  refine (Pointwise.norm2_value (R7 m c)).trans ?_
  rw [R7_mixed, R7_launch m c main_arg9 (by decide) (by decide) (by decide) (by decide) (by decide) (by decide) (by decide), R7_launch m c main_arg10 (by decide) (by decide) (by decide) (by decide) (by decide) (by decide) (by decide), R7_launch m c main_arg11 (by decide) (by decide) (by decide) (by decide) (by decide) (by decide) (by decide), R7_launch m c main_arg12 (by decide) (by decide) (by decide) (by decide) (by decide) (by decide) (by decide), R7_launch m c main_arg13 (by decide) (by decide) (by decide) (by decide) (by decide) (by decide) (by decide)]
  simp only [rowR_eq]
  rfl

/-! ## Layer 3 -/

theorem R9_product : R9 m c (Proc.devRef .tc main_v126) = Cert.Layers.project (hiddenB m c) (m ((c.tc : Thread nD τ).loc main_arg14)) := by
  refine (Dense.dense3_product (R8 m c)).trans ?_
  rw [R8_hidden, R8_launch m c main_arg14 (by decide) (by decide) (by decide) (by decide) (by decide) (by decide) (by decide) (by decide)]
theorem R9_ids : R9 m c (Proc.devRef .tc main_v127) = nodeIds := dense3_ids (R8 m c)
theorem R9_sources : R9 m c (Proc.devRef .tc main_v1) = sources (m ((c.tc : Thread nD τ).loc main_arg1)) :=
  (R9_R5 m c main_v1 (by decide) (by decide) (by decide) (by decide)).trans (R5_sources m c)
theorem R9_targets : R9 m c (Proc.devRef .tc main_v3) = targets (m ((c.tc : Thread nD τ).loc main_arg1)) :=
  (R9_R5 m c main_v3 (by decide) (by decide) (by decide) (by decide)).trans (R5_targets m c)

theorem R10_src : R10 m c (Proc.devRef .tc main_v128) = Cert.KernelIdeal.Network.src (m ((c.tc : Thread nD τ).loc main_arg1)) := by
  refine (edges3_src (R9 m c)).trans ?_
  rw [R9_sources, R9_ids]; rfl
theorem R10_dst : R10 m c (Proc.devRef .tc main_v129) = Cert.KernelIdeal.Network.dst (m ((c.tc : Thread nD τ).loc main_arg1)) := by
  refine (edges3_dst (R9 m c)).trans ?_
  rw [R9_targets, R9_ids]; rfl
theorem R10_weight : R10 m c (Proc.devRef .tc main_v154)
    = weight (Cert.KernelIdeal.Network.src (m ((c.tc : Thread nD τ).loc main_arg1))) (Cert.KernelIdeal.Network.dst (m ((c.tc : Thread nD τ).loc main_arg1))) := by
  refine (edges3_weight (R9 m c)).trans ?_
  rw [R9_sources, R9_targets, R9_ids]; rfl
theorem R10_product : R10 m c (Proc.devRef .tc main_v126) = Cert.Layers.project (hiddenB m c) (m ((c.tc : Thread nD τ).loc main_arg14)) :=
  (after_of_writes_sub edges3 _ written_edges3_sub (by decide)).trans (R9_product m c)

theorem R11_mixed : R11 m c (Proc.devRef .tc main_v167)
    = Cert.KernelIdeal.Network.spread (m ((c.tc : Thread nD τ).loc main_arg1)) (Cert.Layers.project (hiddenB m c) (m ((c.tc : Thread nD τ).loc main_arg14))) := by
  refine (mix3_value (R10 m c)).trans ?_
  rw [R10_src, R10_dst, R10_weight, R10_product]; rfl

/-- The third hidden array. -/
theorem R12_hidden : R12 m c (Proc.devRef .tc main_v171) = hiddenC m c := by
  refine (Pointwise.clamp3_value (R11 m c)).trans ?_
  rw [R11_mixed, R11_launch m c main_arg15 (by decide) (by decide) (by decide) (by decide) (by decide) (by decide) (by decide) (by decide) (by decide) (by decide) (by decide), rowR_eq]
  rfl

/-! ## The output head -/

theorem R13_scores : R13 m c (Proc.devRef .tc main_v175)
    = Cert.KernelIdeal.Network.scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  refine (Dense.head_scores (R12 m c)).trans ?_
  rw [R12_hidden, R12_launch m c main_arg16 (by decide) (by decide) (by decide) (by decide) (by decide) (by decide) (by decide) (by decide) (by decide) (by decide) (by decide) (by decide), R12_launch m c main_arg17 (by decide) (by decide) (by decide) (by decide) (by decide) (by decide) (by decide) (by decide) (by decide) (by decide) (by decide) (by decide), headRowR_eq]
  rfl

/-- The result buffer after the whole line is the network's class scores of the launch arrays. -/
theorem fold_scores : after (ops (F := Ideal)) (launchContents m c) (Proc.devRef .tc main_v175)
    = Cert.KernelIdeal.Network.scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [fold_eq]
  exact R13_scores m c

end Cert.ReferenceIdeal.Fold

end
-- ==== Proof.lean ====
/-
  The certificate of a three-layer graph-convolution network on 50000 nodes: a kernel made of seven tiled regions
  (three matrix products, two bias-standardise-clamp steps, one bias-clamp step and the output head) around the
  host's graph step, against a plain reference that does everything on the host.

  Read with exact reals the two programs compute one function of their eighteen arguments, `Network.scores`:
  each layer multiplies the node array by a weight matrix, mixes the rows along the graph's edges (each edge
  weighted by the inverse square roots of its ends' degrees, self-loops added), adds a bias, and — in the first two
  layers — standardises each feature with stored statistics and clamps at zero; the third layer only clamps; the
  head is one more product, into two columns, plus a bias. No algebraic law is needed beyond reading each side: a
  tiled matrix product is the same sum over k as the host's, row block by row block; a tiled pointwise step is the
  host's pointwise step entry by entry; the graph step is the same host operations on both sides; and a vector cast
  to one row is the vector broadcast to one row. So the finiteness of the inputs is never used.

  The kernel's run and the frames of both kernel programs are the generated ones; the kernel's result is read off
  the run's last boundary (`KernelRun`, `KernelFold`); the reference's run is its operation list's fold, evaluated
  piece by piece (`RefOpsPatched`, `RefFold`). The rewriting pass changed nothing, so `preserves` is `True`.
-/
import proofs.«101335_j30365418783390_1_alg».proof.Defs
import proofs.«101335_j30365418783390_1_alg».proof.Proof.Gen.Kernel
import proofs.«101335_j30365418783390_1_alg».proof.Proof.Gen.Kernel.Skeleton
import proofs.«101335_j30365418783390_1_alg».proof.Proof.Gen.Kernel.Launch
import proofs.«101335_j30365418783390_1_alg».proof.Proof.Gen.Kernel.Points
import proofs.«101335_j30365418783390_1_alg».proof.Proof.Gen.Kernel.Frame
import proofs.«101335_j30365418783390_1_alg».proof.Proof.Gen.KernelIdeal
import proofs.«101335_j30365418783390_1_alg».proof.Proof.Gen.KernelIdeal.Skeleton
import proofs.«101335_j30365418783390_1_alg».proof.Proof.Gen.KernelIdeal.Launch
import proofs.«101335_j30365418783390_1_alg».proof.Proof.Gen.KernelIdeal.Points
import proofs.«101335_j30365418783390_1_alg».proof.Proof.Gen.KernelIdeal.Frame
import proofs.«101335_j30365418783390_1_alg».proof.Proof.Gen.ReferenceIdeal
import proofs.«101335_j30365418783390_1_alg».proof.Proof.Gen.Pre_finite_inputs
import proofs.«101335_j30365418783390_1_alg».proof.Proof.KernelRun
import proofs.«101335_j30365418783390_1_alg».proof.Proof.KernelFold
import proofs.«101335_j30365418783390_1_alg».proof.Proof.RefOpsPatched
import proofs.«101335_j30365418783390_1_alg».proof.Proof.RefFold
import Idealize.ShloMosaic.Adequacy
import Idealize.ShloMosaic.Init

noncomputable section

namespace Cert.Proof

open Idealize.ShloMosaic Idealize.SL.Sem

/-- The two kernel programs run, fault-free, and leave their arguments as launched: the generated frames. -/
theorem frame_kernel : Cert.frame_Kernel := fun m ρ _ => Cert.Kernel.Gen.frame m ρ
theorem frame_kernelIdeal : Cert.frame_KernelIdeal := fun m ρ _ => Cert.KernelIdeal.Gen.frame m ρ

/-- The reference runs, fault-free, and leaves its arguments as launched: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Nothing was rewritten in the idealized kernel. -/
theorem preserves : Cert.preserves_Kernel_KernelIdeal := trivial

/-- With exact reals both programs end with the network's class scores of their (agreeing) arguments. -/
theorem algebraic : Cert.algebraic_KernelIdeal_ReferenceIdeal := by
  intro m ρ m' ρ' _ hagree
  refine ⟨fun c => Cert.KernelIdeal.Network.scores
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · exact (θ_run Cert.KernelIdeal.defs _ _).mono
      (fun _ h c => ⟨(h c).1.trans (Cert.KernelIdeal.Fold.W14_scores m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.RunP.run (F := Ideal) m' ρ')
    obtain ⟨e0, e1, e2, e3, e4, e5, e6, e7, e8, e9, e10, e11, e12, e13, e14, e15, e16, e17⟩ := hagree c
    rw [Cert.ReferenceIdeal.Fold.fold_scores m' c, e0, e1, e2, e3, e4, e5, e6, e7, e8, e9, e10, e11, e12, e13, e14, e15, e16, e17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
